-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)) →
    ∃ (v0 : (c : Dev Cert.KernelIdeal.nD) → Buf (Elt Ideal) ((c.tc : Thread Cert.KernelIdeal.nD Cert.KernelIdeal.τ).loc Cert.KernelIdeal.main_v21)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v21) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v33) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x64 : Shape := ⟨2, ![100000, 64]⟩
abbrev S1250000 : Shape := ⟨1, ![1250000]⟩
abbrev S64x64 : Shape := ⟨2, ![64, 64]⟩
abbrev S64 : Shape := ⟨1, ![64]⟩
abbrev S128x128 : Shape := ⟨2, ![128, 128]⟩
abbrev S128 : Shape := ⟨1, ![128]⟩
abbrev S_ : Shape := ⟨0, ![]⟩
abbrev S1x64 : Shape := ⟨2, ![1, 64]⟩
abbrev S1250000x1 : Shape := ⟨2, ![1250000, 1]⟩
abbrev S1250000x64 : Shape := ⟨2, ![1250000, 64]⟩
abbrev S100000 : Shape := ⟨1, ![100000]⟩
abbrev S100000x1 : Shape := ⟨2, ![100000, 1]⟩
abbrev S100000x128 : Shape := ⟨2, ![100000, 128]⟩
abbrev S1x128 : Shape := ⟨2, ![1, 128]⟩

class Facts : Prop where
  bcast_S_S100000x64 : S_.BroadcastsInDim S100000x64 (![] : Fin 0 → Fin S100000x64.rank)
  reducesTo_S100000x64_S_d0_1 : S100000x64.ReducesTo [0, 1] S_
  h_S_ : 0 < S_.numel
  bcast_S_S1250000 : S_.BroadcastsInDim S1250000 (![] : Fin 0 → Fin S1250000.rank)
  reducesTo_S1250000_S_d0 : S1250000.ReducesTo [0] S_
  bcast_S_S64x64 : S_.BroadcastsInDim S64x64 (![] : Fin 0 → Fin S64x64.rank)
  reducesTo_S64x64_S_d0_1 : S64x64.ReducesTo [0, 1] S_
  bcast_S_S64 : S_.BroadcastsInDim S64 (![] : Fin 0 → Fin S64.rank)
  reducesTo_S64_S_d0 : S64.ReducesTo [0] S_
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_
  bcast_S64_S1x64_1 : S64.BroadcastsInDim S1x64 (![1] : Fin 1 → Fin S1x64.rank)
  bcast_S1x64_S100000x64_0_1 : S1x64.BroadcastsInDim S100000x64 (![0, 1] : Fin 2 → Fin S100000x64.rank)
  bcast_S1250000_S1250000x1_0 : S1250000.BroadcastsInDim S1250000x1 (![0] : Fin 1 → Fin S1250000x1.rank)
  bcast_S1250000x1_S1250000x64_0_1 : S1250000x1.BroadcastsInDim S1250000x64 (![0, 1] : Fin 2 → Fin S1250000x64.rank)
  bcast_S_S100000 : S_.BroadcastsInDim S100000 (![] : Fin 0 → Fin S100000.rank)
  bcast_S100000_S100000x1_0 : S100000.BroadcastsInDim S100000x1 (![0] : Fin 1 → Fin S100000x1.rank)
  bcast_S100000x1_S100000x64_0_1 : S100000x1.BroadcastsInDim S100000x64 (![0, 1] : Fin 2 → Fin S100000x64.rank)
  concatenates_S100000x64_S100000x64_S100000x128_d1 : Shape.Concatenates [S100000x64, S100000x64] S100000x128 1
  bcast_S128_S1x128_1 : S128.BroadcastsInDim S1x128 (![1] : Fin 1 → Fin S1x128.rank)
  bcast_S1x128_S100000x128_0_1 : S1x128.BroadcastsInDim S100000x128 (![0, 1] : Fin 2 → Fin S100000x128.rank)
  bcast_S_S100000x128 : S_.BroadcastsInDim S100000x128 (![] : Fin 0 → Fin S100000x128.rank)
  reducesTo_S100000x128_S_d0_1 : S100000x128.ReducesTo [0, 1] S_
  dot_S100000x64_S64x64_S100000x64_1_0_0_1_n_n_wf : DotDims.WF S100000x64 S64x64 S100000x64 [1] [0] [0] [1] [] []
  gather_S100000x64_S1250000x1_S1250000x64_1_0_n_n_0_1_164_wf : GatherDims.WF S100000x64 S1250000x1 S1250000x64 [1] [0] [] [0] [] 1 ![1, 64]
  scatter_S100000x64_S1250000x1_S1250000x64_1_0_0_1_wf : ScatterDims.WF S100000x64 S1250000x1 S1250000x64 [1] [0] [0] 1
  scatter_S100000_S1250000x1_S1250000_n_0_0_1_wf : ScatterDims.WF S100000 S1250000x1 S1250000 [] [0] [0] 1
  dot_S100000x128_S128x128_S100000x128_1_0_0_1_n_n_wf : DotDims.WF S100000x128 S128x128 S100000x128 [1] [0] [0] [1] [] []

variable [Facts]

def dot_S100000x64_S64x64_S100000x64_1_0_0_1_n_n : DotDims S100000x64 S64x64 S100000x64 where
  lhsContracting := [1]
  rhsContracting := [0]
  lhsNonContracting := [0]
  rhsNonContracting := [1]
  lhsBatch := []
  rhsBatch := []
  wf := dot_S100000x64_S64x64_S100000x64_1_0_0_1_n_n_wf
def gather_S100000x64_S1250000x1_S1250000x64_1_0_n_n_0_1_164 : GatherDims S100000x64 S1250000x1 S1250000x64 where
  offsetDims := [1]
  collapsedSliceDims := [0]
  operandBatchingDims := []
  startIndicesBatchingDims := []
  startIndexMap := [0]
  indexVectorDim := 1
  sliceSizes := ![1, 64]
  wf := gather_S100000x64_S1250000x1_S1250000x64_1_0_n_n_0_1_164_wf
def scatter_S100000x64_S1250000x1_S1250000x64_1_0_0_1 : ScatterDims S100000x64 S1250000x1 S1250000x64 where
  updateWindowDims := [1]
  insertedWindowDims := [0]
  scatterDimsToOperandDims := [0]
  indexVectorDim := 1
  wf := scatter_S100000x64_S1250000x1_S1250000x64_1_0_0_1_wf
def scatter_S100000_S1250000x1_S1250000_n_0_0_1 : ScatterDims S100000 S1250000x1 S1250000 where
  updateWindowDims := []
  insertedWindowDims := [0]
  scatterDimsToOperandDims := [0]
  indexVectorDim := 1
  wf := scatter_S100000_S1250000x1_S1250000_n_0_0_1_wf
def dot_S100000x128_S128x128_S100000x128_1_0_0_1_n_n : DotDims S100000x128 S128x128 S100000x128 where
  lhsContracting := [1]
  rhsContracting := [0]
  lhsNonContracting := [0]
  rhsNonContracting := [1]
  lhsBatch := []
  rhsBatch := []
  wf := dot_S100000x128_S128x128_S100000x128_1_0_0_1_n_n_wf
def fn_part3 {F : FTy → Type} [FloatOps F] (main_arg1 : FVec F S100000x64 .f32) (main_arg2 : FVec F S1250000 .f32) (main_arg5 : FVec F S128x128 .f32) (main_arg6 : FVec F S128 .f32) (main_arg8 : IVec S1250000 32) (main_v33 : IVec S_ 1) (main_v52 : FVec F S100000x64 .f32) (main_cst_16 : FVec F S_ .f32) : IVec S_ 1 :=
  let main_v53 : FVec F S100000 .f32 := broadcastInDim S100000 ![] bcast_S_S100000 main_cst_16
  let main_v54 : IVec S1250000x1 32 := broadcastInDim S1250000x1 ![0] bcast_S1250000_S1250000x1_0 main_arg8
  let main_v55 : FVec F S100000 .f32 := (fun x i u => Host.scatterAdd scatter_S100000_S1250000x1_S1250000_n_0_0_1 x i u) main_v53 main_v54 main_arg2
  let main_cst_17 : FVec F S_ .f32 := constant S_ .f32 0x3F800000#32
  let main_v56 : FVec F S100000 .f32 := broadcastInDim S100000 ![] bcast_S_S100000 main_cst_17
  let main_v57 : FVec F S100000 .f32 := maximumf main_v56 main_v55
  let main_v58 : FVec F S100000x1 .f32 := broadcastInDim S100000x1 ![0] bcast_S100000_S100000x1_0 main_v57
  let main_v59 : FVec F S100000x64 .f32 := broadcastInDim S100000x64 ![0, 1] bcast_S100000x1_S100000x64_0_1 main_v58
  let main_v60 : FVec F S100000x64 .f32 := Host.divf main_v52 main_v59
  let main_v61 : FVec F S100000x128 .f32 := (fun a b => concatenate S100000x128 1 [⟨S100000x64, a⟩, ⟨S100000x64, b⟩] concatenates_S100000x64_S100000x64_S100000x128_d1) main_v60 main_arg1
  let main_v62 : FVec F S100000x128 .f32 := (fun l r => Host.dotGeneral dot_S100000x128_S128x128_S100000x128_1_0_0_1_n_n none l r) main_v61 main_arg5
  let main_v63 : FVec F S1x128 .f32 := broadcastInDim S1x128 ![1] bcast_S128_S1x128_1 main_arg6
  let main_v64 : FVec F S100000x128 .f32 := broadcastInDim S100000x128 ![0, 1] bcast_S1x128_S100000x128_0_1 main_v63
  let main_v65 : FVec F S100000x128 .f32 := addf main_v62 main_v64
  let main_cst_18 : FVec F S_ .f32 := constant S_ .f32 0x00000000#32
  let main_v66 : FVec F S100000x128 .f32 := broadcastInDim S100000x128 ![] bcast_S_S100000x128 main_cst_18
  let main_v67 : FVec F S100000x128 .f32 := maximumf main_v65 main_v66
  let main_v68 : FVec F S100000x128 .f32 := mulf main_v67 main_v67
  let main_cst_19 : FVec F S_ .f32 := constant S_ .f32 0x00000000#32
  let main_v69 : FVec F S_ .f32 := (fun x v => Host.reduceAdd x v reducesTo_S100000x128_S_d0_1 h_S_) main_v68 main_cst_19
  let main_v70 : FVec F S_ .f32 := Host.sqrt main_v69
  let main_cst_20 : FVec F S_ .f32 := constant S_ .f32 0x00000000#32
  let main_v71 : IVec S_ 1 := cmpf .ogt main_v70 main_cst_20
  let main_v72 : IVec S_ 1 := andi main_v33 main_v71
  main_v72

def fn_part2 {F : FTy → Type} [FloatOps F] (main_arg0 : FVec F S100000x64 .f32) (main_arg1 : FVec F S100000x64 .f32) (main_arg2 : FVec F S1250000 .f32) (main_arg3 : FVec F S64x64 .f32) (main_arg4 : FVec F S64 .f32) (main_arg5 : FVec F S128x128 .f32) (main_arg6 : FVec F S128 .f32) (main_arg7 : IVec S1250000 32) (main_arg8 : IVec S1250000 32) (main_v33 : IVec S_ 1) : IVec S_ 1 :=
  let main_v34 : FVec F S100000x64 .f32 := (fun l r => Host.dotGeneral dot_S100000x64_S64x64_S100000x64_1_0_0_1_n_n none l r) main_arg0 main_arg3
  let main_v35 : FVec F S1x64 .f32 := broadcastInDim S1x64 ![1] bcast_S64_S1x64_1 main_arg4
  let main_v36 : FVec F S100000x64 .f32 := broadcastInDim S100000x64 ![0, 1] bcast_S1x64_S100000x64_0_1 main_v35
  let main_v37 : FVec F S100000x64 .f32 := addf main_v34 main_v36
  let main_cst_12 : FVec F S_ .f32 := constant S_ .f32 0x00000000#32
  let main_v38 : FVec F S100000x64 .f32 := broadcastInDim S100000x64 ![] bcast_S_S100000x64 main_cst_12
  let main_v39 : FVec F S100000x64 .f32 := maximumf main_v37 main_v38
  let main_c_13 : IVec S_ 32 := constantI S_ 32 0#32
  let main_v40 : IVec S1250000 32 := broadcastInDim S1250000 ![] bcast_S_S1250000 main_c_13
  let main_v41 : IVec S1250000 1 := cmpi .slt main_arg7 main_v40
  let main_c_14 : IVec S_ 32 := constantI S_ 32 100000#32
  let main_v42 : IVec S1250000 32 := broadcastInDim S1250000 ![] bcast_S_S1250000 main_c_14
  let main_v43 : IVec S1250000 32 := addi main_arg7 main_v42
  let main_v44 : IVec S1250000 32 := select main_v41 main_v43 main_arg7
  let main_v45 : IVec S1250000x1 32 := broadcastInDim S1250000x1 ![0] bcast_S1250000_S1250000x1_0 main_v44
  let main_v46 : FVec F S1250000x64 .f32 := (fun x i => Host.gather gather_S100000x64_S1250000x1_S1250000x64_1_0_n_n_0_1_164 x i) main_v39 main_v45
  let main_v47 : FVec F S1250000x1 .f32 := broadcastInDim S1250000x1 ![0] bcast_S1250000_S1250000x1_0 main_arg2
  let main_v48 : FVec F S1250000x64 .f32 := broadcastInDim S1250000x64 ![0, 1] bcast_S1250000x1_S1250000x64_0_1 main_v47
  let main_v49 : FVec F S1250000x64 .f32 := mulf main_v46 main_v48
  let main_cst_15 : FVec F S_ .f32 := constant S_ .f32 0x00000000#32
  let main_v50 : FVec F S100000x64 .f32 := broadcastInDim S100000x64 ![] bcast_S_S100000x64 main_cst_15
  let main_v51 : IVec S1250000x1 32 := broadcastInDim S1250000x1 ![0] bcast_S1250000_S1250000x1_0 main_arg8
  let main_v52 : FVec F S100000x64 .f32 := (fun x i u => Host.scatterAdd scatter_S100000x64_S1250000x1_S1250000x64_1_0_0_1 x i u) main_v50 main_v51 main_v49
  let main_cst_16 : FVec F S_ .f32 := constant S_ .f32 0x00000000#32
  fn_part3 (F := F) main_arg1 main_arg2 main_arg5 main_arg6 main_arg8 main_v33 main_v52 main_cst_16

def fn_part1 {F : FTy → Type} [FloatOps F] (main_arg0 : FVec F S100000x64 .f32) (main_arg1 : FVec F S100000x64 .f32) (main_arg2 : FVec F S1250000 .f32) (main_arg3 : FVec F S64x64 .f32) (main_arg4 : FVec F S64 .f32) (main_arg5 : FVec F S128x128 .f32) (main_arg6 : FVec F S128 .f32) (main_arg7 : IVec S1250000 32) (main_arg8 : IVec S1250000 32) (main_v13 : IVec S_ 1) (main_v16 : IVec S64x64 1) : IVec S_ 1 :=
  let main_c_5 : IVec S_ 1 := constantI S_ 1 1#1
  let main_v17 : IVec S_ 1 := (fun x v => Host.reduce IntOp.andi x v reducesTo_S64x64_S_d0_1 h_S_) main_v16 main_c_5
  let main_v18 : IVec S_ 1 := andi main_v13 main_v17
  let main_v19 : FVec F S64 .f32 := Host.absf main_arg4
  let main_cst_6 : FVec F S_ .f32 := constant S_ .f32 0x7F800000#32
  let main_v20 : FVec F S64 .f32 := broadcastInDim S64 ![] bcast_S_S64 main_cst_6
  let main_v21 : IVec S64 1 := cmpf .olt main_v19 main_v20
  let main_c_7 : IVec S_ 1 := constantI S_ 1 1#1
  let main_v22 : IVec S_ 1 := (fun x v => Host.reduce IntOp.andi x v reducesTo_S64_S_d0 h_S_) main_v21 main_c_7
  let main_v23 : IVec S_ 1 := andi main_v18 main_v22
  let main_v24 : FVec F S128x128 .f32 := Host.absf main_arg5
  let main_cst_8 : FVec F S_ .f32 := constant S_ .f32 0x7F800000#32
  let main_v25 : FVec F S128x128 .f32 := broadcastInDim S128x128 ![] bcast_S_S128x128 main_cst_8
  let main_v26 : IVec S128x128 1 := cmpf .olt main_v24 main_v25
  let main_c_9 : IVec S_ 1 := constantI S_ 1 1#1
  let main_v27 : IVec S_ 1 := (fun x v => Host.reduce IntOp.andi x v reducesTo_S128x128_S_d0_1 h_S_) main_v26 main_c_9
  let main_v28 : IVec S_ 1 := andi main_v23 main_v27
  let main_v29 : FVec F S128 .f32 := Host.absf main_arg6
  let main_cst_10 : FVec F S_ .f32 := constant S_ .f32 0x7F800000#32
  let main_v30 : FVec F S128 .f32 := broadcastInDim S128 ![] bcast_S_S128 main_cst_10
  let main_v31 : IVec S128 1 := cmpf .olt main_v29 main_v30
  let main_c_11 : IVec S_ 1 := constantI S_ 1 1#1
  let main_v32 : IVec S_ 1 := (fun x v => Host.reduce IntOp.andi x v reducesTo_S128_S_d0 h_S_) main_v31 main_c_11
  let main_v33 : IVec S_ 1 := andi main_v28 main_v32
  fn_part2 (F := F) main_arg0 main_arg1 main_arg2 main_arg3 main_arg4 main_arg5 main_arg6 main_arg7 main_arg8 main_v33

def fn {F : FTy → Type} [FloatOps F] (main_arg0 : FVec F S100000x64 .f32) (main_arg1 : FVec F S100000x64 .f32) (main_arg2 : FVec F S1250000 .f32) (main_arg3 : FVec F S64x64 .f32) (main_arg4 : FVec F S64 .f32) (main_arg5 : FVec F S128x128 .f32) (main_arg6 : FVec F S128 .f32) (main_arg7 : IVec S1250000 32) (main_arg8 : IVec S1250000 32) : IVec S_ 1 :=
  let main_v0 : FVec F S100000x64 .f32 := Host.absf main_arg0
  let main_cst : FVec F S_ .f32 := constant S_ .f32 0x7F800000#32
  let main_v1 : FVec F S100000x64 .f32 := broadcastInDim S100000x64 ![] bcast_S_S100000x64 main_cst
  let main_v2 : IVec S100000x64 1 := cmpf .olt main_v0 main_v1
  let main_c : IVec S_ 1 := constantI S_ 1 1#1
  let main_v3 : IVec S_ 1 := (fun x v => Host.reduce IntOp.andi x v reducesTo_S100000x64_S_d0_1 h_S_) main_v2 main_c
  let main_v4 : FVec F S100000x64 .f32 := Host.absf main_arg1
  let main_cst_0 : FVec F S_ .f32 := constant S_ .f32 0x7F800000#32
  let main_v5 : FVec F S100000x64 .f32 := broadcastInDim S100000x64 ![] bcast_S_S100000x64 main_cst_0
  let main_v6 : IVec S100000x64 1 := cmpf .olt main_v4 main_v5
  let main_c_1 : IVec S_ 1 := constantI S_ 1 1#1
  let main_v7 : IVec S_ 1 := (fun x v => Host.reduce IntOp.andi x v reducesTo_S100000x64_S_d0_1 h_S_) main_v6 main_c_1
  let main_v8 : IVec S_ 1 := andi main_v3 main_v7
  let main_v9 : FVec F S1250000 .f32 := Host.absf main_arg2
  let main_cst_2 : FVec F S_ .f32 := constant S_ .f32 0x7F800000#32
  let main_v10 : FVec F S1250000 .f32 := broadcastInDim S1250000 ![] bcast_S_S1250000 main_cst_2
  let main_v11 : IVec S1250000 1 := cmpf .olt main_v9 main_v10
  let main_c_3 : IVec S_ 1 := constantI S_ 1 1#1
  let main_v12 : IVec S_ 1 := (fun x v => Host.reduce IntOp.andi x v reducesTo_S1250000_S_d0 h_S_) main_v11 main_c_3
  let main_v13 : IVec S_ 1 := andi main_v8 main_v12
  let main_v14 : FVec F S64x64 .f32 := Host.absf main_arg3
  let main_cst_4 : FVec F S_ .f32 := constant S_ .f32 0x7F800000#32
  let main_v15 : FVec F S64x64 .f32 := broadcastInDim S64x64 ![] bcast_S_S64x64 main_cst_4
  let main_v16 : IVec S64x64 1 := cmpf .olt main_v14 main_v15
  fn_part1 (F := F) main_arg0 main_arg1 main_arg2 main_arg3 main_arg4 main_arg5 main_arg6 main_arg7 main_arg8 main_v13 main_v16
-- ==== Kernel.lean ====
abbrev S100000x64 : Shape := ⟨2, ![100000, 64]⟩
abbrev S1250000 : Shape := ⟨1, ![1250000]⟩
abbrev S64x64 : Shape := ⟨2, ![64, 64]⟩
abbrev S64 : Shape := ⟨1, ![64]⟩
abbrev S128x128 : Shape := ⟨2, ![128, 128]⟩
abbrev S128 : Shape := ⟨1, ![128]⟩
abbrev S10000x64 : Shape := ⟨2, ![10000, 64]⟩
abbrev S1x64 : Shape := ⟨2, ![1, 64]⟩
abbrev S_ : Shape := ⟨0, ![]⟩
abbrev S1250000x1 : Shape := ⟨2, ![1250000, 1]⟩
abbrev S1250000x64 : Shape := ⟨2, ![1250000, 64]⟩
abbrev S100000 : Shape := ⟨1, ![100000]⟩
abbrev S100000x1 : Shape := ⟨2, ![100000, 1]⟩
abbrev S64x128 : Shape := ⟨2, ![64, 128]⟩
abbrev S100000x128 : Shape := ⟨2, ![100000, 128]⟩
abbrev S1x1 : Shape := ⟨2, ![1, 1]⟩
abbrev S10000x1 : Shape := ⟨2, ![10000, 1]⟩
abbrev S10000x128 : Shape := ⟨2, ![10000, 128]⟩
abbrev S1x128 : Shape := ⟨2, ![1, 128]⟩
abbrev S10000 : Shape := ⟨1, ![10000]⟩
abbrev S1 : Shape := ⟨1, ![1]⟩

abbrev nBuf : Space → Nat
  | .hbm => 36
  | .vmem => 23
  | .smem => 0
  | _ => 0

abbrev bufTy : (tb : Table) → Fin (tcTables nBuf tb) → BufTy
  | .hbm, ⟨0, _⟩ => ⟨S100000x64, .f32⟩
  | .hbm, ⟨1, _⟩ => ⟨S100000x64, .f32⟩
  | .hbm, ⟨2, _⟩ => ⟨S1250000, .f32⟩
  | .hbm, ⟨3, _⟩ => ⟨S64x64, .f32⟩
  | .hbm, ⟨4, _⟩ => ⟨S64, .f32⟩
  | .hbm, ⟨5, _⟩ => ⟨S128x128, .f32⟩
  | .hbm, ⟨6, _⟩ => ⟨S128, .f32⟩
  | .hbm, ⟨7, _⟩ => ⟨S1250000, .i32⟩
  | .hbm, ⟨8, _⟩ => ⟨S1250000, .i32⟩
  | .hbm, ⟨9, _⟩ => ⟨S100000x64, .f32⟩
  | .hbm, ⟨10, _⟩ => ⟨S_, .i32⟩
  | .hbm, ⟨11, _⟩ => ⟨S1250000, .i32⟩
  | .hbm, ⟨12, _⟩ => ⟨S1250000, .i1⟩
  | .hbm, ⟨13, _⟩ => ⟨S_, .i32⟩
  | .hbm, ⟨14, _⟩ => ⟨S1250000, .i32⟩
  | .hbm, ⟨15, _⟩ => ⟨S1250000, .i32⟩
  | .hbm, ⟨16, _⟩ => ⟨S1250000, .i32⟩
  | .hbm, ⟨17, _⟩ => ⟨S1250000x1, .i32⟩
  | .hbm, ⟨18, _⟩ => ⟨S1250000x64, .f32⟩
  | .hbm, ⟨19, _⟩ => ⟨S1250000x1, .f32⟩
  | .hbm, ⟨20, _⟩ => ⟨S1250000x64, .f32⟩
  | .hbm, ⟨21, _⟩ => ⟨S1250000x64, .f32⟩
  | .hbm, ⟨22, _⟩ => ⟨S_, .f32⟩
  | .hbm, ⟨23, _⟩ => ⟨S100000x64, .f32⟩
  | .hbm, ⟨24, _⟩ => ⟨S1250000x1, .i32⟩
  | .hbm, ⟨25, _⟩ => ⟨S100000x64, .f32⟩
  | .hbm, ⟨26, _⟩ => ⟨S_, .f32⟩
  | .hbm, ⟨27, _⟩ => ⟨S100000, .f32⟩
  | .hbm, ⟨28, _⟩ => ⟨S1250000x1, .i32⟩
  | .hbm, ⟨29, _⟩ => ⟨S100000, .f32⟩
  | .hbm, ⟨30, _⟩ => ⟨S100000x1, .f32⟩
  | .hbm, ⟨31, _⟩ => ⟨S64x128, .f32⟩
  | .hbm, ⟨32, _⟩ => ⟨S64x128, .f32⟩
  | .hbm, ⟨33, _⟩ => ⟨S100000x128, .f32⟩
  | .hbm, ⟨34, _⟩ => ⟨S1x1, .f32⟩
  | .hbm, ⟨35, _⟩ => ⟨S100000x128, .f32⟩
  | .local _ .vmem, ⟨0, _⟩ => ⟨S10000x64, .f32⟩
  | .local _ .vmem, ⟨1, _⟩ => ⟨S10000x64, .f32⟩
  | .local _ .vmem, ⟨2, _⟩ => ⟨S64x64, .f32⟩
  | .local _ .vmem, ⟨3, _⟩ => ⟨S64, .f32⟩
  | .local _ .vmem, ⟨4, _⟩ => ⟨S10000x64, .f32⟩
  | .local _ .vmem, ⟨5, _⟩ => ⟨S10000x64, .f32⟩
  | .local _ .vmem, ⟨6, _⟩ => ⟨S10000x64, .f32⟩
  | .local _ .vmem, ⟨7, _⟩ => ⟨S10000x64, .f32⟩
  | .local _ .vmem, ⟨8, _⟩ => ⟨S10000x1, .f32⟩
  | .local _ .vmem, ⟨9, _⟩ => ⟨S10000x1, .f32⟩
  | .local _ .vmem, ⟨10, _⟩ => ⟨S10000x64, .f32⟩
  | .local _ .vmem, ⟨11, _⟩ => ⟨S10000x64, .f32⟩
  | .local _ .vmem, ⟨12, _⟩ => ⟨S64x128, .f32⟩
  | .local _ .vmem, ⟨13, _⟩ => ⟨S64x128, .f32⟩
  | .local _ .vmem, ⟨14, _⟩ => ⟨S128, .f32⟩
  | .local _ .vmem, ⟨15, _⟩ => ⟨S10000x128, .f32⟩
  | .local _ .vmem, ⟨16, _⟩ => ⟨S10000x128, .f32⟩
  | .local _ .vmem, ⟨17, _⟩ => ⟨S1x1, .f32⟩
  | .local _ .vmem, ⟨18, _⟩ => ⟨S10000x128, .f32⟩
  | .local _ .vmem, ⟨19, _⟩ => ⟨S10000x128, .f32⟩
  | .local _ .vmem, ⟨20, _⟩ => ⟨S1x1, .f32⟩
  | .local _ .vmem, ⟨21, _⟩ => ⟨S10000x128, .f32⟩
  | .local _ .vmem, ⟨22, _⟩ => ⟨S10000x128, .f32⟩
  | _, _ => ⟨S100000x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | _, _ => false

abbrev semScoped : Fin 0 → Bool
  | ⟨_, h⟩ => absurd h (Nat.not_lt_zero _)

abbrev dmaSemScoped : Fin 23 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | _ => false

abbrev sig : RefSig :=
  ofTc nBuf bufTy 0 23 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_c : Ref sig .tc := ⟨.hbm, 10, rfl⟩
abbrev main_v1 : Ref sig .tc := ⟨.hbm, 11, rfl⟩
abbrev main_v2 : Ref sig .tc := ⟨.hbm, 12, rfl⟩
abbrev main_c_0 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_cst : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_cst_1 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_v20_0 : Ref sig .tc := ⟨.hbm, 33, rfl⟩
abbrev main_v20_1 : Ref sig .tc := ⟨.hbm, 34, rfl⟩
abbrev main_v21 : Ref sig .tc := ⟨.hbm, 35, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc1_stg0_0 : Ref sig .tc := ⟨.vmem, 6, rfl⟩
abbrev cc1_stg0_1 : Ref sig .tc := ⟨.vmem, 7, rfl⟩
abbrev cc1_stg1_0 : Ref sig .tc := ⟨.vmem, 8, rfl⟩
abbrev cc1_stg1_1 : Ref sig .tc := ⟨.vmem, 9, rfl⟩
abbrev cc1_stg2_0 : Ref sig .tc := ⟨.vmem, 10, rfl⟩
abbrev cc1_stg2_1 : Ref sig .tc := ⟨.vmem, 11, rfl⟩
abbrev cc1_stg3_0 : Ref sig .tc := ⟨.vmem, 12, rfl⟩
abbrev cc1_stg4_0 : Ref sig .tc := ⟨.vmem, 13, rfl⟩
abbrev cc1_stg5_0 : Ref sig .tc := ⟨.vmem, 14, rfl⟩
abbrev cc1_stg6_0 : Ref sig .tc := ⟨.vmem, 15, rfl⟩
abbrev cc1_stg6_1 : Ref sig .tc := ⟨.vmem, 16, rfl⟩
abbrev cc1_stg7_0 : Ref sig .tc := ⟨.vmem, 17, rfl⟩
abbrev cc2_stg0_0 : Ref sig .tc := ⟨.vmem, 18, rfl⟩
abbrev cc2_stg0_1 : Ref sig .tc := ⟨.vmem, 19, rfl⟩
abbrev cc2_stg1_0 : Ref sig .tc := ⟨.vmem, 20, rfl⟩
abbrev cc2_stg2_0 : Ref sig .tc := ⟨.vmem, 21, rfl⟩
abbrev cc2_stg2_1 : Ref sig .tc := ⟨.vmem, 22, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc1_sem0_0 : DmaSem sig := 6
abbrev cc1_sem0_1 : DmaSem sig := 7
abbrev cc1_sem1_0 : DmaSem sig := 8
abbrev cc1_sem1_1 : DmaSem sig := 9
abbrev cc1_sem2_0 : DmaSem sig := 10
abbrev cc1_sem2_1 : DmaSem sig := 11
abbrev cc1_sem3_0 : DmaSem sig := 12
abbrev cc1_sem4_0 : DmaSem sig := 13
abbrev cc1_sem5_0 : DmaSem sig := 14
abbrev cc1_sem6_0 : DmaSem sig := 15
abbrev cc1_sem6_1 : DmaSem sig := 16
abbrev cc1_sem7_0 : DmaSem sig := 17
abbrev cc2_sem0_0 : DmaSem sig := 18
abbrev cc2_sem0_1 : DmaSem sig := 19
abbrev cc2_sem1_0 : DmaSem sig := 20
abbrev cc2_sem2_0 : DmaSem sig := 21
abbrev cc2_sem2_1 : DmaSem sig := 22

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S10000x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S64x64 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S64 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S10000x64 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_6 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_7 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage1_0 : Fin 2 → Memref sig .tc .vmem S10000x64 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S10000x1 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S10000x64 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 1 → Memref sig .tc .vmem S64x128 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S64x128 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S128 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 2 → Memref sig .tc .vmem S10000x128 .f32 := fun | 0 => Memref.whole cc1_stg6_0 | 1 => Memref.whole cc1_stg6_1 | ⟨_ + 2, h⟩ => absurd h (Nat.not_lt.2 (Nat.le_add_left _ _))
abbrev sem1_6 : Fin 2 → DmaSem sig := fun | 0 => cc1_sem6_0 | 1 => cc1_sem6_1 | ⟨_ + 2, h⟩ => absurd h (Nat.not_lt.2 (Nat.le_add_left _ _))
abbrev reads1_6 : Fin grid1.rank → Bool := ![true]

abbrev stage1_7 : Fin 1 → Memref sig .tc .vmem S1x1 .f32 := fun | 0 => Memref.whole cc1_stg7_0 | ⟨_ + 1, h⟩ => absurd h (Nat.not_lt.2 (Nat.le_add_left _ _))
abbrev sem1_7 : Fin 1 → DmaSem sig := fun | 0 => cc1_sem7_0 | ⟨_ + 1, h⟩ => absurd h (Nat.not_lt.2 (Nat.le_add_left _ _))
abbrev reads1_7 : Fin grid1.rank → Bool := ![false]

abbrev grid2 : Pipeline.Grid := ⟨1, ![10], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S10000x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S1x1 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 2 → Memref sig .tc .vmem S10000x128 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

class Facts₀ : Prop where
  inb_S10000x64_S10000x64_0_0 : ∀ a, (![0, 0] : Fin 2 → Nat) a + S10000x64.size a ≤ S10000x64.size a
  h_S10000x64 : 0 < S10000x64.numel
  bitsLt_bf16_f32 : FTy.bits .bf16 < FTy.bits .f32
  inb_S64x64_S64x64_0_0 : ∀ a, (![0, 0] : Fin 2 → Nat) a + S64x64.size a ≤ S64x64.size a
  h_S64x64 : 0 < S64x64.numel
  inb_S64_S64_0 : ∀ a, (![0] : Fin 1 → Nat) a + S64.size a ≤ S64.size a
  h_S64 : 0 < S64.numel
  shapeCasts_S64_S1x64 : S64.ShapeCasts S1x64
  broadcasts_S1x64_S10000x64 : S1x64.Broadcasts S10000x64
  bcast_S_S1250000 : S_.BroadcastsInDim S1250000 (![] : Fin 0 → Fin S1250000.rank)
  bcast_S1250000_S1250000x1_0 : S1250000.BroadcastsInDim S1250000x1 (![0] : Fin 1 → Fin S1250000x1.rank)
  bcast_S1250000x1_S1250000x64_0_1 : S1250000x1.BroadcastsInDim S1250000x64 (![0, 1] : Fin 2 → Fin S1250000x64.rank)
  bcast_S_S100000x64 : S_.BroadcastsInDim S100000x64 (![] : Fin 0 → Fin S100000x64.rank)
  bcast_S_S100000 : S_.BroadcastsInDim S100000 (![] : Fin 0 → Fin S100000.rank)
  bcast_S100000_S100000x1_0 : S100000.BroadcastsInDim S100000x1 (![0] : Fin 1 → Fin S100000x1.rank)
  slices_S128x128_S64x128_0_0 : S128x128.Slices ![0, 0] S64x128
  slices_S128x128_S64x128_64_0 : S128x128.Slices ![64, 0] S64x128
  shapeCasts_S10000x64_S10000x64 : S10000x64.ShapeCasts S10000x64
  inb_S10000x1_S10000x1_0_0 : ∀ a, (![0, 0] : Fin 2 → Nat) a + S10000x1.size a ≤ S10000x1.size a
  h_S10000x1 : 0 < S10000x1.numel
  shapeCasts_S10000x1_S10000x1 : S10000x1.ShapeCasts S10000x1
  broadcasts_S10000x1_S10000x64 : S10000x1.Broadcasts S10000x64
  inb_S64x128_S64x128_0_0 : ∀ a, (![0, 0] : Fin 2 → Nat) a + S64x128.size a ≤ S64x128.size a
  h_S64x128 : 0 < S64x128.numel
  shapeCasts_S64x128_S64x128 : S64x128.ShapeCasts S64x128
  inb_S128_S128_0 : ∀ a, (![0] : Fin 1 → Nat) a + S128.size a ≤ S128.size a
  h_S128 : 0 < S128.numel
  shapeCasts_S128_S1x128 : S128.ShapeCasts S1x128
  broadcasts_S1x128_S10000x128 : S1x128.Broadcasts S10000x128
  inb_S10000x128_S10000x128_0_0 : ∀ a, (![0, 0] : Fin 2 → Nat) a + S10000x128.size a ≤ S10000x128.size a
  h_S10000x128 : 0 < S10000x128.numel
  reduces_S10000x128_S10000 : S10000x128.Reduces [1] S10000
  shapeCasts_S10000_S10000x1 : S10000.ShapeCasts S10000x1
  reduces_S10000x1_S1 : S10000x1.Reduces [0] S1
  shapeCasts_S1_S1x1 : S1.ShapeCasts S1x1
  inb_S1x1_S1x1_0_0 : ∀ a, (![0, 0] : Fin 2 → Nat) a + S1x1.size a ≤ S1x1.size a
  h_S1x1 : 0 < S1x1.numel
  shapeCasts_S1x1_S1x1 : S1x1.ShapeCasts S1x1
  shapeCasts_S10000x128_S10000x128 : S10000x128.ShapeCasts S10000x128
  broadcasts_S1x1_S10000x128 : S1x1.Broadcasts S10000x128
  dot_S10000x64_S64x64_S10000x64_1_0_0_1_n_n_wf : DotDims.WF S10000x64 S64x64 S10000x64 [1] [0] [0] [1] [] []
  gather_S100000x64_S1250000x1_S1250000x64_1_0_n_n_0_1_164_wf : GatherDims.WF S100000x64 S1250000x1 S1250000x64 [1] [0] [] [0] [] 1 ![1, 64]
  scatter_S100000x64_S1250000x1_S1250000x64_1_0_0_1_wf : ScatterDims.WF S100000x64 S1250000x1 S1250000x64 [1] [0] [0] 1
  scatter_S100000_S1250000x1_S1250000_n_0_0_1_wf : ScatterDims.WF S100000 S1250000x1 S1250000 [] [0] [0] 1
  dot_S10000x64_S64x128_S10000x128_1_0_0_1_n_n_wf : DotDims.WF S10000x64 S64x128 S10000x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S10000x64.size a ≤ S100000x64.size a
  hwx0_0 : ∀ i : grid0.Coords, EltTy.bits .f32 = 32 ∨ (Rect.block (s := S100000x64) S10000x64.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S64x64.size a ≤ S64x64.size a
  hwx0_1 : ∀ i : grid0.Coords, EltTy.bits .f32 = 32 ∨ (Rect.block (s := S64x64) S64x64.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S64.size a ≤ S64.size a
  hwx0_2 : ∀ i : grid0.Coords, EltTy.bits .f32 = 32 ∨ (Rect.block (s := S64) S64.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S10000x64.size a ≤ S100000x64.size a
  hwx0_3 : ∀ i : grid0.Coords, EltTy.bits .f32 = 32 ∨ (Rect.block (s := S100000x64) S10000x64.size (cc0_transform_3 i) (hinb0_3 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S10000x64.size a ≤ S100000x64.size a
  hwx1_0 : ∀ i : grid1.Coords, EltTy.bits .f32 = 32 ∨ (Rect.block (s := S100000x64) S10000x64.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S10000x1.size a ≤ S100000x1.size a
  hwx1_1 : ∀ i : grid1.Coords, EltTy.bits .f32 = 32 ∨ (Rect.block (s := S100000x1) S10000x1.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S10000x64.size a ≤ S100000x64.size a
  hwx1_2 : ∀ i : grid1.Coords, EltTy.bits .f32 = 32 ∨ (Rect.block (s := S100000x64) S10000x64.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S64x128.size a ≤ S64x128.size a
  hwx1_3 : ∀ i : grid1.Coords, EltTy.bits .f32 = 32 ∨ (Rect.block (s := S64x128) S64x128.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S64x128.size a ≤ S64x128.size a
  hwx1_4 : ∀ i : grid1.Coords, EltTy.bits .f32 = 32 ∨ (Rect.block (s := S64x128) S64x128.size (cc1_transform_4 i) (hinb1_4 i)).WholeWords (EltTy.packing .f32)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S128.size a ≤ S128.size a
  hwx1_5 : ∀ i : grid1.Coords, EltTy.bits .f32 = 32 ∨ (Rect.block (s := S128) S128.size (cc1_transform_5 i) (hinb1_5 i)).WholeWords (EltTy.packing .f32)
  hstage1_6 : ∀ j, (stage1_6 j).IsWhole
  nbuf1_6 : grid1.bufCount reads1_6 false = 2
  hreads1_6 : ∀ i i' : grid1.Coords, (∀ a, reads1_6 a = true → i a = i' a) → cc1_transform_6 i = cc1_transform_6 i'
  hinb1_6 : ∀ (i : grid1.Coords) a, (cc1_transform_6 i a + 1) * S10000x128.size a ≤ S100000x128.size a
  hwx1_6 : ∀ i : grid1.Coords, EltTy.bits .f32 = 32 ∨ (Rect.block (s := S100000x128) S10000x128.size (cc1_transform_6 i) (hinb1_6 i)).WholeWords (EltTy.packing .f32)
  hstage1_7 : ∀ j, (stage1_7 j).IsWhole
  nbuf1_7 : grid1.bufCount reads1_7 true = 1
  hreads1_7 : ∀ i i' : grid1.Coords, (∀ a, reads1_7 a = true → i a = i' a) → cc1_transform_7 i = cc1_transform_7 i'
  hinb1_7 : ∀ (i : grid1.Coords) a, (cc1_transform_7 i a + 1) * S1x1.size a ≤ S1x1.size a
  hwx1_7 : ∀ i : grid1.Coords, EltTy.bits .f32 = 32 ∨ (Rect.block (s := S1x1) S1x1.size (cc1_transform_7 i) (hinb1_7 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S10000x128.size a ≤ S100000x128.size a
  hwx2_0 : ∀ i : grid2.Coords, EltTy.bits .f32 = 32 ∨ (Rect.block (s := S100000x128) S10000x128.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S1x1.size a ≤ S1x1.size a
  hwx2_1 : ∀ i : grid2.Coords, EltTy.bits .f32 = 32 ∨ (Rect.block (s := S1x1) S1x1.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S10000x128.size a ≤ S100000x128.size a
  hwx2_2 : ∀ i : grid2.Coords, EltTy.bits .f32 = 32 ∨ (Rect.block (s := S100000x128) S10000x128.size (cc2_transform_2 i) (hinb2_2 i)).WholeWords (EltTy.packing .f32)

variable [Facts₀]

def dot_S10000x64_S64x64_S10000x64_1_0_0_1_n_n : DotDims S10000x64 S64x64 S10000x64 where
  lhsContracting := [1]
  rhsContracting := [0]
  lhsNonContracting := [0]
  rhsNonContracting := [1]
  lhsBatch := []
  rhsBatch := []
  wf := dot_S10000x64_S64x64_S10000x64_1_0_0_1_n_n_wf
def gather_S100000x64_S1250000x1_S1250000x64_1_0_n_n_0_1_164 : GatherDims S100000x64 S1250000x1 S1250000x64 where
  offsetDims := [1]
  collapsedSliceDims := [0]
  operandBatchingDims := []
  startIndicesBatchingDims := []
  startIndexMap := [0]
  indexVectorDim := 1
  sliceSizes := ![1, 64]
  wf := gather_S100000x64_S1250000x1_S1250000x64_1_0_n_n_0_1_164_wf
def scatter_S100000x64_S1250000x1_S1250000x64_1_0_0_1 : ScatterDims S100000x64 S1250000x1 S1250000x64 where
  updateWindowDims := [1]
  insertedWindowDims := [0]
  scatterDimsToOperandDims := [0]
  indexVectorDim := 1
  wf := scatter_S100000x64_S1250000x1_S1250000x64_1_0_0_1_wf
def scatter_S100000_S1250000x1_S1250000_n_0_0_1 : ScatterDims S100000 S1250000x1 S1250000 where
  updateWindowDims := []
  insertedWindowDims := [0]
  scatterDimsToOperandDims := [0]
  indexVectorDim := 1
  wf := scatter_S100000_S1250000x1_S1250000_n_0_0_1_wf
def dot_S10000x64_S64x128_S10000x128_1_0_0_1_n_n : DotDims S10000x64 S64x128 S10000x128 where
  lhsContracting := [1]
  rhsContracting := [0]
  lhsNonContracting := [0]
  rhsNonContracting := [1]
  lhsBatch := []
  rhsBatch := []
  wf := dot_S10000x64_S64x128_S10000x128_1_0_0_1_n_n_wf

abbrev win0_0 : Pipeline.Window sig grid0 :=
  Pipeline.Window.ofSpec (Memref.whole main_arg0) S10000x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg3) S64x64.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_arg4) S64.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v0) S10000x64.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev win1_0 : Pipeline.Window sig grid1 :=
  Pipeline.Window.ofSpec (Memref.whole main_v13) S10000x64.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v17) S10000x1.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_arg1) S10000x64.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v18) S64x128.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v19) S64x128.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_arg6) S128.size cc1_transform_5 reads1_5 false true 1 stage1_5 sem1_5
    hrank1 hreads1_5 hinb1_5 nbuf1_5 (Memref.isWhole_whole _) hwx1_5 hstage1_5

abbrev win1_6 : Pipeline.Window sig grid1 :=
  Pipeline.Window.ofSpec (Memref.whole main_v20_0) S10000x128.size cc1_transform_6 reads1_6 true false 2 stage1_6 sem1_6
    hrank1 hreads1_6 hinb1_6 nbuf1_6 (Memref.isWhole_whole _) hwx1_6 hstage1_6

abbrev win1_7 : Pipeline.Window sig grid1 :=
  Pipeline.Window.ofSpec (Memref.whole main_v20_1) S1x1.size cc1_transform_7 reads1_7 true true 1 stage1_7 sem1_7
    hrank1 hreads1_7 hinb1_7 nbuf1_7 (Memref.isWhole_whole _) hwx1_7 hstage1_7

abbrev win1 : Fin 8 → Pipeline.Window sig grid1 := fun | 0 => win1_0 | 1 => win1_1 | 2 => win1_2 | 3 => win1_3 | 4 => win1_4 | 5 => win1_5 | 6 => win1_6 | 7 => win1_7 | ⟨_ + 8, h⟩ => absurd h (Nat.not_lt.2 (Nat.le_add_left _ _))
abbrev spec1 : Fin 8 → Pipeline.WinSpec sig grid1.rank := fun w => (win1 w).toWinSpec

abbrev win2_0 : Pipeline.Window sig grid2 :=
  Pipeline.Window.ofSpec (Memref.whole main_v20_0) S10000x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v20_1) S1x1.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v21) S10000x128.size cc2_transform_2 reads2_2 true false 2 stage2_2 sem2_2
    hrank2 hreads2_2 hinb2_2 nbuf2_2 (Memref.isWhole_whole _) hwx2_2 hstage2_2

abbrev win2 : Fin 3 → Pipeline.Window sig grid2 := fun | 0 => win2_0 | 1 => win2_1 | 2 => win2_2 | ⟨_ + 3, h⟩ => absurd h (Nat.not_lt.2 (Nat.le_add_left _ _))
abbrev spec2 : Fin 3 → Pipeline.WinSpec sig grid2.rank := fun w => (win2 w).toWinSpec

class Facts : Prop extends Facts₀ where

variable [Facts]
-- ==== ReferenceIdeal.lean ====
abbrev S100000x64 : Shape := ⟨2, ![100000, 64]⟩
abbrev S1250000 : Shape := ⟨1, ![1250000]⟩
abbrev S64x64 : Shape := ⟨2, ![64, 64]⟩
abbrev S64 : Shape := ⟨1, ![64]⟩
abbrev S128x128 : Shape := ⟨2, ![128, 128]⟩
abbrev S128 : Shape := ⟨1, ![128]⟩
abbrev S1x64 : Shape := ⟨2, ![1, 64]⟩
abbrev S_ : Shape := ⟨0, ![]⟩
abbrev S1250000x1 : Shape := ⟨2, ![1250000, 1]⟩
abbrev S1250000x64 : Shape := ⟨2, ![1250000, 64]⟩
abbrev S100000 : Shape := ⟨1, ![100000]⟩
abbrev S100000x1 : Shape := ⟨2, ![100000, 1]⟩
abbrev S100000x128 : Shape := ⟨2, ![100000, 128]⟩
abbrev S1x128 : Shape := ⟨2, ![1, 128]⟩

abbrev nBuf : Space → Nat
  | .hbm => 57
  | .vmem => 0
  | .smem => 0
  | _ => 0

abbrev bufTy : (tb : Table) → Fin (tcTables nBuf tb) → BufTy
  | .hbm, ⟨0, _⟩ => ⟨S100000x64, .f32⟩
  | .hbm, ⟨1, _⟩ => ⟨S100000x64, .f32⟩
  | .hbm, ⟨2, _⟩ => ⟨S1250000, .f32⟩
  | .hbm, ⟨3, _⟩ => ⟨S64x64, .f32⟩
  | .hbm, ⟨4, _⟩ => ⟨S64, .f32⟩
  | .hbm, ⟨5, _⟩ => ⟨S128x128, .f32⟩
  | .hbm, ⟨6, _⟩ => ⟨S128, .f32⟩
  | .hbm, ⟨7, _⟩ => ⟨S1250000, .i32⟩
  | .hbm, ⟨8, _⟩ => ⟨S1250000, .i32⟩
  | .hbm, ⟨9, _⟩ => ⟨S100000x64, .f32⟩
  | .hbm, ⟨10, _⟩ => ⟨S1x64, .f32⟩
  | .hbm, ⟨11, _⟩ => ⟨S100000x64, .f32⟩
  | .hbm, ⟨12, _⟩ => ⟨S100000x64, .f32⟩
  | .hbm, ⟨13, _⟩ => ⟨S_, .f32⟩
  | .hbm, ⟨14, _⟩ => ⟨S100000x64, .f32⟩
  | .hbm, ⟨15, _⟩ => ⟨S100000x64, .f32⟩
  | .hbm, ⟨16, _⟩ => ⟨S_, .i32⟩
  | .hbm, ⟨17, _⟩ => ⟨S1250000, .i32⟩
  | .hbm, ⟨18, _⟩ => ⟨S1250000, .i1⟩
  | .hbm, ⟨19, _⟩ => ⟨S_, .i32⟩
  | .hbm, ⟨20, _⟩ => ⟨S1250000, .i32⟩
  | .hbm, ⟨21, _⟩ => ⟨S1250000, .i32⟩
  | .hbm, ⟨22, _⟩ => ⟨S1250000, .i32⟩
  | .hbm, ⟨23, _⟩ => ⟨S1250000x1, .i32⟩
  | .hbm, ⟨24, _⟩ => ⟨S1250000x64, .f32⟩
  | .hbm, ⟨25, _⟩ => ⟨S1250000x1, .f32⟩
  | .hbm, ⟨26, _⟩ => ⟨S1250000x64, .f32⟩
  | .hbm, ⟨27, _⟩ => ⟨S1250000x64, .f32⟩
  | .hbm, ⟨28, _⟩ => ⟨S_, .f32⟩
  | .hbm, ⟨29, _⟩ => ⟨S100000x64, .f32⟩
  | .hbm, ⟨30, _⟩ => ⟨S1250000x1, .i32⟩
  | .hbm, ⟨31, _⟩ => ⟨S100000x64, .f32⟩
  | .hbm, ⟨32, _⟩ => ⟨S_, .f32⟩
  | .hbm, ⟨33, _⟩ => ⟨S100000, .f32⟩
  | .hbm, ⟨34, _⟩ => ⟨S1250000x1, .i32⟩
  | .hbm, ⟨35, _⟩ => ⟨S100000, .f32⟩
  | .hbm, ⟨36, _⟩ => ⟨S_, .f32⟩
  | .hbm, ⟨37, _⟩ => ⟨S_, .f32⟩
  | .hbm, ⟨38, _⟩ => ⟨S100000, .f32⟩
  | .hbm, ⟨39, _⟩ => ⟨S100000, .f32⟩
  | .hbm, ⟨40, _⟩ => ⟨S100000x1, .f32⟩
  | .hbm, ⟨41, _⟩ => ⟨S100000x64, .f32⟩
  | .hbm, ⟨42, _⟩ => ⟨S100000x64, .f32⟩
  | .hbm, ⟨43, _⟩ => ⟨S100000x128, .f32⟩
  | .hbm, ⟨44, _⟩ => ⟨S100000x128, .f32⟩
  | .hbm, ⟨45, _⟩ => ⟨S1x128, .f32⟩
  | .hbm, ⟨46, _⟩ => ⟨S100000x128, .f32⟩
  | .hbm, ⟨47, _⟩ => ⟨S100000x128, .f32⟩
  | .hbm, ⟨48, _⟩ => ⟨S_, .f32⟩
  | .hbm, ⟨49, _⟩ => ⟨S100000x128, .f32⟩
  | .hbm, ⟨50, _⟩ => ⟨S100000x128, .f32⟩
  | .hbm, ⟨51, _⟩ => ⟨S100000x128, .f32⟩
  | .hbm, ⟨52, _⟩ => ⟨S_, .f32⟩
  | .hbm, ⟨53, _⟩ => ⟨S_, .f32⟩
  | .hbm, ⟨54, _⟩ => ⟨S_, .f32⟩
  | .hbm, ⟨55, _⟩ => ⟨S100000x128, .f32⟩
  | .hbm, ⟨56, _⟩ => ⟨S100000x128, .f32⟩
  | _, _ => ⟨S100000x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_call0_cst : Ref sig .tc := ⟨.hbm, 13, rfl⟩
abbrev main_call0_v0 : Ref sig .tc := ⟨.hbm, 14, rfl⟩
abbrev main_v4 : Ref sig .tc := ⟨.hbm, 15, rfl⟩
abbrev main_c : Ref sig .tc := ⟨.hbm, 16, rfl⟩
abbrev main_v5 : Ref sig .tc := ⟨.hbm, 17, rfl⟩
abbrev main_v6 : Ref sig .tc := ⟨.hbm, 18, rfl⟩
abbrev main_c_0 : Ref sig .tc := ⟨.hbm, 19, rfl⟩
abbrev main_v7 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_cst : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev main_cst_1 : Ref sig .tc := ⟨.hbm, 32, rfl⟩
abbrev main_v18 : Ref sig .tc := ⟨.hbm, 33, rfl⟩
abbrev main_v19 : Ref sig .tc := ⟨.hbm, 34, rfl⟩
abbrev main_v20 : Ref sig .tc := ⟨.hbm, 35, rfl⟩
abbrev main_cst_2 : Ref sig .tc := ⟨.hbm, 36, rfl⟩
abbrev main_call1_v0 : Ref sig .tc := ⟨.hbm, 37, rfl⟩
abbrev main_call1_v1 : Ref sig .tc := ⟨.hbm, 38, rfl⟩
abbrev main_v21 : Ref sig .tc := ⟨.hbm, 39, rfl⟩
abbrev main_v22 : Ref sig .tc := ⟨.hbm, 40, rfl⟩
abbrev main_v23 : Ref sig .tc := ⟨.hbm, 41, rfl⟩
abbrev main_v24 : Ref sig .tc := ⟨.hbm, 42, rfl⟩
abbrev main_v25 : Ref sig .tc := ⟨.hbm, 43, rfl⟩
abbrev main_v26 : Ref sig .tc := ⟨.hbm, 44, rfl⟩
abbrev main_v27 : Ref sig .tc := ⟨.hbm, 45, rfl⟩
abbrev main_v28 : Ref sig .tc := ⟨.hbm, 46, rfl⟩
abbrev main_v29 : Ref sig .tc := ⟨.hbm, 47, rfl⟩
abbrev main_call2_cst : Ref sig .tc := ⟨.hbm, 48, rfl⟩
abbrev main_call2_v0 : Ref sig .tc := ⟨.hbm, 49, rfl⟩
abbrev main_v30 : Ref sig .tc := ⟨.hbm, 50, rfl⟩
abbrev main_call3_v0 : Ref sig .tc := ⟨.hbm, 51, rfl⟩
abbrev main_call3_cst : Ref sig .tc := ⟨.hbm, 52, rfl⟩
abbrev main_call3_v1 : Ref sig .tc := ⟨.hbm, 53, rfl⟩
abbrev main_v31 : Ref sig .tc := ⟨.hbm, 54, rfl⟩
abbrev main_v32 : Ref sig .tc := ⟨.hbm, 55, rfl⟩
abbrev main_v33 : Ref sig .tc := ⟨.hbm, 56, rfl⟩

abbrev nD : Nat := 1
abbrev τ : Topo := Topo.v7x

variable {F : FTy → Type} [FloatOps F]

class Facts₀ : Prop where
  bcast_S64_S1x64_1 : S64.BroadcastsInDim S1x64 (![1] : Fin 1 → Fin S1x64.rank)
  bcast_S1x64_S100000x64_0_1 : S1x64.BroadcastsInDim S100000x64 (![0, 1] : Fin 2 → Fin S100000x64.rank)
  bcast_S_S100000x64 : S_.BroadcastsInDim S100000x64 (![] : Fin 0 → Fin S100000x64.rank)
  bcast_S_S1250000 : S_.BroadcastsInDim S1250000 (![] : Fin 0 → Fin S1250000.rank)
  bcast_S1250000_S1250000x1_0 : S1250000.BroadcastsInDim S1250000x1 (![0] : Fin 1 → Fin S1250000x1.rank)
  bcast_S1250000x1_S1250000x64_0_1 : S1250000x1.BroadcastsInDim S1250000x64 (![0, 1] : Fin 2 → Fin S1250000x64.rank)
  bcast_S_S100000 : S_.BroadcastsInDim S100000 (![] : Fin 0 → Fin S100000.rank)
  bcast_S100000_S100000x1_0 : S100000.BroadcastsInDim S100000x1 (![0] : Fin 1 → Fin S100000x1.rank)
  bcast_S100000x1_S100000x64_0_1 : S100000x1.BroadcastsInDim S100000x64 (![0, 1] : Fin 2 → Fin S100000x64.rank)
  concatenates_S100000x64_S100000x64_S100000x128_d1 : Shape.Concatenates [S100000x64, S100000x64] S100000x128 1
  bcast_S128_S1x128_1 : S128.BroadcastsInDim S1x128 (![1] : Fin 1 → Fin S1x128.rank)
  bcast_S1x128_S100000x128_0_1 : S1x128.BroadcastsInDim S100000x128 (![0, 1] : Fin 2 → Fin S100000x128.rank)
  bcast_S_S100000x128 : S_.BroadcastsInDim S100000x128 (![] : Fin 0 → Fin S100000x128.rank)
  reducesTo_S100000x128_S_d0_1 : S100000x128.ReducesTo [0, 1] S_
  h_S_ : 0 < S_.numel
  dot_S100000x64_S64x64_S100000x64_1_0_0_1_n_n_wf : DotDims.WF S100000x64 S64x64 S100000x64 [1] [0] [0] [1] [] []
  gather_S100000x64_S1250000x1_S1250000x64_1_0_n_n_0_1_164_wf : GatherDims.WF S100000x64 S1250000x1 S1250000x64 [1] [0] [] [0] [] 1 ![1, 64]
  scatter_S100000x64_S1250000x1_S1250000x64_1_0_0_1_wf : ScatterDims.WF S100000x64 S1250000x1 S1250000x64 [1] [0] [0] 1
  scatter_S100000_S1250000x1_S1250000_n_0_0_1_wf : ScatterDims.WF S100000 S1250000x1 S1250000 [] [0] [0] 1
  dot_S100000x128_S128x128_S100000x128_1_0_0_1_n_n_wf : DotDims.WF S100000x128 S128x128 S100000x128 [1] [0] [0] [1] [] []

variable [Facts₀]

def dot_S100000x64_S64x64_S100000x64_1_0_0_1_n_n : DotDims S100000x64 S64x64 S100000x64 where
  lhsContracting := [1]
  rhsContracting := [0]
  lhsNonContracting := [0]
  rhsNonContracting := [1]
  lhsBatch := []
  rhsBatch := []
  wf := dot_S100000x64_S64x64_S100000x64_1_0_0_1_n_n_wf
def gather_S100000x64_S1250000x1_S1250000x64_1_0_n_n_0_1_164 : GatherDims S100000x64 S1250000x1 S1250000x64 where
  offsetDims := [1]
  collapsedSliceDims := [0]
  operandBatchingDims := []
  startIndicesBatchingDims := []
  startIndexMap := [0]
  indexVectorDim := 1
  sliceSizes := ![1, 64]
  wf := gather_S100000x64_S1250000x1_S1250000x64_1_0_n_n_0_1_164_wf
def scatter_S100000x64_S1250000x1_S1250000x64_1_0_0_1 : ScatterDims S100000x64 S1250000x1 S1250000x64 where
  updateWindowDims := [1]
  insertedWindowDims := [0]
  scatterDimsToOperandDims := [0]
  indexVectorDim := 1
  wf := scatter_S100000x64_S1250000x1_S1250000x64_1_0_0_1_wf
def scatter_S100000_S1250000x1_S1250000_n_0_0_1 : ScatterDims S100000 S1250000x1 S1250000 where
  updateWindowDims := []
  insertedWindowDims := [0]
  scatterDimsToOperandDims := [0]
  indexVectorDim := 1
  wf := scatter_S100000_S1250000x1_S1250000_n_0_0_1_wf
def dot_S100000x128_S128x128_S100000x128_1_0_0_1_n_n : DotDims S100000x128 S128x128 S100000x128 where
  lhsContracting := [1]
  rhsContracting := [0]
  lhsNonContracting := [0]
  rhsNonContracting := [1]
  lhsBatch := []
  rhsBatch := []
  wf := dot_S100000x128_S128x128_S100000x128_1_0_0_1_n_n_wf

class Facts : Prop extends Facts₀ where

variable [Facts]
-- ==== Proof.Spec.lean ====
/-
  The mathematics of the two-layer message-passing block, as functions of whole arrays over the exact extended
  reals, with no program in sight.

  * `dense X W b` : a rectified affine layer, `(r, j) ↦ max (∑ c, X (r, c) · W (c, j) + b j) 0`.
  * `mean vs ws` : the weighted mean of the aggregated messages, `(r, c) ↦ vs (r, c) / max (ws (r, 0)) 1`.
  * `dense2 A B Wa Wb b` : a rectified affine layer whose input row is the two rows `A r` and `B r` side by side,
    written as the sum of the two products against the upper and the lower half of the weight matrix.
  * `sumsq Y` : the sum of the squares of all entries of `Y`, rows outermost.
  * `scale Y s` : every entry of `Y` times the reciprocal of the square root of `s`.

  All of them are generic in the number of rows, so the same function describes a block of rows and the whole array:
  row `r` of the result depends on row `r` of the row-indexed operands only.
-/
import Idealize.ShloMosaic.Lib.ValueIdx
import Idealize.ShloMosaic.PureOps.Ideal
import Idealize.ShloMosaic.PureOps.Ideal.Laws

noncomputable section

namespace Cert.Gnn

open Idealize.ShloMosaic Idealize.ShloMosaic.ValueIdx

/-- A matrix of extended reals with `m` rows and `n` columns. -/
abbrev Mat (m n : ℕ) := (⟨2, ![m, n]⟩ : Shape).Idx → EReal
/-- A vector of extended reals with `n` entries. -/
abbrev Vec1 (n : ℕ) := (⟨1, ![n]⟩ : Shape).Idx → EReal

variable {m k h n : ℕ}

/-- A rectified affine layer. -/
def dense (X : Mat m k) (W : Mat k n) (b : Vec1 n) : Mat m n :=
  fun i => max ((∑ c : Fin k, X (ix2 (i 0) c) * W (ix2 c (i 1))) + b (ix1 (i 1))) 0

theorem dense_apply (X : Mat m k) (W : Mat k n) (b : Vec1 n) (p : Fin m) (q : Fin n) :
    dense X W b (ix2 p q) = max ((∑ c : Fin k, X (ix2 p c) * W (ix2 c q)) + b (ix1 q)) 0 := rfl

/-- The weighted mean: the aggregated row divided by its total weight, the weight clipped below at one. -/
def mean (vs : Mat m h) (ws : Mat m 1) : Mat m h :=
  fun i => Ideal.div (vs i) (max (ws (ix2 (i 0) (0 : Fin 1))) 1)

theorem mean_apply (vs : Mat m h) (ws : Mat m 1) (p : Fin m) (c : Fin h) :
    mean vs ws (ix2 p c) = Ideal.div (vs (ix2 p c)) (max (ws (ix2 p (0 : Fin 1))) 1) := rfl

/-- A rectified affine layer on two row blocks side by side, as the sum of two products. -/
def dense2 (A B : Mat m h) (Wa Wb : Mat h n) (b : Vec1 n) : Mat m n :=
  fun i => max (((∑ c : Fin h, A (ix2 (i 0) c) * Wa (ix2 c (i 1)))
    + (∑ c : Fin h, B (ix2 (i 0) c) * Wb (ix2 c (i 1)))) + b (ix1 (i 1))) 0

theorem dense2_apply (A B : Mat m h) (Wa Wb : Mat h n) (b : Vec1 n) (p : Fin m) (q : Fin n) :
    dense2 A B Wa Wb b (ix2 p q) = max (((∑ c : Fin h, A (ix2 p c) * Wa (ix2 c q))
      + (∑ c : Fin h, B (ix2 p c) * Wb (ix2 c q))) + b (ix1 q)) 0 := rfl

/-- The sum of the squares of all entries, rows outermost. -/
def sumsq (Y : Mat m n) : EReal := ∑ p : Fin m, ∑ q : Fin n, Y (ix2 p q) * Y (ix2 p q)

/-- Every entry times the reciprocal of the square root of `s`. -/
def scale (Y : Mat m n) (s : EReal) : Mat m n := fun i => Y i * Ideal.div 1 (Ideal.sqrt s)

/-- A vector as a matrix of one column. -/
def col (v : Vec1 m) : Mat m 1 := fun i => v (ix1 (i 0))

/-- The upper half (rows `0 … h-1`) of a weight matrix of `h + h` rows. -/
def upper (W : Mat (h + h) n) : Mat h n := fun i => W (ix2 (Fin.castAdd h (i 0)) (i 1))

/-- The lower half (rows `h … 2h-1`) of a weight matrix of `h + h` rows. -/
def lower (W : Mat (h + h) n) : Mat h n := fun i => W (ix2 (Fin.natAdd h (i 0)) (i 1))

/-- Off zero, multiplying by the reciprocal is dividing: `y · (1 / d) = y / d` for every extended real `y` and
    every `d ≠ 0`, the infinities included (`1 / d` is `d⁻¹` there, and `y / d` is `y · d⁻¹`). -/
theorem mul_one_div (y d : EReal) (hd : d ≠ 0) : y * Ideal.div 1 d = Ideal.div y d := by
  unfold Ideal.div
  rw [if_neg hd, if_neg hd, one_mul]

/-- So scaling by the reciprocal root is dividing by the root, when the root is not zero. -/
theorem scale_eq_div (Y : Mat m n) (s : EReal) (hs : Ideal.sqrt s ≠ 0) (i : (⟨2, ![m, n]⟩ : Shape).Idx) :
    scale Y s i = Ideal.div (Y i) (Ideal.sqrt s) := mul_one_div _ _ hs

end Cert.Gnn

end
-- ==== Proof.LibDotIdx.lean ====
import Idealize.ShloMosaic.Lib.ValueIdx
import Idealize.ShloMosaic.PureOps.Ideal.Laws

/-!
# A matrix product into a zero accumulator, read at an index

Two arrangements of a rank-2 product with one contracted axis, at the exact extended reals: the plain one
(rows of the left operand against columns of the right) and the one that contracts the second axis of BOTH
operands (rows against rows).  Read at `(a, b)`, each is the sum over the contracted coordinate of the products
of the two entries; the zero accumulator contributes nothing.
-/

noncomputable section

namespace DotIdx

open Idealize.ShloMosaic Idealize.ShloMosaic.ValueIdx

variable {m k n : ℕ} {φ₁ φ₂ : FTy}

/-- Rows against columns: `[m, k] × [k, n] → [m, n]`. -/
theorem matmul_plain_zero_apply
    (w : DotDims.WF ⟨2, ![m, k]⟩ ⟨2, ![k, n]⟩ ⟨2, ![m, n]⟩ [1] [0] [0] [1] [] [])
    (prec : Option ContractPrecision) (A : FVec Ideal ⟨2, ![m, k]⟩ φ₁) (B : FVec Ideal ⟨2, ![k, n]⟩ φ₂)
    (a : Fin m) (b : Fin n) :
    matmul (⟨[1], [0], [0], [1], [], [], w⟩ : DotDims _ _ _) prec A B
        (constant ⟨2, ![m, n]⟩ .f32 0x00000000#32) (ix2 a b)
      = ∑ c : Fin k, A (ix2 a c) * B (ix2 c b) := by
  show FloatOps.matmul _ prec A B _ (ix2 a b) = _
  rw [Ideal.matmul_constant_zero_apply,
    ← Equiv.sum_comp (contrEquiv1 (⟨[1], [0], [0], [1], [], [], w⟩ : DotDims _ _ _) k rfl rfl).symm]
  refine Finset.sum_congr rfl fun c _ => ?_
  have c2 := contrEquiv1_symm_val
    (⟨[1], [0], [0], [1], [], [], w⟩ : DotDims ⟨2, ![m, k]⟩ ⟨2, ![k, n]⟩ ⟨2, ![m, n]⟩) k rfl rfl c
  have l2 : (⟨[1], [0], [0], [1], [], [], w⟩ : DotDims ⟨2, ![m, k]⟩ ⟨2, ![k, n]⟩ ⟨2, ![m, n]⟩).lhsIdx (ix2 a b)
      ((contrEquiv1 _ k rfl rfl).symm c) = ix2 a c := by
    funext ax; apply Fin.ext
    match ax with
    | ⟨0, _⟩ => simp [DotDims.lhsIdx]; rfl
    | ⟨1, _⟩ => simp [DotDims.lhsIdx]; exact c2
  have r2 : (⟨[1], [0], [0], [1], [], [], w⟩ : DotDims ⟨2, ![m, k]⟩ ⟨2, ![k, n]⟩ ⟨2, ![m, n]⟩).rhsIdx (ix2 a b)
      ((contrEquiv1 _ k rfl rfl).symm c) = ix2 c b := by
    funext ax; apply Fin.ext
    match ax with
    | ⟨0, _⟩ => simp [DotDims.rhsIdx]; exact c2
    | ⟨1, _⟩ => simp [DotDims.rhsIdx]; rfl
  rw [l2, r2]

/-- Rows against rows: `[m, k] × [n, k] → [m, n]`, the second axis of both operands contracted. -/
theorem matmul_rows_zero_apply
    (w : DotDims.WF ⟨2, ![m, k]⟩ ⟨2, ![n, k]⟩ ⟨2, ![m, n]⟩ [1] [1] [0] [0] [] [])
    (prec : Option ContractPrecision) (A : FVec Ideal ⟨2, ![m, k]⟩ φ₁) (B : FVec Ideal ⟨2, ![n, k]⟩ φ₂)
    (a : Fin m) (b : Fin n) :
    matmul (⟨[1], [1], [0], [0], [], [], w⟩ : DotDims _ _ _) prec A B
        (constant ⟨2, ![m, n]⟩ .f32 0x00000000#32) (ix2 a b)
      = ∑ c : Fin k, A (ix2 a c) * B (ix2 b c) := by
  show FloatOps.matmul _ prec A B _ (ix2 a b) = _
  rw [Ideal.matmul_constant_zero_apply,
    ← Equiv.sum_comp (contrEquiv1 (⟨[1], [1], [0], [0], [], [], w⟩ : DotDims _ _ _) k rfl rfl).symm]
  refine Finset.sum_congr rfl fun c _ => ?_
  have c2 := contrEquiv1_symm_val
    (⟨[1], [1], [0], [0], [], [], w⟩ : DotDims ⟨2, ![m, k]⟩ ⟨2, ![n, k]⟩ ⟨2, ![m, n]⟩) k rfl rfl c
  have l2 : (⟨[1], [1], [0], [0], [], [], w⟩ : DotDims ⟨2, ![m, k]⟩ ⟨2, ![n, k]⟩ ⟨2, ![m, n]⟩).lhsIdx (ix2 a b)
      ((contrEquiv1 _ k rfl rfl).symm c) = ix2 a c := by
    funext ax; apply Fin.ext
    match ax with
    | ⟨0, _⟩ => simp [DotDims.lhsIdx]; rfl
    | ⟨1, _⟩ => simp [DotDims.lhsIdx]; exact c2
  have r2 : (⟨[1], [1], [0], [0], [], [], w⟩ : DotDims ⟨2, ![m, k]⟩ ⟨2, ![n, k]⟩ ⟨2, ![m, n]⟩).rhsIdx (ix2 a b)
      ((contrEquiv1 _ k rfl rfl).symm c) = ix2 b c := by
    funext ax; apply Fin.ext
    match ax with
    | ⟨0, _⟩ => simp [DotDims.rhsIdx]; rfl
    | ⟨1, _⟩ => simp [DotDims.rhsIdx]; exact c2
  rw [l2, r2]

end DotIdx

end
-- ==== Proof.LibKeepdims.lean ====
/-
  The small readings the kernel's body needs at an index: the two keepdims layout forms (a column
  of row results cast to one column, and one column broadcast along the rows), the result index of a
  reduction along the rows with the reduced coordinate put back, a one-bit comparison word widened to
  32 bits and converted to a float as `0` or `1`, the word arithmetic of a row offset below 8192, and
  a fold of `max` from minus infinity as a supremum.
-/
import Idealize.ShloMosaic.Lib.ValueIdx
import Idealize.ShloMosaic.Lib.Pipeline.Value
import Idealize.ShloMosaic.Lib.ValueLayout
import Idealize.ShloMosaic.Lib.Affine
import Idealize.ShloMosaic.PureOps.Ideal.Laws

noncomputable section

namespace Cert.SupCon.Ker

open Idealize.ShloMosaic Idealize.ShloMosaic.ValueIdx

/-! ## The keepdims layout forms -/

/-- A vector `[a]` cast to one column `[a, 1]` reads, at `(i, 0)`, the operand at `i`. -/
theorem shapeCast_a_a1_apply {α : Type} {a : ℕ} (x : (⟨1, ![a]⟩ : Shape).Idx → α)
    (h : (⟨1, ![a]⟩ : Shape).ShapeCasts ⟨2, ![a, 1]⟩) (i : Fin a) (u : Fin 1) :
    shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- One column `[a, 1]` broadcast along the rows to `[a, b]` reads, at `(p, c)`, the operand at `(p, 0)`. -/
theorem broadcastTo_a1_ab_apply {α : Type} {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- The index of a `[a, b]` array that reduces along the rows into `i`, with column `k`, is `(i, k)`. -/
theorem lift_rows {a b : ℕ} (h : (⟨2, ![a, b]⟩ : Shape).Reduces [1] ⟨1, ![a]⟩) (i : Fin a) (k : Fin b) :
    h.lift (ix1 i) k = ix2 i k :=
  funext fun ax => Fin.ext (by
    match ax with
    | ⟨0, _⟩ => rfl
    | ⟨1, _⟩ => rfl)

/-! ## A comparison word as a float -/

/-- A one-bit word widened to 32 bits and converted as a signed integer is `1` or `0`. -/
theorem sitofp_setWidth (b : BitVec 1) :
    FloatOps.sitofp (F := Ideal) .f32 (b.setWidth 32) = if b = 1#1 then (1 : EReal) else 0 := by
  have e0 : ((0#1 : BitVec 1).setWidth 32).toInt = 0 := by decide
  have e1 : ((1#1 : BitVec 1).setWidth 32).toInt = 1 := by decide
  rcases (by decide : ∀ b : BitVec 1, b = 0#1 ∨ b = 1#1) b with rfl | rfl
  · show (((((0#1 : BitVec 1).setWidth 32).toInt : ℤ) : ℝ) : EReal) = _
    rw [e0, if_neg (by decide)]; simp
  · show (((((1#1 : BitVec 1).setWidth 32).toInt : ℤ) : ℝ) : EReal) = _
    rw [e1, if_pos rfl]; simp

/-- The float of an equality comparison of two words. -/
theorem mask_eq {w : ℕ} (x y : BitVec w) :
    FloatOps.sitofp (F := Ideal) .f32 ((IntOp.cmpi .eq x y).setWidth 32) = if x = y then (1 : EReal) else 0 := by
  rw [sitofp_setWidth]
  exact if_congr IntOp.cmpi_eq rfl rfl

/-- The float of an inequality comparison of two words. -/
theorem mask_ne {w : ℕ} (x y : BitVec w) :
    FloatOps.sitofp (F := Ideal) .f32 ((IntOp.cmpi .ne x y).setWidth 32) = if x = y then (0 : EReal) else 1 := by
  rw [sitofp_setWidth]
  by_cases hxy : x = y
  · rw [if_pos hxy, if_neg (fun h => (IntOp.cmpi_ne.mp h) hxy)]
  · rw [if_neg hxy, if_pos (IntOp.cmpi_ne.mpr hxy)]

/-- Row `128 t + r` as 32-bit words, the block's offset `t * 128` a product of words, meets column `j`
    exactly when the two numbers are equal: nothing wraps below 8192. -/
theorem row_word_eq (t r j : ℕ) (ht : t < 64) (hr : r < 128) (hj : j < 8192) :
    IntOp.addi (Scalar.muli (BitVec.ofNat 32 t) 128#32) (BitVec.ofNat 32 r) = BitVec.ofNat 32 j ↔ 128 * t + r = j := by
  show BitVec.ofNat 32 t * 128#32 + BitVec.ofNat 32 r = BitVec.ofNat 32 j ↔ _
  rw [← BitVec.toNat_inj]
  simp only [BitVec.toNat_add, BitVec.toNat_mul, BitVec.toNat_ofNat]
  omega

/-! ## The largest entry of a row -/

/-- The single-precision word `0xFF800000` is minus infinity. -/
theorem ofBits_negInf : Ideal.ofBits .f32 0xFF800000#32 = ⊥ := by simp [Ideal.ofBits, Ideal.ieee]

/-- A fold of `max` from minus infinity is the supremum. -/
theorem fold_max_bot {ι : Type*} (s : Finset ι) (f : ι → EReal) : s.fold max ⊥ f = s.sup f := rfl

end Cert.SupCon.Ker

end
-- ==== Proof.LibRowOps.lean ====
/-
  Rank-2 arrays read row by row at the exact extended reals, in the two spellings a kernel body and a host program
  give each form: a bias vector laid along every row; a column of per-row results laid along every column; the maximum
  and the sum of a row; the host's plain matrix product as a sum over the contracted coordinate. Each lemma reads the
  form at an index `(p, q)` and says which entries of the operand it depends on.
-/
import Idealize.ShloMosaic.Lib.ValueIdx
import Idealize.ShloMosaic.Lib.Pipeline.Value
import Idealize.ShloMosaic.Lib.KernelVsHost
import Idealize.ShloMosaic.PureOps.Ideal.Laws
import proofs.«173555_j42185168781626_2_alg».proof.Proof.LibDotIdx
import proofs.«173555_j42185168781626_2_alg».proof.Proof.LibKeepdims

noncomputable section

namespace Cert.LibRowOps

open Idealize.ShloMosaic Idealize.ShloMosaic.ValueIdx

variable {α : Type}

/-! ## A vector laid along every row -/

/-- The kernel's spelling: the vector cast to one row, the row broadcast down `m` rows. At `(p, q)` it is entry `q`. -/
theorem rowVec_kernel_apply {m n : Nat} (x : (⟨1, ![n]⟩ : Shape).Idx → α)
    (h1 : (⟨1, ![n]⟩ : Shape).ShapeCasts ⟨2, ![1, n]⟩) (hb : (⟨2, ![1, n]⟩ : Shape).Broadcasts ⟨2, ![m, n]⟩)
    (p : Fin m) (q : Fin n) :
    broadcastTo ⟨2, ![m, n]⟩ (shapeCast ⟨2, ![1, n]⟩ x h1) hb (ix2 p q) = x (ix1 q) := by
  have e1 := broadcastTo_apply (shapeCast ⟨2, ![1, n]⟩ x h1) hb (ix2 p q) (ix2 (0 : Fin 1) q) (by
    intro a
    match a with
    | ⟨0, _⟩ => rfl
    | ⟨1, _⟩ =>
      show q.val = if n = 1 then 0 else q.val
      split
      · have e : q.val < n := q.isLt; omega
      · rfl)
  have e2 := shapeCast_apply x h1 (ix2 (0 : Fin 1) q) (ix1 q) (by
    rw [Shape.rowMajor_val_two, Shape.rowMajor_val_one]; show q.val = 0 * n + q.val; omega)
  exact e1.trans e2

/-- The host's spelling: the vector broadcast along axis 1 to one row, the row broadcast along both axes. At `(p, q)`
    it is entry `q`. -/
theorem rowVec_host_apply {m n : Nat} (x : (⟨1, ![n]⟩ : Shape).Idx → α)
    (hd1 : (⟨1, ![n]⟩ : Shape).BroadcastsInDim ⟨2, ![1, n]⟩ ![1])
    (hd : (⟨2, ![1, n]⟩ : Shape).BroadcastsInDim ⟨2, ![m, n]⟩ ![0, 1]) (p : Fin m) (q : Fin n) :
    broadcastInDim ⟨2, ![m, n]⟩ ![0, 1] hd (broadcastInDim ⟨2, ![1, n]⟩ ![1] hd1 x) (ix2 p q) = x (ix1 q) := by
  rw [broadcastInDim_oneRow_apply]
  refine broadcastInDim_apply ![1] hd1 x (ix2 (0 : Fin 1) q) (ix1 q) ?_
  intro a
  match a with
  | ⟨0, _⟩ =>
    show q.val = if n = 1 then 0 else q.val
    split
    · have e : q.val < n := q.isLt; omega
    · rfl

/-! ## A column of per-row results laid along every column -/

/-- The kernel's spelling: the vector of row results cast to one column, the column broadcast along the rows. At
    `(p, q)` it is entry `p`. -/
theorem colVec_kernel_apply {a b : Nat} (v : (⟨1, ![a]⟩ : Shape).Idx → α)
    (h1 : (⟨1, ![a]⟩ : Shape).ShapeCasts ⟨2, ![a, 1]⟩) (hb : (⟨2, ![a, 1]⟩ : Shape).Broadcasts ⟨2, ![a, b]⟩)
    (p : Fin a) (q : Fin b) :
    broadcastTo ⟨2, ![a, b]⟩ (shapeCast ⟨2, ![a, 1]⟩ v h1) hb (ix2 p q) = v (ix1 p) := by
  rw [Cert.SupCon.Ker.broadcastTo_a1_ab_apply, Cert.SupCon.Ker.shapeCast_a_a1_apply]

/-- The host's column laid along the columns: one column broadcast along both axes reads, at `(p, q)`, its entry `(p, 0)`. -/
theorem colBcast_host_apply {a b : Nat} (y : (⟨2, ![a, 1]⟩ : Shape).Idx → α)
    (hd : (⟨2, ![a, 1]⟩ : Shape).BroadcastsInDim ⟨2, ![a, b]⟩ ![0, 1]) (p : Fin a) (q : Fin b) :
    broadcastInDim ⟨2, ![a, b]⟩ ![0, 1] hd y (ix2 p q) = y (ix2 p (0 : Fin 1)) :=
  broadcastInDim_apply ![0, 1] hd y (ix2 p q) (ix2 p (0 : Fin 1)) (by
    intro ax
    match ax with
    | ⟨0, _⟩ =>
      show p.val = if a = 1 then 0 else p.val
      split
      · have e : p.val < a := p.isLt; omega
      · rfl
    | ⟨1, _⟩ => rfl)

/-- The host's vector as one column: broadcast along axis 0 it reads, at `(p, 0)`, entry `p`. -/
theorem col1_host_apply {a : Nat} (v : (⟨1, ![a]⟩ : Shape).Idx → α)
    (hd0 : (⟨1, ![a]⟩ : Shape).BroadcastsInDim ⟨2, ![a, 1]⟩ ![0]) (p : Fin a) :
    broadcastInDim ⟨2, ![a, 1]⟩ ![0] hd0 v (ix2 p (0 : Fin 1)) = v (ix1 p) :=
  broadcastInDim_apply ![0] hd0 v (ix2 p (0 : Fin 1)) (ix1 p) (by
    intro ax
    match ax with
    | ⟨0, _⟩ =>
      show p.val = if a = 1 then 0 else p.val
      split
      · have e : p.val < a := p.isLt; omega
      · rfl)

/-- The host's spelling: the vector broadcast along axis 0 to one column, the column broadcast along both axes. At
    `(p, q)` it is entry `p`. -/
theorem colVec_host_apply {a b : Nat} (v : (⟨1, ![a]⟩ : Shape).Idx → α)
    (hd0 : (⟨1, ![a]⟩ : Shape).BroadcastsInDim ⟨2, ![a, 1]⟩ ![0])
    (hd : (⟨2, ![a, 1]⟩ : Shape).BroadcastsInDim ⟨2, ![a, b]⟩ ![0, 1]) (p : Fin a) (q : Fin b) :
    broadcastInDim ⟨2, ![a, b]⟩ ![0, 1] hd (broadcastInDim ⟨2, ![a, 1]⟩ ![0] hd0 v) (ix2 p q) = v (ix1 p) := by
  rw [colBcast_host_apply, col1_host_apply]

/-! ## The pointwise transcendentals at an index -/

theorem hostLog_apply {s : Shape} {φ : FTy} (x : FVec Ideal s φ) (i : s.Idx) : Host.log x i = Ideal.log (x i) := rfl
theorem hostExp_apply {s : Shape} {φ : FTy} (x : FVec Ideal s φ) (i : s.Idx) : Host.exp x i = Ideal.exp (x i) := rfl
theorem log_apply {s : Shape} {φ : FTy} (x : FVec Ideal s φ) (i : s.Idx) : log x i = Ideal.log (x i) := rfl
theorem exp_apply {s : Shape} {φ : FTy} (x : FVec Ideal s φ) (i : s.Idx) : exp x i = Ideal.exp (x i) := rfl

/-! ## The maximum and the sum of a row -/

/-- The kernel's maximum along the rows, at row `p`: the fold of `max` from the accumulator's value over the row. -/
theorem rowMax_kernel_apply {a b : Nat} {φ : FTy} (src : FVec Ideal ⟨2, ![a, b]⟩ φ) (acc : BitVec φ.bits)
    (h : (⟨2, ![a, b]⟩ : Shape).Reduces [1] ⟨1, ![a]⟩) (hφ : FKind.Formats φ)
    (hacc : acc = FKind.maximumf.neutral φ hφ) (p : Fin a) :
    multiReduction .maximumf [1] ⟨1, ![a]⟩ src acc h hφ hacc (ix1 p)
      = (Finset.univ : Finset (Fin b)).fold max (FloatOps.ofBits φ acc) (fun k => src (ix2 p k)) := by
  rw [Ideal.multiReduction_maximumf_single]
  have hf : (src ∘ h.lift (ix1 p)) = fun k : Fin b => src (ix2 p k) :=
    funext fun k => congrArg src (Cert.SupCon.Ker.lift_rows h p k)
  exact congrArg (fun f => Finset.fold max (FloatOps.ofBits φ acc) f (Finset.univ : Finset (Fin b))) hf

/-- The host's maximum along the rows, at row `p`: the fold of `max` from the initial value over the row. -/
theorem rowMax_host_apply {a b : Nat} {φ : FTy} {u : Shape} (x : FVec Ideal ⟨2, ![a, b]⟩ φ) (init : u.Idx → Ideal φ)
    (h' : (⟨2, ![a, b]⟩ : Shape).ReducesTo [1] ⟨1, ![a]⟩) (h : (⟨2, ![a, b]⟩ : Shape).Reduces [1] ⟨1, ![a]⟩)
    (hu : 0 < u.numel) (p : Fin a) :
    Host.reduce FloatOps.maximumf x init h' hu (ix1 p)
      = (Finset.univ : Finset (Fin b)).fold max (init (Shape.Idx.first hu)) (fun k => x (ix2 p k)) := by
  rw [Host.reduce_eq_fold_single FloatOps.maximumf x init h' h hu]
  have hf : (x ∘ h.lift (ix1 p)) = fun k : Fin b => x (ix2 p k) :=
    funext fun k => congrArg x (Cert.SupCon.Ker.lift_rows h p k)
  exact congrArg (fun f => Finset.fold max (init (Shape.Idx.first hu)) f (Finset.univ : Finset (Fin b))) hf

/-- The kernel's sum along the rows, at row `p`: the sum of the row (the neutral accumulator adds nothing). -/
theorem rowSum_kernel_apply {a b : Nat} {φ : FTy} (src : FVec Ideal ⟨2, ![a, b]⟩ φ) (acc : BitVec φ.bits)
    (h : (⟨2, ![a, b]⟩ : Shape).Reduces [1] ⟨1, ![a]⟩) (hφ : FKind.Formats φ)
    (hacc : acc = FKind.add.neutral φ hφ) (p : Fin a) :
    multiReduction .add [1] ⟨1, ![a]⟩ src acc h hφ hacc (ix1 p) = ∑ k : Fin b, src (ix2 p k) := by
  rw [Ideal.multiReduction_add_single]
  exact Finset.sum_congr rfl fun k _ => congrArg src (Cert.SupCon.Ker.lift_rows h p k)

/-- The host's sum along the rows, at row `p`: the initial value plus the sum of the row. -/
theorem rowSum_host_apply {a b : Nat} {φ : FTy} {u : Shape} (x : FVec Ideal ⟨2, ![a, b]⟩ φ) (init : u.Idx → Ideal φ)
    (h' : (⟨2, ![a, b]⟩ : Shape).ReducesTo [1] ⟨1, ![a]⟩) (h : (⟨2, ![a, b]⟩ : Shape).Reduces [1] ⟨1, ![a]⟩)
    (hu : 0 < u.numel) (p : Fin a) :
    Host.reduceAdd x init h' hu (ix1 p) = init (Shape.Idx.first hu) + ∑ k : Fin b, x (ix2 p k) := by
  show Ideal.hostReduceAdd h' x (init (Shape.Idx.first hu)) (ix1 p) = _
  rw [Ideal.hostReduceAdd_single h' h]
  exact congrArg (_ + ·) (Finset.sum_congr rfl fun k _ => congrArg x (Cert.SupCon.Ker.lift_rows h p k))

/-! ## The host's plain matrix product -/

/-- Rows against columns on the host, `[m, k] × [k, n] → [m, n]`: at `(a, b)` the sum over the contracted coordinate
    of the products of the two entries. -/
theorem dotGeneral_plain_apply {m k n : Nat} {φ₁ φ₂ : FTy}
    (w : DotDims.WF ⟨2, ![m, k]⟩ ⟨2, ![k, n]⟩ ⟨2, ![m, n]⟩ [1] [0] [0] [1] [] [])
    (prec : Option ContractPrecision) (A : FVec Ideal ⟨2, ![m, k]⟩ φ₁) (B : FVec Ideal ⟨2, ![k, n]⟩ φ₂)
    (a : Fin m) (b : Fin n) :
    Host.dotGeneral (⟨[1], [0], [0], [1], [], [], w⟩ : DotDims _ _ _) prec A B (ix2 a b)
      = ∑ c : Fin k, A (ix2 a c) * B (ix2 c b) :=
  (congrFun (matmul_zero_eq_dotGeneral (⟨[1], [0], [0], [1], [], [], w⟩ : DotDims _ _ _) prec A B) (ix2 a b)).symm.trans
    (DotIdx.matmul_plain_zero_apply w prec A B a b)

end Cert.LibRowOps

end
-- ==== Proof.Region0.lean ====
/-
  Region 0 of the kernel, read as a value: after the ten grid points, the result array holds the rectified affine
  layer of the first operand — each row against the weight matrix, plus the bias, clipped below at zero.
-/
import proofs.«173555_j42185168781626_2_alg».proof.Proof.Gen.KernelIdeal.Frame
import proofs.«173555_j42185168781626_2_alg».proof.Proof.Spec
import proofs.«173555_j42185168781626_2_alg».proof.Proof.LibDotIdx
import proofs.«173555_j42185168781626_2_alg».proof.Proof.LibRowOps
import Idealize.ShloMosaic.Lib.Pipeline.Value

set_option maxRecDepth 16384

noncomputable section

open Idealize.ShloMosaic Idealize.ShloMosaic.TcCoe Idealize.SL.Sem
open Idealize.ShloMosaic.Pipeline (Dat)
open Idealize.ShloMosaic.ValueIdx

namespace Cert.KernelIdeal.R0

open Cert.KernelIdeal Cert.KernelIdeal.Gen

variable (V : (c : Dev nD) → (b : Ref sig .tc) → Buf (Elt Ideal) ((c : Thread nD τ).loc b))

theorem hz : (![0, 0] : Fin 2 → Nat) = fun _ => 0 := funext fun a => by fin_cases a <;> rfl
theorem hz1 : (![0] : Fin 1 → Nat) = fun _ => 0 := funext fun a => by fin_cases a; rfl

/-- The stored block at a row and a column: the row of the first block against the column of the weights, plus the
    bias entry, clipped below at zero. Narrowing the operands changes nothing over the extended reals, and the zero
    accumulator contributes nothing. -/
theorem pay_apply (x : Vec Ideal S10000x64 .f32) (w : Vec Ideal S64x64 .f32) (b : Vec Ideal S64 .f32)
    (p : Fin 10000) (q : Fin 64) :
    k0_pay1 (F := Ideal) x w b (ix2 p q)
      = max ((∑ c : Fin 64, x (ix2 p c) * w (ix2 c q)) + b (ix1 q)) 0 := by
  have hm := DotIdx.matmul_plain_zero_apply (m := 10000) (k := 64) (n := 64)
    dot_S10000x64_S64x64_S10000x64_1_0_0_1_n_n_wf none
    (truncf (F := Ideal) .bf16 x bitsLt_bf16_f32) (truncf (F := Ideal) .bf16 w bitsLt_bf16_f32) p q
  have hb := Cert.LibRowOps.rowVec_kernel_apply (m := 10000) b shapeCasts_S64_S1x64 broadcasts_S1x64_S10000x64 p q
  have h0 : (Scalar.ofBits .f32 0x00000000#32 : Ideal .f32) = 0 := Ideal.ofBits_zero_f32
  unfold k0_pay1
  rw [maximumf_apply, addf_apply, broadcast_apply]
  refine congrArg₂ max (congrArg₂ (· + ·) (hm.trans ?_) hb) h0
  rfl

/-- The layer at an index whose coordinates are `r` and `q`. -/
theorem dense_at (X : Cert.Gnn.Mat 100000 64) (W : Cert.Gnn.Mat 64 64) (b : Cert.Gnn.Vec1 64)
    (i : S100000x64.Idx) (r : Fin 100000) (q : Fin 64) (h0 : (i 0).val = r.val) (h1 : (i 1).val = q.val) :
    Cert.Gnn.dense X W b i = max ((∑ c : Fin 64, X (ix2 r c) * W (ix2 c q)) + b (ix1 q)) 0 := by
  obtain rfl : i = ix2 r q := by
    funext a; apply Fin.ext
    match a with
    | ⟨0, _⟩ => exact h0
    | ⟨1, _⟩ => exact h1
  rfl

/-- The block index maps over the grid: the row-block windows sit at block row `t`, the weights and the bias at
    their one block. -/
theorem idx_facts : ∀ t : Fin cfg0.N,
    win0_0.index t (0 : Fin 2) = t.val ∧ win0_0.index t (1 : Fin 2) = 0
    ∧ win0_1.index t (0 : Fin 2) = 0 ∧ win0_1.index t (1 : Fin 2) = 0
    ∧ win0_2.index t (0 : Fin 1) = 0
    ∧ win0_3.index t (0 : Fin 2) = t.val ∧ win0_3.index t (1 : Fin 2) = 0 :=
  (by decide +kernel : ∀ t : Fin grid0.N, _)

/-- What point `t` writes back is block `t` of the layer of the whole arrays. -/
theorem flushed_eq (c : Dev nD) (t : Fin cfg0.N) :
    (dat0 (F := Ideal) V c).flushed 3 t
      = ((cfg0.win 3).blk t).view.read (Elt Ideal)
          (Cert.Gnn.dense (V c main_arg0) (V c main_arg3) (V c main_arg4)) := by
  show (cfg0.win 3).cut (grid0.coords t) ((dat0 V c).after 3 t) = _
  rw [after0_3]
  unfold out0_3
  rw [View.canon_unit_zero hz]
  simp only [View.ld_unit_zero (S := S10000x64) hz, View.ld_unit_zero (S := S64x64) hz,
    View.ld_unit_zero (S := S64) hz1]
  obtain ⟨e0, e1, e2, e3, e4, e5, e6⟩ := idx_facts t
  have hN : cfg0.N = 10 := N_0
  have htN : t.val < 10 := hN ▸ t.isLt
  funext j
  obtain ⟨p, q, rfl⟩ : ∃ (p : Fin 10000) (q : Fin 64), j = ix2 p q := ⟨j 0, j 1, eq_ix2 j⟩
  obtain ⟨r, hr⟩ : ∃ r : Fin 100000, r.val = t.val * 10000 + p.val := ⟨⟨t.val * 10000 + p.val, by omega⟩, rfl⟩
  show k0_pay1 (F := Ideal) (iblk0 V c 0 t) (iblk0 V c 1 t) (iblk0 V c 2 t) (ix2 p q)
    = Cert.Gnn.dense (V c main_arg0) (V c main_arg3) (V c main_arg4) (((cfg0.win 3).blk t).view.emb (ix2 p q))
  refine (pay_apply _ _ _ p q).trans (Eq.trans ?_ (dense_at _ _ _ _ r q ?_ ?_).symm)
  · refine congrArg₂ max (congrArg₂ (· + ·) (Finset.sum_congr rfl fun k _ => congrArg₂ (· * ·) ?_ ?_) ?_) rfl
    · show V c main_arg0 (((cfg0.win 0).blk t).view.emb (ix2 p k)) = V c main_arg0 (ix2 r k)
      refine congrArg _ ?_
      funext a; apply Fin.ext
      match a with
      | ⟨0, _⟩ => show win0_0.index t (0 : Fin 2) * 10000 + 1 * p.val = r.val; omega
      | ⟨1, _⟩ => show win0_0.index t (1 : Fin 2) * 64 + 1 * k.val = k.val; omega
    · show V c main_arg3 (((cfg0.win 1).blk t).view.emb (ix2 k q)) = V c main_arg3 (ix2 k q)
      refine congrArg _ ?_
      funext a; apply Fin.ext
      match a with
      | ⟨0, _⟩ => show win0_1.index t (0 : Fin 2) * 64 + 1 * k.val = k.val; omega
      | ⟨1, _⟩ => show win0_1.index t (1 : Fin 2) * 64 + 1 * q.val = q.val; omega
    · show V c main_arg4 (((cfg0.win 2).blk t).view.emb (ix1 q)) = V c main_arg4 (ix1 q)
      refine congrArg _ ?_
      funext a; apply Fin.ext
      match a with
      | ⟨0, _⟩ => show win0_2.index t (0 : Fin 1) * 64 + 1 * q.val = q.val; omega
  · show win0_3.index t (0 : Fin 2) * 10000 + 1 * p.val = r.val
    omega
  · show win0_3.index t (1 : Fin 2) * 64 + 1 * q.val = q.val
    omega

/-- An index of the result array is in point `t`'s block iff each coordinate is in the block's range on its axis. -/
theorem mem_blk (t : Fin cfg0.N) (i : S100000x64.Idx) :
    i ∈ ((cfg0.win 3).blk t).view.set ↔ ∀ a : Fin 2, win0_3.index t a * S10000x64.size a ≤ (i a).val
      ∧ (i a).val < win0_3.index t a * S10000x64.size a + S10000x64.size a := by
  show i ∈ ((View.whole main_v0).slice (win0_3.rect t)).set ↔ _
  rw [View.set_slice_whole, Rect.mem_set_unit]
  exact Iff.rfl

/-- Every row of the result array is written back: row `r` by the point `r / 10000`. -/
theorem cover (i : S100000x64.Idx) :
    ∃ t : Fin cfg0.N, (cfg0.win 3).flush t = true ∧ i ∈ ((cfg0.win 3).blk t).view.set := by
  have hi0 : (i 0).val < 100000 := (i 0).isLt
  have hi1 : (i 1).val < 64 := (i 1).isLt
  have hN : cfg0.N = 10 := N_0
  obtain ⟨t, ht⟩ : ∃ t : Fin cfg0.N, t.val = (i 0).val / 10000 := ⟨⟨(i 0).val / 10000, by rw [hN]; omega⟩, rfl⟩
  obtain ⟨-, -, -, -, -, e5, e6⟩ := idx_facts t
  refine ⟨t, flush0_3 t, ?_⟩
  rw [mem_blk]
  intro a
  match a with
  | ⟨0, _⟩ =>
    show win0_3.index t (0 : Fin 2) * 10000 ≤ (i 0).val ∧ (i 0).val < win0_3.index t (0 : Fin 2) * 10000 + 10000
    omega
  | ⟨1, _⟩ =>
    show win0_3.index t (1 : Fin 2) * 64 ≤ (i 1).val ∧ (i 1).val < win0_3.index t (1 : Fin 2) * 64 + 64
    omega

/-- The result array after the region: the rectified affine layer of the first operand, the weights and the bias. -/
theorem final0 (c : Dev nD) :
    (dat0 (F := Ideal) V c).arrAt 3 cfg0.N
      = Cert.Gnn.dense (V c main_arg0) (V c main_arg3) (V c main_arg4) :=
  (dat0 (F := Ideal) V c).arrAt_eq_of_cover 3 _ (fun t _ => flushed_eq V c t) cover

end Cert.KernelIdeal.R0

end
-- ==== Proof.Region1Pieces.lean ====
import proofs.«173555_j42185168781626_2_alg».proof.Proof.Gen.KernelIdeal.Frame
import Idealize.ShloMosaic.Lib.Pipeline.Value
import Idealize.ShloMosaic.Lib.Tactic

set_option maxRecDepth 16384

noncomputable section
open Idealize.ShloMosaic Idealize.ShloMosaic.TcCoe Idealize.SL.Sem
open Idealize.ShloMosaic.Pipeline (Dat)
/-!
  What the second region's body leaves in its two output buffers, case by case, as the body's own pure values: the
  block of the second layer is stored whole in both cases; the one-entry accumulator is reset to zero and then
  increased by the block's total at the first grid point, and increased by the block's total at every later one.
-/
namespace Cert.KernelIdeal.R1
open Cert.KernelIdeal Cert.KernelIdeal.Gen
variable {F : FTy → Type} [FloatOps F]

theorem hz2 : (![0, 0] : Fin 2 → Nat) = fun _ => 0 := funext fun a => by fin_cases a <;> rfl
theorem hz1 : (![0] : Fin 1 → Nat) = fun _ => 0 := funext fun a => by fin_cases a; rfl

theorem out_B_6 (c : Dev nD) (i : grid1.Coords) (a1 : Memref sig .tc .vmem S10000x64 .f32) (h1 : a1.IsWhole) (a2 : Memref sig .tc .vmem S10000x1 .f32) (h2 : a2.IsWhole) (a3 : Memref sig .tc .vmem S10000x64 .f32) (h3 : a3.IsWhole) (a4 : Memref sig .tc .vmem S64x128 .f32) (h4 : a4.IsWhole) (a5 : Memref sig .tc .vmem S64x128 .f32) (h5 : a5.IsWhole) (a6 : Memref sig .tc .vmem S128 .f32) (h6 : a6.IsWhole) (a7 : Memref sig .tc .vmem S10000x128 .f32) (h7 : a7.IsWhole) (a8 : Memref sig .tc .vmem S1x1 .f32) (h8 : a8.IsWhole) (hc : ¬cond1_0 i) (x0 : Vec F S10000x64 .f32) (x1 : Vec F S10000x1 .f32) (x2 : Vec F S10000x64 .f32) (x3 : Vec F S64x128 .f32) (x4 : Vec F S64x128 .f32) (x5 : Vec F S128 .f32) (xo7 : Vec F S1x1 .f32) :
    out1_B_6 c i a1 h1 a2 h2 a3 h3 a4 h4 a5 h5 a6 h6 a7 h7 a8 h8 hc x0 x1 x2 x3 x4 x5 xo7 = k1_pay2 x0 x1 x2 x3 x4 x5 := by
  unfold out1_B_6
  rw [View.read_writes_eq_canon _ _ _ (cover1_B_6 c i a1 h1 a2 h2 a3 h3 a4 h4 a5 h5 a6 h6 a7 h7 a8 h8 hc x0 x1 x2 x3 x4 x5 xo7)]
  unfold kernelRun1_B
  dsimp only
  sl_unfold_words
  rw [View.canon_unit_zero hz2]
  simp only [View.readAt_eq_ld, h1.read_unread, h2.read_unread, h3.read_unread, h4.read_unread, h5.read_unread, h6.read_unread, h8.read_unread, View.ld_unit_zero (S := S10000x64) hz2, View.ld_unit_zero (S := S10000x1) hz2, View.ld_unit_zero (S := S64x128) hz2, View.ld_unit_zero (S := S128) hz1, View.ld_unit_zero (S := S1x1) hz2, View.ld_unit_zero (S := S10000x128) hz2]

theorem out_B_7 (c : Dev nD) (i : grid1.Coords) (a1 : Memref sig .tc .vmem S10000x64 .f32) (h1 : a1.IsWhole) (a2 : Memref sig .tc .vmem S10000x1 .f32) (h2 : a2.IsWhole) (a3 : Memref sig .tc .vmem S10000x64 .f32) (h3 : a3.IsWhole) (a4 : Memref sig .tc .vmem S64x128 .f32) (h4 : a4.IsWhole) (a5 : Memref sig .tc .vmem S64x128 .f32) (h5 : a5.IsWhole) (a6 : Memref sig .tc .vmem S128 .f32) (h6 : a6.IsWhole) (a7 : Memref sig .tc .vmem S10000x128 .f32) (h7 : a7.IsWhole) (a8 : Memref sig .tc .vmem S1x1 .f32) (h8 : a8.IsWhole) (hc : ¬cond1_0 i) (x0 : Vec F S10000x64 .f32) (x1 : Vec F S10000x1 .f32) (x2 : Vec F S10000x64 .f32) (x3 : Vec F S64x128 .f32) (x4 : Vec F S64x128 .f32) (x5 : Vec F S128 .f32) (xo7 : Vec F S1x1 .f32) :
    out1_B_7 c i a1 h1 a2 h2 a3 h3 a4 h4 a5 h5 a6 h6 a7 h7 a8 h8 hc x0 x1 x2 x3 x4 x5 xo7 = k1_pay1 (k1_pay3 x0 x1 x2 x3 x4 x5) xo7 := by
  unfold out1_B_7
  rw [View.read_writes_eq_canon _ _ _ (cover1_B_7 c i a1 h1 a2 h2 a3 h3 a4 h4 a5 h5 a6 h6 a7 h7 a8 h8 hc x0 x1 x2 x3 x4 x5 xo7)]
  unfold kernelRun1_B
  dsimp only
  sl_unfold_words
  rw [View.canon_unit_zero hz2]
  simp only [View.readAt_eq_ld, h1.read_unread, h2.read_unread, h3.read_unread, h4.read_unread, h5.read_unread, h6.read_unread, h8.read_unread, View.ld_unit_zero (S := S10000x64) hz2, View.ld_unit_zero (S := S10000x1) hz2, View.ld_unit_zero (S := S64x128) hz2, View.ld_unit_zero (S := S128) hz1, View.ld_unit_zero (S := S1x1) hz2, View.ld_unit_zero (S := S10000x128) hz2]

theorem out_A_6 (c : Dev nD) (i : grid1.Coords) (a1 : Memref sig .tc .vmem S10000x64 .f32) (h1 : a1.IsWhole) (a2 : Memref sig .tc .vmem S10000x1 .f32) (h2 : a2.IsWhole) (a3 : Memref sig .tc .vmem S10000x64 .f32) (h3 : a3.IsWhole) (a4 : Memref sig .tc .vmem S64x128 .f32) (h4 : a4.IsWhole) (a5 : Memref sig .tc .vmem S64x128 .f32) (h5 : a5.IsWhole) (a6 : Memref sig .tc .vmem S128 .f32) (h6 : a6.IsWhole) (a7 : Memref sig .tc .vmem S10000x128 .f32) (h7 : a7.IsWhole) (a8 : Memref sig .tc .vmem S1x1 .f32) (h8 : a8.IsWhole) (hc : cond1_0 i) (x0 : Vec F S10000x64 .f32) (x1 : Vec F S10000x1 .f32) (x2 : Vec F S10000x64 .f32) (x3 : Vec F S64x128 .f32) (x4 : Vec F S64x128 .f32) (x5 : Vec F S128 .f32) :
    out1_A_6 c i a1 h1 a2 h2 a3 h3 a4 h4 a5 h5 a6 h6 a7 h7 a8 h8 hc x0 x1 x2 x3 x4 x5 = k1_pay2 x0 x1 x2 x3 x4 x5 := by
  unfold out1_A_6
  rw [View.read_writes_eq_canon _ _ _ (cover1_A_6 c i a1 h1 a2 h2 a3 h3 a4 h4 a5 h5 a6 h6 a7 h7 a8 h8 hc x0 x1 x2 x3 x4 x5)]
  unfold kernelRun1_A
  dsimp only
  sl_unfold_words
  rw [View.canon_unit_zero hz2]
  simp only [View.readAt_eq_ld, h1.read_unread, h2.read_unread, h3.read_unread, h4.read_unread, h5.read_unread, h6.read_unread, h8.read_unread, View.ld_unit_zero (S := S10000x64) hz2, View.ld_unit_zero (S := S10000x1) hz2, View.ld_unit_zero (S := S64x128) hz2, View.ld_unit_zero (S := S128) hz1, View.ld_unit_zero (S := S1x1) hz2, View.ld_unit_zero (S := S10000x128) hz2]

theorem out_A_7 (c : Dev nD) (i : grid1.Coords) (a1 : Memref sig .tc .vmem S10000x64 .f32) (h1 : a1.IsWhole) (a2 : Memref sig .tc .vmem S10000x1 .f32) (h2 : a2.IsWhole) (a3 : Memref sig .tc .vmem S10000x64 .f32) (h3 : a3.IsWhole) (a4 : Memref sig .tc .vmem S64x128 .f32) (h4 : a4.IsWhole) (a5 : Memref sig .tc .vmem S64x128 .f32) (h5 : a5.IsWhole) (a6 : Memref sig .tc .vmem S128 .f32) (h6 : a6.IsWhole) (a7 : Memref sig .tc .vmem S10000x128 .f32) (h7 : a7.IsWhole) (a8 : Memref sig .tc .vmem S1x1 .f32) (h8 : a8.IsWhole) (hc : cond1_0 i) (x0 : Vec F S10000x64 .f32) (x1 : Vec F S10000x1 .f32) (x2 : Vec F S10000x64 .f32) (x3 : Vec F S64x128 .f32) (x4 : Vec F S64x128 .f32) (x5 : Vec F S128 .f32) :
    out1_A_7 c i a1 h1 a2 h2 a3 h3 a4 h4 a5 h5 a6 h6 a7 h7 a8 h8 hc x0 x1 x2 x3 x4 x5 = k1_pay1 (k1_pay3 x0 x1 x2 x3 x4 x5) (k1_pay4 (F := F)) := by
  unfold out1_A_7
  rw [View.read_writes_eq_canon _ _ _ (cover1_A_7 c i a1 h1 a2 h2 a3 h3 a4 h4 a5 h5 a6 h6 a7 h7 a8 h8 hc x0 x1 x2 x3 x4 x5)]
  unfold kernelRun1_A
  dsimp only
  sl_unfold_words
  rw [View.canon_cons_unit_zero (S := S1x1) hz2, View.readCov_unit_zero (S := S1x1) _ hz2]
  simp only [View.readAt_eq_ld, h1.read_unread, h2.read_unread, h3.read_unread, h4.read_unread, h5.read_unread, h6.read_unread, h8.read_unread, View.ld_unit_zero (S := S10000x64) hz2, View.ld_unit_zero (S := S10000x1) hz2, View.ld_unit_zero (S := S64x128) hz2, View.ld_unit_zero (S := S128) hz1, View.ld_unit_zero (S := S1x1) hz2, View.ld_unit_zero (S := S10000x128) hz2]

end Cert.KernelIdeal.R1
end
-- ==== Proof.LibSums.lean ====
/-
  General facts about sums over the index sets of literal shapes, on any additive commutative monoid, and
  about the total of a vector's entries under the layout and reduction operations at the ideal instance:
  a sum over a rank-3 or rank-4 index set is the iterated sum over its coordinates; a sum over
  `Fin (m * n)` splits into `m` consecutive stretches of length `n`; a reshape keeps the total of the entries;
  a float add-reduction over any axes keeps the total (each entry lands in exactly one reduced cell); a vector
  with exactly one entry has that entry as its total.
-/
import Idealize.ShloMosaic.PureOps.Ideal.Laws
import Idealize.ShloMosaic.Lib.ValueIdx

noncomputable section

open scoped BigOperators

namespace Cert.Sums

open Idealize.ShloMosaic Idealize.ShloMosaic.ValueIdx

/-- A rank-3 index set is the product of its three coordinate ranges. -/
def idxEquiv3 {n0 n1 n2 : Nat} : (⟨3, ![n0, n1, n2]⟩ : Shape).Idx ≃ Fin n0 × Fin n1 × Fin n2 where
  toFun i := (i 0, i 1, i 2)
  invFun p := ix3 p.1 p.2.1 p.2.2
  left_inv i := (eq_ix3 i).symm
  right_inv _ := rfl

/-- A sum over a rank-3 index set is the triple sum over the coordinates. -/
theorem sum_idx3 {M : Type*} [AddCommMonoid M] {n0 n1 n2 : Nat} (f : (⟨3, ![n0, n1, n2]⟩ : Shape).Idx → M) :
    ∑ i, f i = ∑ a : Fin n0, ∑ b : Fin n1, ∑ c : Fin n2, f (ix3 a b c) := by
  rw [← Equiv.sum_comp (idxEquiv3 (n0 := n0) (n1 := n1) (n2 := n2)).symm f, Fintype.sum_prod_type]
  refine Finset.sum_congr rfl fun a _ => ?_
  rw [Fintype.sum_prod_type]
  rfl

/-- A rank-4 index set is the product of its four coordinate ranges. -/
def idxEquiv4 {n0 n1 n2 n3 : Nat} : (⟨4, ![n0, n1, n2, n3]⟩ : Shape).Idx ≃ Fin n0 × Fin n1 × Fin n2 × Fin n3 where
  toFun i := (i 0, i 1, i 2, i 3)
  invFun p := ix4 p.1 p.2.1 p.2.2.1 p.2.2.2
  left_inv i := (eq_ix4 i).symm
  right_inv _ := rfl

/-- A sum over a rank-4 index set is the fourfold sum over the coordinates. -/
theorem sum_idx4 {M : Type*} [AddCommMonoid M] {n0 n1 n2 n3 : Nat} (f : (⟨4, ![n0, n1, n2, n3]⟩ : Shape).Idx → M) :
    ∑ i, f i = ∑ a : Fin n0, ∑ b : Fin n1, ∑ c : Fin n2, ∑ d : Fin n3, f (ix4 a b c d) := by
  rw [← Equiv.sum_comp (idxEquiv4 (n0 := n0) (n1 := n1) (n2 := n2) (n3 := n3)).symm f, Fintype.sum_prod_type]
  refine Finset.sum_congr rfl fun a _ => ?_
  rw [Fintype.sum_prod_type]
  refine Finset.sum_congr rfl fun b _ => ?_
  rw [Fintype.sum_prod_type]
  rfl

/-- A sum over `Fin (m * n)` is the sum over the `m` stretches of the sums over each stretch's `n` places:
    place `r` of stretch `q` is `r + n * q`. -/
theorem sum_fin_stretches {M : Type*} [AddCommMonoid M] (m n : Nat) (g : Fin (m * n) → M) :
    ∑ k, g k = ∑ q : Fin m, ∑ r : Fin n, g (finProdFinEquiv (q, r)) := by
  rw [← Equiv.sum_comp finProdFinEquiv g, Fintype.sum_prod_type]

/-- A reshape keeps the total of the entries: it only re-indexes them. -/
theorem sum_shapeCast {M : Type} [AddCommMonoid M] {s t : Shape} (x : s.Idx → M) (h : s.ShapeCasts t) :
    ∑ j, shapeCast t x h j = ∑ i, x i :=
  Equiv.sum_comp (Shape.reshapeEquiv h) x

/-- A float add-reduction at the ideal instance keeps the total of the entries: every source entry is added into
    exactly one cell of the result. -/
theorem sum_multiReduction_add {φ : FTy} {s t : Shape} {axes : List (Fin s.rank)} (src : FVec Ideal s φ) (acc : BitVec φ.bits)
    (h : s.Reduces axes t) (hφ : FKind.Formats φ) (hacc : acc = FKind.add.neutral φ hφ) :
    ∑ j, multiReduction .add axes t src acc h hφ hacc j = ∑ i, src i := by
  show ∑ j, Ideal.reduceAdd h src j = ∑ i, src i
  unfold Ideal.reduceAdd
  exact Finset.sum_fiberwise Finset.univ (fun i => h.drop i) src

/-- A vector over an index set with exactly one element has that element's entry as its total. -/
theorem eq_sum_of_unique {M : Type*} [AddCommMonoid M] {ι : Type*} [Fintype ι] [Subsingleton ι] (x : ι → M) (i : ι) :
    x i = ∑ k, x k := by
  haveI : Unique ι := uniqueOfSubsingleton i
  rw [Fintype.sum_unique]
  exact congrArg x (Subsingleton.elim _ _)

/-- The index set of a shape whose every axis has extent one has at most one element. -/
theorem subsingleton_idx_of_unit {s : Shape} (hs : ∀ a, s.size a = 1) : Subsingleton s.Idx :=
  ⟨fun i j => funext fun a => Fin.ext (by have := (i a).isLt; have := (j a).isLt; have := hs a; omega)⟩

end Cert.Sums

end
-- ==== Proof.Region1Vals.lean ====
import proofs.«173555_j42185168781626_2_alg».proof.Proof.Gen.KernelIdeal.Frame
import proofs.«173555_j42185168781626_2_alg».proof.Proof.Spec
import proofs.«173555_j42185168781626_2_alg».proof.Proof.LibRowOps
import proofs.«173555_j42185168781626_2_alg».proof.Proof.LibSums
import Idealize.ShloMosaic.Lib.Pipeline.Value
import Idealize.ShloMosaic.Lib.ValueLayout

set_option maxRecDepth 16384

noncomputable section
open Idealize.ShloMosaic Idealize.ShloMosaic.TcCoe Idealize.ShloMosaic.ValueIdx
/-!
  The second region's payloads at the exact extended reals, entry by entry: the stored block is the rectified two-block
  affine layer of the weighted mean (two contractions into zero accumulators, a bias row laid along the rows, the maximum
  with zero; the mean's divisor is the weight column laid along the columns, clipped below at one); the accumulator's
  update is an addition at its one entry; the block's total is the sum of the squares of the block's entries, because
  a reduction along an axis and a reshape both keep the total of an array's entries.
-/
namespace Cert.KernelIdeal.R1
open Cert.KernelIdeal Cert.KernelIdeal.Gen

/-- The single-precision word `0x3F800000` is the real number one. -/
theorem ofBits_one : Ideal.ofBits .f32 0x3F800000#32 = 1 := by
  simp [Ideal.ofBits, Ideal.ieee]
  rw [← EReal.coe_mul, ← EReal.coe_one]
  congr 1
  norm_num

/-- A change of float format is the identity on the extended reals. -/
theorem truncf_apply {s : Shape} {φ ψ : FTy} (x : FVec Ideal s φ) (h : ψ.bits < φ.bits) (i : s.Idx) :
    truncf ψ x h i = x i := rfl

/-- One block of rows of the second layer: the body's stored value is the rectified two-block affine layer of the
    weighted mean of the block's aggregated rows and of the block's own rows. -/
theorem pay2_eq (x0 : Vec Ideal S10000x64 .f32) (x1 : Vec Ideal S10000x1 .f32) (x2 : Vec Ideal S10000x64 .f32)
    (x3 x4 : Vec Ideal S64x128 .f32) (x5 : Vec Ideal S128 .f32) :
    k1_pay2 (F := Ideal) x0 x1 x2 x3 x4 x5 = Cert.Gnn.dense2 (Cert.Gnn.mean x0 x1) x2 x3 x4 x5 := by
  funext j
  obtain ⟨p, q, rfl⟩ : ∃ (p : Fin 10000) (q : Fin 128), j = ix2 p q := ⟨j 0, j 1, eq_ix2 j⟩
  unfold k1_pay2
  rw [Cert.Gnn.dense2_apply, maximumf_apply, addf_apply, addf_apply, broadcast_apply]
  refine congrArg₂ max (congrArg₂ (· + ·) (congrArg₂ (· + ·) ?_ ?_) ?_) Ideal.ofBits_zero_f32
  · refine (DotIdx.matmul_plain_zero_apply _ none _ _ p q).trans (Finset.sum_congr rfl fun c _ => ?_)
    refine congrArg₂ (· * ·) ?_ ?_
    · rw [truncf_apply, divf_apply, shapeCast_self, Cert.SupCon.Ker.broadcastTo_a1_ab_apply, Cert.Gnn.mean_apply,
        maximumf_apply, shapeCast_self, broadcast_apply]
      exact congrArg (fun z => Ideal.div (x0 (ix2 p c)) (max (x1 (ix2 p (0 : Fin 1))) z)) ofBits_one
    · rw [truncf_apply, shapeCast_self]
  · refine (DotIdx.matmul_plain_zero_apply _ none _ _ p q).trans (Finset.sum_congr rfl fun c _ => ?_)
    refine congrArg₂ (· * ·) rfl ?_
    rw [truncf_apply, shapeCast_self]
  · exact Cert.LibRowOps.rowVec_kernel_apply x5 shapeCasts_S128_S1x128 broadcasts_S1x128_S10000x128 p q

/-- The accumulator's update at its one entry: the old value plus the block's total. -/
theorem pay1_apply (v31 v35 : Vec Ideal S1x1 .f32) (i : S1x1.Idx) :
    k1_pay1 (F := Ideal) v31 v35 i = v35 i + v31 i := by
  unfold k1_pay1
  rw [addf_apply, shapeCast_self]

/-- The accumulator's reset value is zero. -/
theorem pay4_apply (i : S1x1.Idx) : k1_pay4 (F := Ideal) i = 0 := by
  unfold k1_pay4
  rw [broadcast_apply]
  exact Ideal.ofBits_zero_f32

instance : Subsingleton S1x1.Idx := Cert.Sums.subsingleton_idx_of_unit (s := S1x1) (fun a => by fin_cases a <;> rfl)

/-- The block's total: the two reductions (along the rows, then down the one remaining column) and the reshapes around them
    keep the total of the squares, so the one entry they leave is the sum of the squares of the block's entries. -/
theorem pay3_apply (x0 : Vec Ideal S10000x64 .f32) (x1 : Vec Ideal S10000x1 .f32) (x2 : Vec Ideal S10000x64 .f32)
    (x3 x4 : Vec Ideal S64x128 .f32) (x5 : Vec Ideal S128 .f32) (i : S1x1.Idx) :
    k1_pay3 (F := Ideal) x0 x1 x2 x3 x4 x5 i = Cert.Gnn.sumsq (k1_pay2 (F := Ideal) x0 x1 x2 x3 x4 x5) := by
  rw [Cert.Sums.eq_sum_of_unique (k1_pay3 (F := Ideal) x0 x1 x2 x3 x4 x5) i]
  unfold k1_pay3
  rw [Cert.Sums.sum_shapeCast]
  exact (Cert.Sums.sum_multiReduction_add _ _ _ _ _).trans ((Cert.Sums.sum_shapeCast _ _).trans
    ((Cert.Sums.sum_multiReduction_add _ _ _ _ _).trans (sum_idx2 _)))

end Cert.KernelIdeal.R1
end
-- ==== Proof.Region1.lean ====
/-
  The second region read as values: what its two output arrays hold after the run, as functions of the arrays it
  finds at entry. Each grid point `t` handles the rows `10000 t … 10000 t + 9999`: it stores that block of the rectified
  two-block affine layer of the weighted mean, and adds the block's sum of squares into a one-entry accumulator that
  the first point resets and the last point writes back. So the first output array is the whole layer and the second
  holds the sum, over the ten blocks in order, of the blocks' sums of squares.
-/
import proofs.«173555_j42185168781626_2_alg».proof.Proof.Region1Pieces
import proofs.«173555_j42185168781626_2_alg».proof.Proof.Region1Vals

set_option maxRecDepth 16384

noncomputable section
open Idealize.ShloMosaic Idealize.ShloMosaic.TcCoe Idealize.ShloMosaic.ValueIdx Idealize.SL.Sem
open Idealize.ShloMosaic.Pipeline (Dat)
namespace Cert.KernelIdeal.R1
open Cert.KernelIdeal Cert.KernelIdeal.Gen

variable (V : (c : Dev nD) → (b : Ref sig .tc) → Buf (Elt Ideal) ((c : Thread nD τ).loc b))

/-- The block of the second layer that grid point `t` stores. -/
abbrev yblk (c : Dev nD) (t : Fin cfg1.N) : Vec Ideal S10000x128 .f32 :=
  k1_pay2 (F := Ideal) (iblk1 V c 0 t) (iblk1 V c 1 t) (iblk1 V c 2 t) (iblk1 V c 3 t) (iblk1 V c 4 t) (iblk1 V c 5 t)

/-- That block's total of squares, as the one-entry array the body adds to the accumulator. -/
abbrev tile (c : Dev nD) (t : Fin cfg1.N) : Vec Ideal S1x1 .f32 :=
  k1_pay3 (F := Ideal) (iblk1 V c 0 t) (iblk1 V c 1 t) (iblk1 V c 2 t) (iblk1 V c 3 t) (iblk1 V c 4 t) (iblk1 V c 5 t)

/-- The accumulator after grid point `n`: zero plus the first block's total, then plus each later block's total. -/
def acc (c : Dev nD) : (n : ℕ) → n < cfg1.N → Vec Ideal S1x1 .f32
  | 0, h => k1_pay1 (F := Ideal) (tile V c ⟨0, h⟩) (k1_pay4 (F := Ideal))
  | n + 1, h => k1_pay1 (F := Ideal) (tile V c ⟨n + 1, h⟩) (acc c n (Nat.lt_of_succ_lt h))

/-- What the two output buffers hold after each grid point: the point's block, and the running accumulator — by induction
    on the point. -/
theorem outsAt_eq (c : Dev nD) : ∀ (n : ℕ) (h : n < cfg1.N), outsAt1 V c n h = (yblk V c ⟨n, h⟩, acc V c n h)
  | 0, h => by
    rw [outsAt1_A V c ⟨0, h⟩ rfl, out_A_6, out_A_7]
    rfl
  | n + 1, h => by
    have hN : cfg1.N = 10 := N_1
    have hB : ¬(⟨n + 1, h⟩ : Fin cfg1.N).val % 10 = 0 := by dsimp only; omega
    rw [outsAt1_B V c ⟨n + 1, h⟩ hB, out_B_6, out_B_7]
    show (yblk V c ⟨n + 1, h⟩, k1_pay1 (F := Ideal) (tile V c ⟨n + 1, h⟩) (outsAt1 V c n (Nat.lt_of_succ_lt h)).2)
      = (yblk V c ⟨n + 1, h⟩, k1_pay1 (F := Ideal) (tile V c ⟨n + 1, h⟩) (acc V c n (Nat.lt_of_succ_lt h)))
    rw [outsAt_eq c n (Nat.lt_of_succ_lt h)]

/-! ## The windows' blocks as rows of the arrays -/

/-- Row `p` of grid point `t`'s block is row `10000 t + p` of the array. -/
def row (t : Fin cfg1.N) (p : Fin 10000) : Fin 100000 :=
  ⟨t.val * 10000 + p.val, by have := lt_of_lt_of_eq t.isLt (show cfg1.N = 10 from N_1); have := p.isLt; omega⟩

/-- The printed index maps over the grid: the row-blocked windows move with the point, the others stay at block zero. -/
theorem idx1 : ∀ t : Fin cfg1.N, win1_0.index t (0 : Fin 2) = t.val ∧ win1_0.index t (1 : Fin 2) = 0
    ∧ win1_1.index t (0 : Fin 2) = t.val ∧ win1_1.index t (1 : Fin 2) = 0
    ∧ win1_2.index t (0 : Fin 2) = t.val ∧ win1_2.index t (1 : Fin 2) = 0
    ∧ win1_3.index t (0 : Fin 2) = 0 ∧ win1_3.index t (1 : Fin 2) = 0
    ∧ win1_4.index t (0 : Fin 2) = 0 ∧ win1_4.index t (1 : Fin 2) = 0
    ∧ win1_5.index t (0 : Fin 1) = 0
    ∧ win1_6.index t (0 : Fin 2) = t.val ∧ win1_6.index t (1 : Fin 2) = 0
    ∧ win1_7.index t (0 : Fin 2) = 0 ∧ win1_7.index t (1 : Fin 2) = 0 :=
  (by decide +kernel : ∀ t : Fin grid1.N, _)

theorem iblk1_0 (c : Dev nD) (t : Fin cfg1.N) (p : Fin 10000) (k : Fin 64) :
    iblk1 V c 0 t (ix2 p k) = V c main_v13 (ix2 (row t p) k) := by
  obtain ⟨e0, e1, -⟩ := idx1 t
  unfold iblk1
  rw [View.read_apply]
  show V c main_v13 _ = V c main_v13 _
  congr 1
  funext a; apply Fin.ext
  match a with
  | ⟨0, _⟩ => show win1_0.index t (0 : Fin 2) * 10000 + 1 * p.val = t.val * 10000 + p.val; rw [e0]; omega
  | ⟨1, _⟩ => show win1_0.index t (1 : Fin 2) * 64 + 1 * k.val = k.val; rw [e1]; omega

theorem iblk1_1 (c : Dev nD) (t : Fin cfg1.N) (p : Fin 10000) (k : Fin 1) :
    iblk1 V c 1 t (ix2 p k) = V c main_v17 (ix2 (row t p) k) := by
  obtain ⟨-, -, e0, e1, -⟩ := idx1 t
  unfold iblk1
  rw [View.read_apply]
  show V c main_v17 _ = V c main_v17 _
  congr 1
  funext a; apply Fin.ext
  match a with
  | ⟨0, _⟩ => show win1_1.index t (0 : Fin 2) * 10000 + 1 * p.val = t.val * 10000 + p.val; rw [e0]; omega
  | ⟨1, _⟩ => show win1_1.index t (1 : Fin 2) * 1 + 1 * k.val = k.val; rw [e1]; omega

theorem iblk1_2 (c : Dev nD) (t : Fin cfg1.N) (p : Fin 10000) (k : Fin 64) :
    iblk1 V c 2 t (ix2 p k) = V c main_arg1 (ix2 (row t p) k) := by
  obtain ⟨-, -, -, -, e0, e1, -⟩ := idx1 t
  unfold iblk1
  rw [View.read_apply]
  show V c main_arg1 _ = V c main_arg1 _
  congr 1
  funext a; apply Fin.ext
  match a with
  | ⟨0, _⟩ => show win1_2.index t (0 : Fin 2) * 10000 + 1 * p.val = t.val * 10000 + p.val; rw [e0]; omega
  | ⟨1, _⟩ => show win1_2.index t (1 : Fin 2) * 64 + 1 * k.val = k.val; rw [e1]; omega

theorem iblk1_3 (c : Dev nD) (t : Fin cfg1.N) : (iblk1 V c 3 t : Vec Ideal S64x128 .f32) = V c main_v18 := by
  obtain ⟨-, -, -, -, -, -, e0, e1, -⟩ := idx1 t
  funext j
  unfold iblk1
  rw [View.read_apply]
  show V c main_v18 _ = V c main_v18 j
  congr 1
  funext a; apply Fin.ext
  match a with
  | ⟨0, _⟩ => show win1_3.index t (0 : Fin 2) * 64 + 1 * (j 0).val = (j 0).val; rw [e0]; omega
  | ⟨1, _⟩ => show win1_3.index t (1 : Fin 2) * 128 + 1 * (j 1).val = (j 1).val; rw [e1]; omega

theorem iblk1_4 (c : Dev nD) (t : Fin cfg1.N) : (iblk1 V c 4 t : Vec Ideal S64x128 .f32) = V c main_v19 := by
  obtain ⟨-, -, -, -, -, -, -, -, e0, e1, -⟩ := idx1 t
  funext j
  unfold iblk1
  rw [View.read_apply]
  show V c main_v19 _ = V c main_v19 j
  congr 1
  funext a; apply Fin.ext
  match a with
  | ⟨0, _⟩ => show win1_4.index t (0 : Fin 2) * 64 + 1 * (j 0).val = (j 0).val; rw [e0]; omega
  | ⟨1, _⟩ => show win1_4.index t (1 : Fin 2) * 128 + 1 * (j 1).val = (j 1).val; rw [e1]; omega

theorem iblk1_5 (c : Dev nD) (t : Fin cfg1.N) : (iblk1 V c 5 t : Vec Ideal S128 .f32) = V c main_arg6 := by
  obtain ⟨-, -, -, -, -, -, -, -, -, -, e0, -⟩ := idx1 t
  funext j
  unfold iblk1
  rw [View.read_apply]
  show V c main_arg6 _ = V c main_arg6 j
  congr 1
  funext a; apply Fin.ext
  match a with
  | ⟨0, _⟩ => show win1_5.index t (0 : Fin 1) * 128 + 1 * (j 0).val = (j 0).val; rw [e0]; omega

/-! ## The first output: the whole second layer -/

/-- The second layer of the whole arrays the region finds. -/
abbrev Y6 (c : Dev nD) : Cert.Gnn.Mat 100000 128 :=
  Cert.Gnn.dense2 (Cert.Gnn.mean (V c main_v13) (V c main_v17)) (V c main_arg1) (V c main_v18) (V c main_v19) (V c main_arg6)

/-- Grid point `t`'s block is rows `10000 t …` of the whole layer: a row of the layer depends on that row of the
    row-indexed operands only. -/
theorem yblk_apply (c : Dev nD) (t : Fin cfg1.N) (p : Fin 10000) (q : Fin 128) :
    yblk V c t (ix2 p q) = Y6 V c (ix2 (row t p) q) := by
  unfold yblk Y6
  rw [pay2_eq, Cert.Gnn.dense2_apply, Cert.Gnn.dense2_apply, iblk1_3, iblk1_4, iblk1_5]
  simp only [Cert.Gnn.mean_apply, iblk1_0, iblk1_1, iblk1_2]

theorem emb6 (t : Fin cfg1.N) (p : Fin 10000) (q : Fin 128) :
    ((cfg1.win 6).blk t).view.emb (ix2 p q) = ix2 (row t p) q := by
  obtain ⟨-, -, -, -, -, -, -, -, -, -, -, e0, e1, -⟩ := idx1 t
  funext a; apply Fin.ext
  match a with
  | ⟨0, _⟩ => show win1_6.index t (0 : Fin 2) * 10000 + 1 * p.val = t.val * 10000 + p.val; rw [e0]; omega
  | ⟨1, _⟩ => show win1_6.index t (1 : Fin 2) * 128 + 1 * q.val = q.val; rw [e1]; omega

/-- What grid point `t` writes back of the first output is block `t` of the whole layer. -/
theorem flushed6_eq (c : Dev nD) (t : Fin cfg1.N) :
    (dat1 V c).flushed 6 t = ((cfg1.win 6).blk t).view.read (Elt Ideal) (Y6 V c) := by
  show (cfg1.win 6).cut (grid1.coords t) ((dat1 V c).after 6 t) = _
  rw [after1_6, outsAt_eq V c t.val t.isLt]
  funext j
  obtain ⟨p, q, rfl⟩ : ∃ (p : Fin 10000) (q : Fin 128), j = ix2 p q := ⟨j 0, j 1, eq_ix2 j⟩
  rw [View.read_apply]
  show yblk V c t (ix2 p q) = Y6 V c (((cfg1.win 6).blk t).view.emb (ix2 p q))
  rw [emb6, yblk_apply]

theorem mem_blk6 (t : Fin cfg1.N) (i : S100000x128.Idx) :
    i ∈ ((cfg1.win 6).blk t).view.set ↔ ∀ a : Fin 2, win1_6.index t a * S10000x128.size a ≤ (i a).val
      ∧ (i a).val < win1_6.index t a * S10000x128.size a + S10000x128.size a := by
  show i ∈ ((View.whole main_v20_0).slice (win1_6.rect t)).set ↔ _
  rw [View.set_slice_whole, Rect.mem_set_unit]
  exact Iff.rfl

/-- So the first output array ends holding the whole second layer: row `r` is written by point `r / 10000`. -/
theorem final1_6 (c : Dev nD) : (dat1 V c).arrAt 6 cfg1.N = Y6 V c :=
  (dat1 V c).arrAt_eq_of_cover 6 (Y6 V c) (fun t _ => flushed6_eq V c t) fun i => by
    have hN : cfg1.N = 10 := N_1
    have hi0 : (i 0).val < 100000 := (i 0).isLt
    have hi1 : (i 1).val < 128 := (i 1).isLt
    refine ⟨⟨(i 0).val / 10000, by rw [hN]; omega⟩, flush1_6 _, ?_⟩
    obtain ⟨-, -, -, -, -, -, -, -, -, -, -, e0, e1, -⟩ := idx1 ⟨(i 0).val / 10000, by rw [hN]; omega⟩
    rw [mem_blk6]
    intro a
    match a with
    | ⟨0, _⟩ =>
      show win1_6.index _ (0 : Fin 2) * 10000 ≤ (i 0).val ∧ (i 0).val < win1_6.index _ (0 : Fin 2) * 10000 + 10000
      rw [e0]; dsimp only; omega
    | ⟨1, _⟩ =>
      show win1_6.index _ (1 : Fin 2) * 128 ≤ (i 1).val ∧ (i 1).val < win1_6.index _ (1 : Fin 2) * 128 + 128
      rw [e1]; omega

/-! ## The second output: the sum of the blocks' sums of squares -/

/-- Block `s`'s sum of squares (zero past the grid). -/
def tileSum (c : Dev nD) (s : ℕ) : EReal := if hs : s < cfg1.N then Cert.Gnn.sumsq (yblk V c ⟨s, hs⟩) else 0

/-- The accumulator after point `n` is the sum of the totals of the blocks `0 … n`. -/
theorem acc_apply (c : Dev nD) : ∀ (n : ℕ) (h : n < cfg1.N) (i : S1x1.Idx),
    acc V c n h i = ∑ s ∈ Finset.range (n + 1), tileSum V c s
  | 0, h, i => by
    show k1_pay1 (F := Ideal) (tile V c ⟨0, h⟩) (k1_pay4 (F := Ideal)) i = _
    rw [pay1_apply, pay4_apply, zero_add, Finset.sum_range_one]
    unfold tileSum
    rw [dif_pos h]
    exact pay3_apply _ _ _ _ _ _ i
  | n + 1, h, i => by
    show k1_pay1 (F := Ideal) (tile V c ⟨n + 1, h⟩) (acc V c n (Nat.lt_of_succ_lt h)) i = _
    rw [pay1_apply, acc_apply c n _ i, Finset.sum_range_succ _ (n + 1)]
    refine congrArg (_ + ·) ?_
    unfold tileSum
    rw [dif_pos h]
    exact pay3_apply _ _ _ _ _ _ i

/-- The one-entry array holding the sum of all ten blocks' totals. -/
abbrev S7 (c : Dev nD) : Cert.Gnn.Mat 1 1 := fun _ => ∑ s ∈ Finset.range 10, tileSum V c s

/-- The one write-back of the accumulator, at the last point, writes the sum of all ten totals. -/
theorem flushed7_eq (c : Dev nD) (t : Fin cfg1.N) (hf : (cfg1.win 7).flush t = true) :
    (dat1 V c).flushed 7 t = ((cfg1.win 7).blk t).view.read (Elt Ideal) (S7 V c) := by
  have hN : cfg1.N = 10 := N_1
  have h9 : t.val = 9 := by have := (flush1_7 t).mp hf; have := lt_of_lt_of_eq t.isLt hN; omega
  show (cfg1.win 7).cut (grid1.coords t) ((dat1 V c).after 7 t) = _
  rw [after1_7, outsAt_eq V c t.val t.isLt]
  funext j
  rw [View.read_apply]
  show acc V c t.val t.isLt j = ∑ s ∈ Finset.range 10, tileSum V c s
  rw [acc_apply, h9]

theorem mem_blk7 (t : Fin cfg1.N) (i : S1x1.Idx) :
    i ∈ ((cfg1.win 7).blk t).view.set ↔ ∀ a : Fin 2, win1_7.index t a * S1x1.size a ≤ (i a).val
      ∧ (i a).val < win1_7.index t a * S1x1.size a + S1x1.size a := by
  show i ∈ ((View.whole main_v20_1).slice (win1_7.rect t)).set ↔ _
  rw [View.set_slice_whole, Rect.mem_set_unit]
  exact Iff.rfl

/-- So the second output array ends holding that sum. -/
theorem final1_7 (c : Dev nD) : (dat1 V c).arrAt 7 cfg1.N = S7 V c :=
  (dat1 V c).arrAt_eq_of_cover 7 (S7 V c) (flushed7_eq V c) fun i => by
    have hN : cfg1.N = 10 := N_1
    refine ⟨⟨9, by rw [hN]; omega⟩, (flush1_7 _).mpr rfl, ?_⟩
    obtain ⟨-, -, -, -, -, -, -, -, -, -, -, -, -, e0, e1⟩ := idx1 ⟨9, by rw [hN]; omega⟩
    rw [mem_blk7]
    intro a
    have h0 : (i 0).val < 1 := (i 0).isLt
    have h1 : (i 1).val < 1 := (i 1).isLt
    match a with
    | ⟨0, _⟩ =>
      show win1_7.index _ (0 : Fin 2) * 1 ≤ (i 0).val ∧ (i 0).val < win1_7.index _ (0 : Fin 2) * 1 + 1
      rw [e0]; omega
    | ⟨1, _⟩ =>
      show win1_7.index _ (1 : Fin 2) * 1 ≤ (i 1).val ∧ (i 1).val < win1_7.index _ (1 : Fin 2) * 1 + 1
      rw [e1]; omega

/-- The ten blocks' totals add up to the sum of squares of the whole layer: the rows `0 … 99999` are the ten stretches of
    `10000` rows, and a finite sum of extended reals may be grouped in any way. -/
theorem total_eq (c : Dev nD) : ∑ s ∈ Finset.range 10, tileSum V c s = Cert.Gnn.sumsq (Y6 V c) := by
  have hN : cfg1.N = 10 := N_1
  unfold Cert.Gnn.sumsq
  rw [show (∑ p : Fin 100000, ∑ q : Fin 128, Y6 V c (ix2 p q) * Y6 V c (ix2 p q))
      = ∑ k : Fin (10 * 10000), ∑ q : Fin 128, Y6 V c (ix2 (k : Fin 100000) q) * Y6 V c (ix2 (k : Fin 100000) q) from rfl,
    Cert.Sums.sum_fin_stretches 10 10000, ← Fin.sum_univ_eq_sum_range (fun s => tileSum V c s) 10]
  refine Finset.sum_congr rfl fun t _ => ?_
  unfold tileSum
  rw [dif_pos (by rw [hN]; exact t.isLt)]
  refine Finset.sum_congr rfl fun p _ => Finset.sum_congr rfl fun q _ => ?_
  rw [yblk_apply]
  have e : row ⟨t.val, by rw [hN]; exact t.isLt⟩ p = (finProdFinEquiv (t, p) : Fin (10 * 10000)) :=
    Fin.ext (by show t.val * 10000 + p.val = p.val + 10000 * t.val; omega)
  rw [e]

end Cert.KernelIdeal.R1
end
-- ==== Proof.Region2.lean ====
/-
  Region 2 of the kernel, read as a value: after the ten grid points, the result array holds every entry of the
  first operand times the reciprocal of the square root of the one entry of the second operand.
-/
import proofs.«173555_j42185168781626_2_alg».proof.Proof.Gen.KernelIdeal.Frame
import proofs.«173555_j42185168781626_2_alg».proof.Proof.Spec
import Idealize.ShloMosaic.Lib.Pipeline.Value
import Idealize.ShloMosaic.Lib.IdealHost

set_option maxRecDepth 16384

noncomputable section

open Idealize.ShloMosaic Idealize.ShloMosaic.TcCoe Idealize.SL.Sem
open Idealize.ShloMosaic.Pipeline (Dat)
open Idealize.ShloMosaic.ValueIdx

namespace Cert.KernelIdeal.R2

open Cert.KernelIdeal Cert.KernelIdeal.Gen

variable (V : (c : Dev nD) → (b : Ref sig .tc) → Buf (Elt Ideal) ((c : Thread nD τ).loc b))

theorem hz : (![0, 0] : Fin 2 → Nat) = fun _ => 0 := funext fun a => by fin_cases a <;> rfl

/-- The stored block at a row and a column: the entry of the row block times the reciprocal of the root of the
    scalar block's one entry. -/
theorem pay_apply (s : Vec Ideal S1x1 .f32) (x : Vec Ideal S10000x128 .f32) (p : Fin 10000) (q : Fin 128) :
    k2_pay1 (F := Ideal) s x (ix2 p q)
      = x (ix2 p q) * Ideal.div 1 (Ideal.sqrt (s (ix2 (0 : Fin 1) (0 : Fin 1)))) := by
  unfold k2_pay1
  rw [mulf_apply, shapeCast_self, shapeCast_self]
  congr 1
  refine (broadcastTo_apply _ _ (ix2 p q) (ix2 (0 : Fin 1) (0 : Fin 1)) ?_).trans ?_
  · intro a
    match a with
    | ⟨0, _⟩ => rfl
    | ⟨1, _⟩ => rfl
  · rw [divf_apply, broadcast_apply]
    show Ideal.div (Ideal.ofBits .f32 0x3F800000#32) (Ideal.sqrt _) = _
    rw [Ideal.ofBits_one_f32]

/-- The block index maps over the grid: the row-block windows sit at block row `t`, the scalar window at its one block. -/
theorem idx_facts : ∀ t : Fin cfg2.N,
    win2_0.index t (0 : Fin 2) = t.val ∧ win2_0.index t (1 : Fin 2) = 0
    ∧ win2_1.index t (0 : Fin 2) = 0 ∧ win2_1.index t (1 : Fin 2) = 0
    ∧ win2_2.index t (0 : Fin 2) = t.val ∧ win2_2.index t (1 : Fin 2) = 0 :=
  (by decide +kernel : ∀ t : Fin grid2.N, _)

/-- What point `t` writes back is block `t` of the scaled array. -/
theorem flushed_eq (c : Dev nD) (t : Fin cfg2.N) :
    (dat2 (F := Ideal) V c).flushed 2 t
      = ((cfg2.win 2).blk t).view.read (Elt Ideal)
          (Cert.Gnn.scale (V c main_v20_0) (V c main_v20_1 (ix2 (0 : Fin 1) (0 : Fin 1)))) := by
  show (cfg2.win 2).cut (grid2.coords t) ((dat2 V c).after 2 t) = _
  rw [after2_2]
  unfold out2_2
  rw [View.canon_unit_zero hz]
  simp only [View.ld_unit_zero (S := S10000x128) hz, View.ld_unit_zero (S := S1x1) hz]
  obtain ⟨e0, e1, e2, e3, e4, e5⟩ := idx_facts t
  funext j
  obtain ⟨p, q, rfl⟩ : ∃ (p : Fin 10000) (q : Fin 128), j = ix2 p q := ⟨j 0, j 1, eq_ix2 j⟩
  show k2_pay1 (F := Ideal) (iblk2 V c 1 t) (iblk2 V c 0 t) (ix2 p q)
    = Cert.Gnn.scale (V c main_v20_0) (V c main_v20_1 (ix2 (0 : Fin 1) (0 : Fin 1))) (((cfg2.win 2).blk t).view.emb (ix2 p q))
  refine (pay_apply _ _ p q).trans ?_
  unfold Cert.Gnn.scale
  have h0 : iblk2 V c 0 t (ix2 p q) = V c main_v20_0 (((cfg2.win 2).blk t).view.emb (ix2 p q)) := by
    show V c main_v20_0 (((cfg2.win 0).blk t).view.emb (ix2 p q)) = _
    refine congrArg _ ?_
    funext a; apply Fin.ext
    match a with
    | ⟨0, _⟩ => show win2_0.index t (0 : Fin 2) * 10000 + 1 * p.val = win2_2.index t (0 : Fin 2) * 10000 + 1 * p.val; omega
    | ⟨1, _⟩ => show win2_0.index t (1 : Fin 2) * 128 + 1 * q.val = win2_2.index t (1 : Fin 2) * 128 + 1 * q.val; omega
  have h1 : iblk2 V c 1 t (ix2 (0 : Fin 1) (0 : Fin 1)) = V c main_v20_1 (ix2 (0 : Fin 1) (0 : Fin 1)) := by
    show V c main_v20_1 (((cfg2.win 1).blk t).view.emb (ix2 (0 : Fin 1) (0 : Fin 1))) = _
    refine congrArg _ ?_
    funext a; apply Fin.ext
    match a with
    | ⟨0, _⟩ => show win2_1.index t (0 : Fin 2) * 1 + 1 * 0 = 0; omega
    | ⟨1, _⟩ => show win2_1.index t (1 : Fin 2) * 1 + 1 * 0 = 0; omega
  rw [h0, h1]

/-- An index of the result array is in point `t`'s block iff each coordinate is in the block's range on its axis. -/
theorem mem_blk (t : Fin cfg2.N) (i : S100000x128.Idx) :
    i ∈ ((cfg2.win 2).blk t).view.set ↔ ∀ a : Fin 2, win2_2.index t a * S10000x128.size a ≤ (i a).val
      ∧ (i a).val < win2_2.index t a * S10000x128.size a + S10000x128.size a := by
  show i ∈ ((View.whole main_v21).slice (win2_2.rect t)).set ↔ _
  rw [View.set_slice_whole, Rect.mem_set_unit]
  exact Iff.rfl

/-- Every row of the result array is written back: row `r` by the point `r / 10000`. -/
theorem cover (i : S100000x128.Idx) :
    ∃ t : Fin cfg2.N, (cfg2.win 2).flush t = true ∧ i ∈ ((cfg2.win 2).blk t).view.set := by
  have hi0 : (i 0).val < 100000 := (i 0).isLt
  have hi1 : (i 1).val < 128 := (i 1).isLt
  have hN : cfg2.N = 10 := N_2
  obtain ⟨t, ht⟩ : ∃ t : Fin cfg2.N, t.val = (i 0).val / 10000 := ⟨⟨(i 0).val / 10000, by rw [hN]; omega⟩, rfl⟩
  obtain ⟨-, -, -, -, e4, e5⟩ := idx_facts t
  refine ⟨t, flush2_2 t, ?_⟩
  rw [mem_blk]
  intro a
  match a with
  | ⟨0, _⟩ =>
    show win2_2.index t (0 : Fin 2) * 10000 ≤ (i 0).val ∧ (i 0).val < win2_2.index t (0 : Fin 2) * 10000 + 10000
    omega
  | ⟨1, _⟩ =>
    show win2_2.index t (1 : Fin 2) * 128 ≤ (i 1).val ∧ (i 1).val < win2_2.index t (1 : Fin 2) * 128 + 128
    omega

/-- The result array after the region: the first operand scaled by the reciprocal root of the second's one entry. -/
theorem final2 (c : Dev nD) :
    (dat2 (F := Ideal) V c).arrAt 2 cfg2.N
      = Cert.Gnn.scale (V c main_v20_0) (V c main_v20_1 (ix2 (0 : Fin 1) (0 : Fin 1))) :=
  (dat2 (F := Ideal) V c).arrAt_eq_of_cover 2 _ (fun t _ => flushed_eq V c t) cover

end Cert.KernelIdeal.R2

end
-- ==== Proof.KernelRun.lean ====
/-
  The idealized kernel's run with its RESULT named: every weakly fair execution of the three pipelined regions and the
  host operations between them terminates, and the result buffer ends at what the last region's write-backs leave in
  it, the arguments unchanged. The buffer contents at the segment boundaries are the fold the frame already walks
  (launch memory, region 0's arrays, the host operations, region 1's arrays, region 2's arrays); this module only reads
  one more buffer of the last boundary against the final state.
-/
import proofs.«173555_j42185168781626_2_alg».proof.Proof.Gen.KernelIdeal.Frame

set_option maxRecDepth 16384

noncomputable section

namespace Cert.KernelIdeal.Run

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- The run: the result buffer at the last boundary's contents, every argument as launched. -/
theorem run_result : θ_run defs (onTc (τ := τ) (main (F := F))) ⟨m, fun _ => 0, ρ⟩ (fun r => ∀ c : Dev nD,
      r.2.mem ((c.tc : Thread nD τ).loc main_v21) = W4 m ρ c (Proc.devRef .tc main_v21)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W4 m ρ c b)
    (hfin := fun c s' => by
      iintro ⟨⟨Hh, -⟩, HSI⟩
      unfold StableHlo.held
      imodintro
      iapply (pointsTo_read_all (Pipeline.ucRefs τ sig) (fun b => (((c : Thread nD τ)).1, b)) (W4 m ρ c) s')
      isplitl [Hh] <;> iassumption)
    (hQ := fun s h c =>
      ⟨h c _ (mem_uc main_v21 (by decide)),
       (h c _ (mem_uc main_arg0 (by decide))).trans (W4_main_arg0 m ρ c),
       (h c _ (mem_uc main_arg1 (by decide))).trans (W4_main_arg1 m ρ c),
       (h c _ (mem_uc main_arg2 (by decide))).trans (W4_main_arg2 m ρ c),
       (h c _ (mem_uc main_arg3 (by decide))).trans (W4_main_arg3 m ρ c),
       (h c _ (mem_uc main_arg4 (by decide))).trans (W4_main_arg4 m ρ c),
       (h c _ (mem_uc main_arg5 (by decide))).trans (W4_main_arg5 m ρ c),
       (h c _ (mem_uc main_arg6 (by decide))).trans (W4_main_arg6 m ρ c),
       (h c _ (mem_uc main_arg7 (by decide))).trans (W4_main_arg7 m ρ c),
       (h c _ (mem_uc main_arg8 (by decide))).trans (W4_main_arg8 m ρ c)⟩)

end Cert.KernelIdeal.Run

end
-- ==== Proof.RefValue.lean ====
import proofs.«173555_j42185168781626_2_alg».proof.Defs
import proofs.«173555_j42185168781626_2_alg».proof.Proof.Gen.ReferenceIdeal.Run
import proofs.«173555_j42185168781626_2_alg».proof.Proof.Gen.ReferenceIdeal.Read
import proofs.«173555_j42185168781626_2_alg».proof.Proof.Spec
import proofs.«173555_j42185168781626_2_alg».proof.Proof.LibRowOps
import Idealize.ShloMosaic.Lib.ValueIdx
import Idealize.ShloMosaic.Lib.IdealHost
import Idealize.ShloMosaic.Lib.Pipeline.Value
import Idealize.ShloMosaic.PureOps.Ideal.Laws

/-!
# The reference program's result is the specification

The reference computes, from the node features, the edge weights and the two index lists, the rectified first
layer, the weighted sums of the gathered rows and of the weights over the destination nodes, their quotient (the
weight clipped below at one), the rectified second layer on the quotient and the destination features side by side,
and that array divided by the square root of the sum of its squares. Here the composed term of the program is cut
into named pieces, the second layer's output is identified index by index with the specification's functions, and
the normalising scalar with the specification's sum of squares.
-/

noncomputable section

namespace Cert.ReferenceIdeal.RefValue

open Cert.ReferenceIdeal Cert.ReferenceIdeal.Gen Idealize.ShloMosaic Idealize.ShloMosaic.TcCoe Idealize.SL.Sem Idealize.ShloMosaic.StableHlo
open Idealize.ShloMosaic.ValueIdx

/-! The nine arguments at their array types. -/
abbrev a0 (m : (ℓ : Loc nD τ sig) → Buf (Elt Ideal) ℓ) (c : Dev nD) : FVec Ideal S100000x64 .f32 := m ((c.tc : Thread nD τ).loc main_arg0)
abbrev a1 (m : (ℓ : Loc nD τ sig) → Buf (Elt Ideal) ℓ) (c : Dev nD) : FVec Ideal S100000x64 .f32 := m ((c.tc : Thread nD τ).loc main_arg1)
abbrev a2 (m : (ℓ : Loc nD τ sig) → Buf (Elt Ideal) ℓ) (c : Dev nD) : FVec Ideal S1250000 .f32 := m ((c.tc : Thread nD τ).loc main_arg2)
abbrev a3 (m : (ℓ : Loc nD τ sig) → Buf (Elt Ideal) ℓ) (c : Dev nD) : FVec Ideal S64x64 .f32 := m ((c.tc : Thread nD τ).loc main_arg3)
abbrev a4 (m : (ℓ : Loc nD τ sig) → Buf (Elt Ideal) ℓ) (c : Dev nD) : FVec Ideal S64 .f32 := m ((c.tc : Thread nD τ).loc main_arg4)
abbrev a5 (m : (ℓ : Loc nD τ sig) → Buf (Elt Ideal) ℓ) (c : Dev nD) : FVec Ideal S128x128 .f32 := m ((c.tc : Thread nD τ).loc main_arg5)
abbrev a6 (m : (ℓ : Loc nD τ sig) → Buf (Elt Ideal) ℓ) (c : Dev nD) : FVec Ideal S128 .f32 := m ((c.tc : Thread nD τ).loc main_arg6)
abbrev a7 (m : (ℓ : Loc nD τ sig) → Buf (Elt Ideal) ℓ) (c : Dev nD) : IVec S1250000 32 := m ((c.tc : Thread nD τ).loc main_arg7)
abbrev a8 (m : (ℓ : Loc nD τ sig) → Buf (Elt Ideal) ℓ) (c : Dev nD) : IVec S1250000 32 := m ((c.tc : Thread nD τ).loc main_arg8)

/-- The gathered rows of `hs` at the source nodes (a negative index counted from the end), each times its edge
    weight, summed into the rows of the destination nodes. -/
def aggV (hs : FVec Ideal S100000x64 .f32) (ew : FVec Ideal S1250000 .f32) (src dst : IVec S1250000 32) :
    FVec Ideal S100000x64 .f32 :=
  Host.scatterAdd scatter_S100000x64_S1250000x1_S1250000x64_1_0_0_1 (broadcastInDim S100000x64 ![] bcast_S_S100000x64 (constant S_ .f32 0x00000000#32)) (broadcastInDim S1250000x1 ![0] bcast_S1250000_S1250000x1_0 dst) (mulf (Host.gather gather_S100000x64_S1250000x1_S1250000x64_1_0_n_n_0_1_164 hs (broadcastInDim S1250000x1 ![0] bcast_S1250000_S1250000x1_0 (select (cmpi .slt src (broadcastInDim S1250000 ![] bcast_S_S1250000 (constantI S_ 32 0#32))) (addi src (broadcastInDim S1250000 ![] bcast_S_S1250000 (constantI S_ 32 100000#32))) src))) (broadcastInDim S1250000x64 ![0, 1] bcast_S1250000x1_S1250000x64_0_1 (broadcastInDim S1250000x1 ![0] bcast_S1250000_S1250000x1_0 ew)))

/-- The edge weights summed over the destination nodes. -/
def aggW (ew : FVec Ideal S1250000 .f32) (dst : IVec S1250000 32) : FVec Ideal S100000 .f32 :=
  Host.scatterAdd scatter_S100000_S1250000x1_S1250000_n_0_0_1 (broadcastInDim S100000 ![] bcast_S_S100000 (constant S_ .f32 0x00000000#32)) (broadcastInDim S1250000x1 ![0] bcast_S1250000_S1250000x1_0 dst) ew

/-- The second layer's rectified output, before the normalisation: the numerator of the reference's result. -/
def refNew (m : (ℓ : Loc nD τ sig) → Buf (Elt Ideal) ℓ) (c : Dev nD) : FVec Ideal S100000x128 .f32 :=
  maximumf (addf (Host.dotGeneral dot_S100000x128_S128x128_S100000x128_1_0_0_1_n_n none (concatenate S100000x128 1 [⟨S100000x64, (Host.divf (aggV (maximumf (addf (Host.dotGeneral dot_S100000x64_S64x64_S100000x64_1_0_0_1_n_n none (a0 m c) (a3 m c)) (broadcastInDim S100000x64 ![0, 1] bcast_S1x64_S100000x64_0_1 (broadcastInDim S1x64 ![1] bcast_S64_S1x64_1 (a4 m c)))) (broadcastInDim S100000x64 ![] bcast_S_S100000x64 (constant S_ .f32 0x00000000#32))) (a2 m c) (a7 m c) (a8 m c)) (broadcastInDim S100000x64 ![0, 1] bcast_S100000x1_S100000x64_0_1 (broadcastInDim S100000x1 ![0] bcast_S100000_S100000x1_0 (maximumf (broadcastInDim S100000 ![] bcast_S_S100000 (id (constant S_ .f32 0x3F800000#32))) (aggW (a2 m c) (a8 m c))))))⟩, ⟨S100000x64, (a1 m c)⟩] concatenates_S100000x64_S100000x64_S100000x128_d1) (a5 m c)) (broadcastInDim S100000x128 ![0, 1] bcast_S1x128_S100000x128_0_1 (broadcastInDim S1x128 ![1] bcast_S128_S1x128_1 (a6 m c)))) (broadcastInDim S100000x128 ![] bcast_S_S100000x128 (constant S_ .f32 0x00000000#32))

set_option maxRecDepth 8192 in
/-- The reference's result is its second layer's output divided, entry by entry, by the square root of the sum of
    its squares. -/
theorem res_eq (m : (ℓ : Loc nD τ sig) → Buf (Elt Ideal) ℓ) (c : Dev nD) :
    Value.res_main_v33 (F := Ideal) m c
      = Host.divf (refNew m c) (broadcastInDim S100000x128 ![] bcast_S_S100000x128
          (Host.sqrt (Host.reduceAdd (mulf (refNew m c) (refNew m c)) (constant S_ .f32 0x00000000#32)
            reducesTo_S100000x128_S_d0_1 h_S_))) := by
  unfold Value.res_main_v33 refNew aggV aggW
  rfl

/-! ## The normalising scalar -/

/-- The host's square root at an index is the square root of the element. -/
theorem hostSqrt_apply {s : Shape} {φ : FTy} (x : FVec Ideal s φ) (i : s.Idx) : Host.sqrt x i = Ideal.sqrt (x i) := rfl

/-- The square root of the sum over both axes of the squares, from the zero initial value, is the square root of
    the specification's sum of squares. -/
theorem norm_eq (Z : FVec Ideal S100000x128 .f32) :
    Host.sqrt (Host.reduceAdd (mulf Z Z) (constant S_ .f32 0x00000000#32) reducesTo_S100000x128_S_d0_1 h_S_) ix0
      = Ideal.sqrt (Cert.Gnn.sumsq Z) := by
  rw [hostSqrt_apply, hostReduceAdd_apply, Ideal.hostReduceAdd_total reducesTo_S100000x128_S_d0_1 (fun b => b.elim0),
    constant_apply, Ideal.ofBits_zero_f32, zero_add, sum_idx2]
  rfl

/-! ## The layers, index by index -/

/-- The first layer: the product with the weights, the bias laid along the rows, rectified. -/
theorem layer1_eq (X : FVec Ideal S100000x64 .f32) (W : FVec Ideal S64x64 .f32) (b : FVec Ideal S64 .f32) :
    maximumf (addf (Host.dotGeneral dot_S100000x64_S64x64_S100000x64_1_0_0_1_n_n none X W) (broadcastInDim S100000x64 ![0, 1] bcast_S1x64_S100000x64_0_1 (broadcastInDim S1x64 ![1] bcast_S64_S1x64_1 b))) (broadcastInDim S100000x64 ![] bcast_S_S100000x64 (constant S_ .f32 0x00000000#32))
      = Cert.Gnn.dense X W b := by
  funext i
  obtain ⟨p, q, rfl⟩ : ∃ (p : Fin 100000) (q : Fin 64), i = ix2 p q := ⟨i 0, i 1, eq_ix2 i⟩
  rw [Cert.Gnn.dense_apply, maximumf_apply, addf_apply, broadcastInDim_scalar_apply, constant_apply,
    Ideal.ofBits_zero_f32, Cert.LibRowOps.rowVec_host_apply]
  refine congrArg (fun t => max (t + b (ix1 q)) 0) ?_
  exact Cert.LibRowOps.dotGeneral_plain_apply dot_S100000x64_S64x64_S100000x64_1_0_0_1_n_n_wf none X W p q

/-- The weighted mean: the aggregated rows divided by the aggregated weights, the weights clipped below at one and
    laid along the columns. -/
theorem mean_eq (V : FVec Ideal S100000x64 .f32) (w : FVec Ideal S100000 .f32) :
    Host.divf V (broadcastInDim S100000x64 ![0, 1] bcast_S100000x1_S100000x64_0_1 (broadcastInDim S100000x1 ![0] bcast_S100000_S100000x1_0 (maximumf (broadcastInDim S100000 ![] bcast_S_S100000 (id (constant S_ .f32 0x3F800000#32))) w)))
      = Cert.Gnn.mean V (Cert.Gnn.col w) := by
  funext i
  obtain ⟨p, q, rfl⟩ : ∃ (p : Fin 100000) (q : Fin 64), i = ix2 p q := ⟨i 0, i 1, eq_ix2 i⟩
  show Host.divf V _ (ix2 p q) = Ideal.div (V (ix2 p q)) (max (w (ix1 p)) 1)
  rw [hostDivf_apply, Cert.LibRowOps.colVec_host_apply, maximumf_apply, broadcastInDim_scalar_apply, id_eq,
    constant_apply, Ideal.ofBits_one_f32, max_comm]

/-- Two arrays of 64 columns side by side, read in the first 64 columns: the left one. -/
theorem cat_left (A B : FVec Ideal S100000x64 .f32) (p : Fin 100000) (c : Fin 64) :
    concatenate S100000x128 1 [⟨S100000x64, A⟩, ⟨S100000x64, B⟩] concatenates_S100000x64_S100000x64_S100000x128_d1
        (ix2 p (Fin.castAdd 64 c)) = A (ix2 p c) :=
  concatenate_pair_apply_left 1 A B concatenates_S100000x64_S100000x64_S100000x128_d1 _ rfl (ix2 p c) (by
    intro b
    match b with
    | ⟨0, _⟩ => rfl
    | ⟨1, _⟩ => rfl)

/-- Two arrays of 64 columns side by side, read in the last 64 columns: the right one, 64 columns back. -/
theorem cat_right (A B : FVec Ideal S100000x64 .f32) (p : Fin 100000) (c : Fin 64) :
    concatenate S100000x128 1 [⟨S100000x64, A⟩, ⟨S100000x64, B⟩] concatenates_S100000x64_S100000x64_S100000x128_d1
        (ix2 p (Fin.natAdd 64 c)) = B (ix2 p c) :=
  concatenate_pair_apply_right 1 A B concatenates_S100000x64_S100000x64_S100000x128_d1 _ rfl rfl (ix2 p c) (by
    intro b hb
    match b, hb with
    | ⟨0, _⟩, _ => rfl
    | ⟨1, _⟩, hb => exact absurd rfl hb) (by
    show c.val + 64 = 64 + c.val
    omega)

/-- The second layer: the product of the two row blocks side by side with the weights is the sum of the two
    products against the upper and the lower half of the weights; then the bias, rectified. -/
theorem layer2_eq (A B : FVec Ideal S100000x64 .f32) (W : FVec Ideal S128x128 .f32) (b : FVec Ideal S128 .f32) :
    maximumf (addf (Host.dotGeneral dot_S100000x128_S128x128_S100000x128_1_0_0_1_n_n none (concatenate S100000x128 1 [⟨S100000x64, A⟩, ⟨S100000x64, B⟩] concatenates_S100000x64_S100000x64_S100000x128_d1) W) (broadcastInDim S100000x128 ![0, 1] bcast_S1x128_S100000x128_0_1 (broadcastInDim S1x128 ![1] bcast_S128_S1x128_1 b))) (broadcastInDim S100000x128 ![] bcast_S_S100000x128 (constant S_ .f32 0x00000000#32))
      = Cert.Gnn.dense2 A B (Cert.Gnn.upper (h := 64) W) (Cert.Gnn.lower (h := 64) W) b := by
  funext i
  obtain ⟨p, q, rfl⟩ : ∃ (p : Fin 100000) (q : Fin 128), i = ix2 p q := ⟨i 0, i 1, eq_ix2 i⟩
  rw [Cert.Gnn.dense2_apply, maximumf_apply, addf_apply, broadcastInDim_scalar_apply, constant_apply,
    Ideal.ofBits_zero_f32, Cert.LibRowOps.rowVec_host_apply]
  refine congrArg (fun t => max (t + b (ix1 q)) 0) ?_
  refine (Cert.LibRowOps.dotGeneral_plain_apply dot_S100000x128_S128x128_S100000x128_1_0_0_1_n_n_wf none _ W p q).trans ?_
  refine (Fin.sum_univ_add (a := 64) (b := 64) (fun c : Fin (64 + 64) =>
    concatenate S100000x128 1 [⟨S100000x64, A⟩, ⟨S100000x64, B⟩] concatenates_S100000x64_S100000x64_S100000x128_d1
      (ix2 p c) * W (ix2 c q))).trans ?_
  refine congrArg₂ (· + ·) (Finset.sum_congr rfl fun c _ => ?_) (Finset.sum_congr rfl fun c _ => ?_)
  · exact congrArg (fun t => t * W (ix2 (Fin.castAdd 64 c) q)) (cat_left A B p c)
  · exact congrArg (fun t => t * W (ix2 (Fin.natAdd 64 c) q)) (cat_right A B p c)

/-! ## The reference's second layer is the specification's -/

/-- The specification's second-layer output as a function of the nine arrays. -/
def newOf (x0 x1 : FVec Ideal S100000x64 .f32) (x2 : FVec Ideal S1250000 .f32) (x3 : FVec Ideal S64x64 .f32)
    (x4 : FVec Ideal S64 .f32) (x5 : FVec Ideal S128x128 .f32) (x6 : FVec Ideal S128 .f32)
    (x7 x8 : IVec S1250000 32) : Cert.Gnn.Mat 100000 128 :=
  Cert.Gnn.dense2 (Cert.Gnn.mean (aggV (Cert.Gnn.dense x0 x3 x4) x2 x7 x8) (Cert.Gnn.col (aggW x2 x8))) x1
    (Cert.Gnn.upper (h := 64) x5) (Cert.Gnn.lower (h := 64) x5) x6

/-- The same at the reference's arguments. -/
abbrev Y (m : (ℓ : Loc nD τ sig) → Buf (Elt Ideal) ℓ) (c : Dev nD) : Cert.Gnn.Mat 100000 128 :=
  newOf (a0 m c) (a1 m c) (a2 m c) (a3 m c) (a4 m c) (a5 m c) (a6 m c) (a7 m c) (a8 m c)

theorem refNew_eq (m : (ℓ : Loc nD τ sig) → Buf (Elt Ideal) ℓ) (c : Dev nD) : refNew m c = Y m c := by
  unfold refNew Y newOf
  rw [layer2_eq, mean_eq, layer1_eq]

/-- The reference's result at an index: the specification's second-layer output there, divided by the square root
    of the sum of its squares. -/
theorem result_eq (m : (ℓ : Loc nD τ sig) → Buf (Elt Ideal) ℓ) (c : Dev nD) (i : S100000x128.Idx) :
    Value.res_out0 (F := Ideal) m c i = Ideal.div (Y m c i) (Ideal.sqrt (Cert.Gnn.sumsq (Y m c))) := by
  refine (congrFun (res_eq m c) i).trans ?_
  rw [hostDivf_apply, broadcastInDim_scalar_apply, norm_eq, refNew_eq]

end Cert.ReferenceIdeal.RefValue

end
-- ==== Proof.KernelValue.lean ====
/-
  The value of the idealized kernel: the result buffer at the last segment boundary, walked back through the three
  regions and the host operations between them to the launch memory, is the specification's second-layer output
  scaled by the reciprocal of the square root of the sum of its squares.
-/
import proofs.«173555_j42185168781626_2_alg».proof.Proof.Gen.KernelIdeal.Frame
import proofs.«173555_j42185168781626_2_alg».proof.Proof.Spec
import proofs.«173555_j42185168781626_2_alg».proof.Proof.LibRowOps
import proofs.«173555_j42185168781626_2_alg».proof.Proof.Region0
import proofs.«173555_j42185168781626_2_alg».proof.Proof.Region1
import proofs.«173555_j42185168781626_2_alg».proof.Proof.Region2
import proofs.«173555_j42185168781626_2_alg».proof.Proof.KernelRun
import proofs.«173555_j42185168781626_2_alg».proof.Proof.RefValue
import Idealize.ShloMosaic.Lib.Pipeline.Value
import Idealize.ShloMosaic.Lib.StableHlo.Run

set_option maxRecDepth 16384

noncomputable section

open Idealize.ShloMosaic Idealize.ShloMosaic.TcCoe Idealize.SL.Sem
open Idealize.ShloMosaic.Pipeline (Dat)
open Idealize.ShloMosaic.ValueIdx

namespace Cert.KernelIdeal.Value

open Cert.KernelIdeal Cert.KernelIdeal.Gen

variable (m : (ℓ : Loc nD τ sig) → Buf (Elt Ideal) ℓ) (ρ : Dev nD → PrngReg)

/-! The nine arguments at their array types. -/
abbrev k0 (c : Dev nD) : FVec Ideal S100000x64 .f32 := m ((c.tc : Thread nD τ).loc main_arg0)
abbrev k1 (c : Dev nD) : FVec Ideal S100000x64 .f32 := m ((c.tc : Thread nD τ).loc main_arg1)
abbrev k2 (c : Dev nD) : FVec Ideal S1250000 .f32 := m ((c.tc : Thread nD τ).loc main_arg2)
abbrev k3 (c : Dev nD) : FVec Ideal S64x64 .f32 := m ((c.tc : Thread nD τ).loc main_arg3)
abbrev k4 (c : Dev nD) : FVec Ideal S64 .f32 := m ((c.tc : Thread nD τ).loc main_arg4)
abbrev k5 (c : Dev nD) : FVec Ideal S128x128 .f32 := m ((c.tc : Thread nD τ).loc main_arg5)
abbrev k6 (c : Dev nD) : FVec Ideal S128 .f32 := m ((c.tc : Thread nD τ).loc main_arg6)
abbrev k7 (c : Dev nD) : IVec S1250000 32 := m ((c.tc : Thread nD τ).loc main_arg7)
abbrev k8 (c : Dev nD) : IVec S1250000 32 := m ((c.tc : Thread nD τ).loc main_arg8)

/-- The weighted sums of the gathered rows over the destination nodes, in the kernel program's records. -/
def aggVK (hs : FVec Ideal S100000x64 .f32) (ew : FVec Ideal S1250000 .f32) (src dst : IVec S1250000 32) :
    FVec Ideal S100000x64 .f32 :=
  Host.scatterAdd scatter_S100000x64_S1250000x1_S1250000x64_1_0_0_1 (broadcastInDim S100000x64 ![] bcast_S_S100000x64 (constant S_ .f32 0x00000000#32)) (broadcastInDim S1250000x1 ![0] bcast_S1250000_S1250000x1_0 dst) (mulf (Host.gather gather_S100000x64_S1250000x1_S1250000x64_1_0_n_n_0_1_164 hs (broadcastInDim S1250000x1 ![0] bcast_S1250000_S1250000x1_0 (select (cmpi .slt src (broadcastInDim S1250000 ![] bcast_S_S1250000 (constantI S_ 32 0#32))) (addi src (broadcastInDim S1250000 ![] bcast_S_S1250000 (constantI S_ 32 100000#32))) src))) (broadcastInDim S1250000x64 ![0, 1] bcast_S1250000x1_S1250000x64_0_1 (broadcastInDim S1250000x1 ![0] bcast_S1250000_S1250000x1_0 ew)))

/-- The edge weights summed over the destination nodes, in the kernel program's records. -/
def aggWK (ew : FVec Ideal S1250000 .f32) (dst : IVec S1250000 32) : FVec Ideal S100000 .f32 :=
  Host.scatterAdd scatter_S100000_S1250000x1_S1250000_n_0_0_1 (broadcastInDim S100000 ![] bcast_S_S100000 (constant S_ .f32 0x00000000#32)) (broadcastInDim S1250000x1 ![0] bcast_S1250000_S1250000x1_0 dst) ew

theorem aggVK_eq (hs : FVec Ideal S100000x64 .f32) (ew : FVec Ideal S1250000 .f32) (src dst : IVec S1250000 32) :
    aggVK hs ew src dst = Cert.ReferenceIdeal.RefValue.aggV hs ew src dst := rfl

theorem aggWK_eq (ew : FVec Ideal S1250000 .f32) (dst : IVec S1250000 32) :
    aggWK ew dst = Cert.ReferenceIdeal.RefValue.aggW ew dst := rfl

/-- The aggregated rows, after the host operations. -/
theorem v13_eq (c : Dev nD) :
    V2 (F := Ideal) m ρ c main_v13
      = aggVK (W1 m ρ c (Proc.devRef .tc main_v0)) (W1 m ρ c (Proc.devRef .tc main_arg2))
          (W1 m ρ c (Proc.devRef .tc main_arg7)) (W1 m ρ c (Proc.devRef .tc main_arg8)) := by
  show StableHlo.after hostOps1 (W1 m ρ c) (Proc.devRef .tc main_v13) = _
  after_results
  rfl

/-! ## The specification's spellings of the host operations' results -/

/-- A vector laid down as one column is the specification's column. -/
theorem col_eq (w : FVec Ideal S100000 .f32) :
    broadcastInDim S100000x1 ![0] bcast_S100000_S100000x1_0 w = Cert.Gnn.col w := by
  funext i
  obtain ⟨p, z, rfl⟩ : ∃ (p : Fin 100000) (z : Fin 1), i = ix2 p z := ⟨i 0, i 1, eq_ix2 i⟩
  obtain rfl : z = 0 := Subsingleton.elim _ _
  exact Cert.LibRowOps.col1_host_apply w bcast_S100000_S100000x1_0 p

/-- The first 64 rows of the weights are the specification's upper half. -/
theorem upper_eq (W : FVec Ideal S128x128 .f32) :
    extractStridedSlice S64x128 ![0, 0] W slices_S128x128_S64x128_0_0 = Cert.Gnn.upper (h := 64) W := by
  funext i
  obtain ⟨p, q, rfl⟩ : ∃ (p : Fin 64) (q : Fin 128), i = ix2 p q := ⟨i 0, i 1, eq_ix2 i⟩
  refine extractStridedSlice_apply _ W _ (ix2 p q) (ix2 (Fin.castAdd 64 p) q) fun a => ?_
  match a with
  | ⟨0, _⟩ => show p.val = 0 + p.val; omega
  | ⟨1, _⟩ => show q.val = 0 + q.val; omega

/-- The last 64 rows of the weights are the specification's lower half. -/
theorem lower_eq (W : FVec Ideal S128x128 .f32) :
    extractStridedSlice S64x128 ![64, 0] W slices_S128x128_S64x128_64_0 = Cert.Gnn.lower (h := 64) W := by
  funext i
  obtain ⟨p, q, rfl⟩ : ∃ (p : Fin 64) (q : Fin 128), i = ix2 p q := ⟨i 0, i 1, eq_ix2 i⟩
  refine extractStridedSlice_apply _ W _ (ix2 p q) (ix2 (Fin.natAdd 64 p) q) fun a => ?_
  match a with
  | ⟨0, _⟩ => show 64 + p.val = 64 + p.val; rfl
  | ⟨1, _⟩ => show q.val = 0 + q.val; omega

/-! ## The buffers at region 0's exit -/

/-- The first layer's array, after region 0. -/
theorem W1_v0 (c : Dev nD) :
    W1 (F := Ideal) m ρ c (Proc.devRef .tc main_v0) = Cert.Gnn.dense (k0 m c) (k3 m c) (k4 m c) :=
  (W1_arr m ρ c 3).trans (R0.final0 (V0 m ρ) c)

theorem W1_arg1 (c : Dev nD) : W1 (F := Ideal) m ρ c (Proc.devRef .tc main_arg1) = k1 m c :=
  W1_of_ne m ρ c main_arg1 (by decide)
theorem W1_arg2 (c : Dev nD) : W1 (F := Ideal) m ρ c (Proc.devRef .tc main_arg2) = k2 m c :=
  W1_of_ne m ρ c main_arg2 (by decide)
theorem W1_arg5 (c : Dev nD) : W1 (F := Ideal) m ρ c (Proc.devRef .tc main_arg5) = k5 m c :=
  W1_of_ne m ρ c main_arg5 (by decide)
theorem W1_arg6 (c : Dev nD) : W1 (F := Ideal) m ρ c (Proc.devRef .tc main_arg6) = k6 m c :=
  W1_of_ne m ρ c main_arg6 (by decide)
theorem W1_arg7 (c : Dev nD) : W1 (F := Ideal) m ρ c (Proc.devRef .tc main_arg7) = k7 m c :=
  W1_of_ne m ρ c main_arg7 (by decide)
theorem W1_arg8 (c : Dev nD) : W1 (F := Ideal) m ρ c (Proc.devRef .tc main_arg8) = k8 m c :=
  W1_of_ne m ρ c main_arg8 (by decide)

/-! ## The buffers after the host operations -/

/-- The aggregated weights as one column, after the host operations. -/
theorem v17_eq (c : Dev nD) :
    V2 (F := Ideal) m ρ c main_v17
      = broadcastInDim S100000x1 ![0] bcast_S100000_S100000x1_0
          (aggWK (W1 m ρ c (Proc.devRef .tc main_arg2)) (W1 m ρ c (Proc.devRef .tc main_arg8))) := by
  show StableHlo.after hostOps1 (W1 m ρ c) (Proc.devRef .tc main_v17) = _
  after_results
  rfl

/-- The first 64 rows of the second layer's weights, after the host operations. -/
theorem v18_eq (c : Dev nD) :
    V2 (F := Ideal) m ρ c main_v18
      = extractStridedSlice S64x128 ![0, 0] (W1 m ρ c (Proc.devRef .tc main_arg5)) slices_S128x128_S64x128_0_0 := by
  show StableHlo.after hostOps1 (W1 m ρ c) (Proc.devRef .tc main_v18) = _
  after_results

/-- The last 64 rows of the second layer's weights, after the host operations. -/
theorem v19_eq (c : Dev nD) :
    V2 (F := Ideal) m ρ c main_v19
      = extractStridedSlice S64x128 ![64, 0] (W1 m ρ c (Proc.devRef .tc main_arg5)) slices_S128x128_S64x128_64_0 := by
  show StableHlo.after hostOps1 (W1 m ρ c) (Proc.devRef .tc main_v19) = _
  after_results

/-- No host operation writes the destination features. -/
theorem V2_arg1 (c : Dev nD) : V2 (F := Ideal) m ρ c main_arg1 = k1 m c :=
  calc V2 (F := Ideal) m ρ c main_arg1
    _ = W1 m ρ c (Proc.devRef .tc main_arg1) := StableHlo.after_of_forall_not_mem (b := Proc.devRef .tc main_arg1) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = k1 m c := W1_arg1 m ρ c

/-- No host operation writes the second layer's bias. -/
theorem V2_arg6 (c : Dev nD) : V2 (F := Ideal) m ρ c main_arg6 = k6 m c :=
  calc V2 (F := Ideal) m ρ c main_arg6
    _ = W1 m ρ c (Proc.devRef .tc main_arg6) := StableHlo.after_of_forall_not_mem (b := Proc.devRef .tc main_arg6) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = k6 m c := W1_arg6 m ρ c

/-! ## Region 1's inputs in the specification's terms -/

theorem v13_spec (c : Dev nD) :
    V2 (F := Ideal) m ρ c main_v13
      = Cert.ReferenceIdeal.RefValue.aggV (Cert.Gnn.dense (k0 m c) (k3 m c) (k4 m c)) (k2 m c) (k7 m c) (k8 m c) := by
  rw [v13_eq, W1_v0, W1_arg2, W1_arg7, W1_arg8, aggVK_eq]

theorem v17_spec (c : Dev nD) :
    V2 (F := Ideal) m ρ c main_v17 = Cert.Gnn.col (Cert.ReferenceIdeal.RefValue.aggW (k2 m c) (k8 m c)) := by
  rw [v17_eq, W1_arg2, W1_arg8, aggWK_eq, col_eq]

theorem v18_spec (c : Dev nD) : V2 (F := Ideal) m ρ c main_v18 = Cert.Gnn.upper (h := 64) (k5 m c) := by
  rw [v18_eq, W1_arg5, upper_eq]

theorem v19_spec (c : Dev nD) : V2 (F := Ideal) m ρ c main_v19 = Cert.Gnn.lower (h := 64) (k5 m c) := by
  rw [v19_eq, W1_arg5, lower_eq]

/-- The specification's second-layer output at the launch memory's arguments. -/
abbrev newK (c : Dev nD) : Cert.Gnn.Mat 100000 128 :=
  Cert.ReferenceIdeal.RefValue.newOf (k0 m c) (k1 m c) (k2 m c) (k3 m c) (k4 m c) (k5 m c) (k6 m c) (k7 m c) (k8 m c)

/-- Region 1's row output is the specification's second-layer output. -/
theorem Y6_eq (c : Dev nD) : R1.Y6 (V2 (F := Ideal) m ρ) c = newK m c := by
  show Cert.Gnn.dense2 (Cert.Gnn.mean (V2 (F := Ideal) m ρ c main_v13) (V2 (F := Ideal) m ρ c main_v17))
      (V2 (F := Ideal) m ρ c main_arg1) (V2 (F := Ideal) m ρ c main_v18) (V2 (F := Ideal) m ρ c main_v19)
      (V2 (F := Ideal) m ρ c main_arg6) = _
  rw [v13_spec, v17_spec, V2_arg1, v18_spec, v19_spec, V2_arg6]
  rfl

/-! ## The buffers at region 1's exit -/

theorem v20_0_eq (c : Dev nD) : V3 (F := Ideal) m ρ c main_v20_0 = newK m c :=
  ((W3_arr m ρ c 6).trans (R1.final1_6 (V2 m ρ) c)).trans (Y6_eq m ρ c)

theorem v20_1_eq (c : Dev nD) :
    V3 (F := Ideal) m ρ c main_v20_1 (ix2 (0 : Fin 1) (0 : Fin 1)) = Cert.Gnn.sumsq (newK m c) := by
  have h := (W3_arr m ρ c 7).trans (R1.final1_7 (V2 m ρ) c)
  refine (congrFun h (ix2 (0 : Fin 1) (0 : Fin 1))).trans ?_
  show ∑ s ∈ Finset.range 10, R1.tileSum (V2 (F := Ideal) m ρ) c s = _
  rw [R1.total_eq, Y6_eq]

/-! ## The result -/

/-- The result buffer at the last segment boundary. -/
theorem result_eq (c : Dev nD) :
    W4 (F := Ideal) m ρ c (Proc.devRef .tc main_v21)
      = Cert.Gnn.scale (newK m c) (Cert.Gnn.sumsq (newK m c)) := by
  refine ((W4_arr m ρ c 2).trans (R2.final2 (V3 m ρ) c)).trans ?_
  rw [v20_0_eq, v20_1_eq]

/-- The run of the idealized kernel, its result read as the specification's. -/
theorem run : θ_run defs (onTc (τ := τ) (main (F := Ideal))) ⟨m, fun _ => 0, ρ⟩ (fun r => ∀ c : Dev nD,
      r.2.mem ((c.tc : Thread nD τ).loc main_v21) = Cert.Gnn.scale (newK m c) (Cert.Gnn.sumsq (newK m c))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)) :=
  (θ_run defs _ _).mono (fun r h c => ⟨(h c).1.trans (result_eq m ρ c), (h c).2⟩) (Run.run_result m ρ)

end Cert.KernelIdeal.Value

end
-- ==== Proof.PreNorm.lean ====
import proofs.«173555_j42185168781626_2_alg».proof.Pre_finite_inputs
import proofs.«173555_j42185168781626_2_alg».proof.Proof.RefValue
import Idealize.ShloMosaic.Lib.Affine
import Idealize.ShloMosaic.Lib.ValueIdx
import Idealize.ShloMosaic.Lib.IdealHost
import Idealize.ShloMosaic.PureOps.Ideal.Laws

/-!
# The precondition's last conjunct: the normalising scalar is not zero

The precondition ends in the conjunct "the square root of the sum of the squares of the second layer's output is
above zero", the output spelt with its own copies of the shape records. Here that output is identified with the
specification's second-layer output of the nine arrays, so a true precondition gives a non-zero square root of the
specification's sum of squares: the reference's final division is by a non-zero number.
-/

noncomputable section

namespace Cert.Proof.PreNorm

open Idealize.ShloMosaic Idealize.ShloMosaic.ValueIdx
open Cert.Pre_finite_inputs
open Cert.ReferenceIdeal.RefValue (aggV aggW newOf layer1_eq mean_eq layer2_eq norm_eq)

variable [Cert.Pre_finite_inputs.Facts]
open Cert.Pre_finite_inputs.Facts

/-! ## The two programs' shape records are the same records -/

theorem dot64_eq : dot_S100000x64_S64x64_S100000x64_1_0_0_1_n_n
    = Cert.ReferenceIdeal.dot_S100000x64_S64x64_S100000x64_1_0_0_1_n_n := rfl
theorem dot128_eq : dot_S100000x128_S128x128_S100000x128_1_0_0_1_n_n
    = Cert.ReferenceIdeal.dot_S100000x128_S128x128_S100000x128_1_0_0_1_n_n := rfl
theorem gather_eq : gather_S100000x64_S1250000x1_S1250000x64_1_0_n_n_0_1_164
    = Cert.ReferenceIdeal.gather_S100000x64_S1250000x1_S1250000x64_1_0_n_n_0_1_164 := rfl
theorem scatterV_eq : scatter_S100000x64_S1250000x1_S1250000x64_1_0_0_1
    = Cert.ReferenceIdeal.scatter_S100000x64_S1250000x1_S1250000x64_1_0_0_1 := rfl
theorem scatterW_eq : scatter_S100000_S1250000x1_S1250000_n_0_0_1
    = Cert.ReferenceIdeal.scatter_S100000_S1250000x1_S1250000_n_0_0_1 := rfl

/-! ## The precondition's spelling of the activations -/

/-- The first layer, as the precondition spells it. -/
def preHs (x0 : FVec Ideal S100000x64 .f32) (x3 : FVec Ideal S64x64 .f32) (x4 : FVec Ideal S64 .f32) :
    FVec Ideal S100000x64 .f32 :=
  maximumf (addf (Host.dotGeneral dot_S100000x64_S64x64_S100000x64_1_0_0_1_n_n none x0 x3) (broadcastInDim S100000x64 ![0, 1] bcast_S1x64_S100000x64_0_1 (broadcastInDim S1x64 ![1] bcast_S64_S1x64_1 x4))) (broadcastInDim S100000x64 ![] bcast_S_S100000x64 (constant S_ .f32 0x00000000#32))

/-- The aggregated messages, as the precondition spells them. -/
def preV (x0 : FVec Ideal S100000x64 .f32) (x2 : FVec Ideal S1250000 .f32) (x3 : FVec Ideal S64x64 .f32)
    (x4 : FVec Ideal S64 .f32) (x7 x8 : IVec S1250000 32) : FVec Ideal S100000x64 .f32 :=
  Host.scatterAdd scatter_S100000x64_S1250000x1_S1250000x64_1_0_0_1 (broadcastInDim S100000x64 ![] bcast_S_S100000x64 (constant S_ .f32 0x00000000#32)) (broadcastInDim S1250000x1 ![0] bcast_S1250000_S1250000x1_0 x8) (mulf (Host.gather gather_S100000x64_S1250000x1_S1250000x64_1_0_n_n_0_1_164 (preHs x0 x3 x4) (broadcastInDim S1250000x1 ![0] bcast_S1250000_S1250000x1_0 (select (cmpi .slt x7 (broadcastInDim S1250000 ![] bcast_S_S1250000 (constantI S_ 32 0#32))) (addi x7 (broadcastInDim S1250000 ![] bcast_S_S1250000 (constantI S_ 32 100000#32))) x7))) (broadcastInDim S1250000x64 ![0, 1] bcast_S1250000x1_S1250000x64_0_1 (broadcastInDim S1250000x1 ![0] bcast_S1250000_S1250000x1_0 x2)))

/-- The second layer's output from the aggregated messages `V`, as the precondition spells it. -/
def preN (x1 : FVec Ideal S100000x64 .f32) (x2 : FVec Ideal S1250000 .f32) (x5 : FVec Ideal S128x128 .f32)
    (x6 : FVec Ideal S128 .f32) (x8 : IVec S1250000 32) (V : FVec Ideal S100000x64 .f32) :
    FVec Ideal S100000x128 .f32 :=
  maximumf (addf (Host.dotGeneral dot_S100000x128_S128x128_S100000x128_1_0_0_1_n_n none (concatenate S100000x128 1 [⟨S100000x64, Host.divf V (broadcastInDim S100000x64 ![0, 1] bcast_S100000x1_S100000x64_0_1 (broadcastInDim S100000x1 ![0] bcast_S100000_S100000x1_0 (maximumf (broadcastInDim S100000 ![] bcast_S_S100000 (constant S_ .f32 0x3F800000#32)) (Host.scatterAdd scatter_S100000_S1250000x1_S1250000_n_0_0_1 (broadcastInDim S100000 ![] bcast_S_S100000 (constant S_ .f32 0x00000000#32)) (broadcastInDim S1250000x1 ![0] bcast_S1250000_S1250000x1_0 x8) x2))))⟩, ⟨S100000x64, x1⟩] concatenates_S100000x64_S100000x64_S100000x128_d1) x5) (broadcastInDim S100000x128 ![0, 1] bcast_S1x128_S100000x128_0_1 (broadcastInDim S1x128 ![1] bcast_S128_S1x128_1 x6))) (broadcastInDim S100000x128 ![] bcast_S_S100000x128 (constant S_ .f32 0x00000000#32))

theorem preHs_eq (x0 : FVec Ideal S100000x64 .f32) (x3 : FVec Ideal S64x64 .f32) (x4 : FVec Ideal S64 .f32) :
    preHs x0 x3 x4 = Cert.Gnn.dense x0 x3 x4 := by
  unfold preHs
  rw [dot64_eq]
  exact layer1_eq x0 x3 x4

theorem preV_eq (x0 : FVec Ideal S100000x64 .f32) (x2 : FVec Ideal S1250000 .f32) (x3 : FVec Ideal S64x64 .f32)
    (x4 : FVec Ideal S64 .f32) (x7 x8 : IVec S1250000 32) :
    preV x0 x2 x3 x4 x7 x8 = aggV (Cert.Gnn.dense x0 x3 x4) x2 x7 x8 := by
  unfold preV aggV
  rw [preHs_eq, gather_eq, scatterV_eq]

theorem preN_eq (x1 : FVec Ideal S100000x64 .f32) (x2 : FVec Ideal S1250000 .f32) (x5 : FVec Ideal S128x128 .f32)
    (x6 : FVec Ideal S128 .f32) (x8 : IVec S1250000 32) (V : FVec Ideal S100000x64 .f32) :
    preN x1 x2 x5 x6 x8 V
      = Cert.Gnn.dense2 (Cert.Gnn.mean V (Cert.Gnn.col (aggW x2 x8))) x1 (Cert.Gnn.upper (h := 64) x5)
          (Cert.Gnn.lower (h := 64) x5) x6 := by
  unfold preN
  rw [dot128_eq]
  refine (layer2_eq _ x1 x5 x6).trans ?_
  refine congrArg (fun A => Cert.Gnn.dense2 A x1 (Cert.Gnn.upper (h := 64) x5) (Cert.Gnn.lower (h := 64) x5) x6) ?_
  rw [scatterW_eq]
  exact mean_eq V (aggW x2 x8)

/-- The precondition's second-layer output is the specification's. -/
theorem preN_newOf (x0 x1 : FVec Ideal S100000x64 .f32) (x2 : FVec Ideal S1250000 .f32) (x3 : FVec Ideal S64x64 .f32)
    (x4 : FVec Ideal S64 .f32) (x5 : FVec Ideal S128x128 .f32) (x6 : FVec Ideal S128 .f32) (x7 x8 : IVec S1250000 32) :
    preN x1 x2 x5 x6 x8 (preV x0 x2 x3 x4 x7 x8) = newOf x0 x1 x2 x3 x4 x5 x6 x7 x8 := by
  rw [preN_eq, preV_eq]
  rfl

/-! ## The precondition ends in the comparison of the normalising scalar with zero -/

set_option maxRecDepth 8192 in
theorem fn_last (x0 x1 : FVec Ideal S100000x64 .f32) (x2 : FVec Ideal S1250000 .f32) (x3 : FVec Ideal S64x64 .f32)
    (x4 : FVec Ideal S64 .f32) (x5 : FVec Ideal S128x128 .f32) (x6 : FVec Ideal S128 .f32) (x7 x8 : IVec S1250000 32) :
    ∃ v : IVec S_ 1, Cert.Pre_finite_inputs.fn (F := Ideal) x0 x1 x2 x3 x4 x5 x6 x7 x8
      = andi v (cmpf .ogt (Host.sqrt (Host.reduceAdd
          (mulf (preN x1 x2 x5 x6 x8 (preV x0 x2 x3 x4 x7 x8)) (preN x1 x2 x5 x6 x8 (preV x0 x2 x3 x4 x7 x8)))
          (constant S_ .f32 0x00000000#32) reducesTo_S100000x128_S_d0_1 h_S_)) (constant S_ .f32 0x00000000#32)) :=
  ⟨_, rfl⟩

/-- A strict comparison that answers one is the strict order. -/
theorem lt_of_cmp_ogt {a b : EReal} (h : Ideal.cmp .ogt a b = 1#1) : b < a := by
  by_contra hn
  have e : Ideal.cmp .ogt a b = 0#1 := by simp [Ideal.cmp, hn]
  rw [e] at h
  exact absurd h (by decide)

/-- A conjunction whose last conjunct compares a scalar with zero: if it is true, the scalar is above zero. -/
theorem pos_of_last (v : IVec S_ 1) (s : FVec Ideal S_ .f32)
    (h : andi v (cmpf .ogt s (constant S_ .f32 0x00000000#32)) = fun _ => 1#1) : (0 : EReal) < s ix0 := by
  have h0 := congrFun h ix0
  have h1 : FloatOps.cmpf (F := Ideal) .ogt (s ix0) (constant (F := Ideal) S_ .f32 0x00000000#32 ix0) = 1#1 :=
    (IntOp.andi_eq_one.1 h0).2
  rw [Ideal.cmpf_def, constant_apply, Ideal.ofBits_zero_f32] at h1
  exact lt_of_cmp_ogt h1

/-- The square root of the sum over both axes of the squares, from the zero initial value, is the square root of
    the specification's sum of squares (the precondition's copy of the reduction's side conditions). -/
theorem norm_eq' (Z : FVec Ideal S100000x128 .f32) :
    Host.sqrt (Host.reduceAdd (mulf Z Z) (constant S_ .f32 0x00000000#32) reducesTo_S100000x128_S_d0_1 h_S_) ix0
      = Ideal.sqrt (Cert.Gnn.sumsq Z) := by
  rw [Cert.ReferenceIdeal.RefValue.hostSqrt_apply, hostReduceAdd_apply,
    Ideal.hostReduceAdd_total reducesTo_S100000x128_S_d0_1 (fun b => b.elim0),
    constant_apply, Ideal.ofBits_zero_f32, zero_add, sum_idx2]
  rfl

/-- Under the precondition the square root of the specification's sum of squares is not zero. -/
theorem norm_ne_zero (x0 x1 : FVec Ideal S100000x64 .f32) (x2 : FVec Ideal S1250000 .f32) (x3 : FVec Ideal S64x64 .f32)
    (x4 : FVec Ideal S64 .f32) (x5 : FVec Ideal S128x128 .f32) (x6 : FVec Ideal S128 .f32) (x7 x8 : IVec S1250000 32)
    (h : Cert.Pre_finite_inputs.fn (F := Ideal) x0 x1 x2 x3 x4 x5 x6 x7 x8 = fun _ => 1#1) :
    Ideal.sqrt (Cert.Gnn.sumsq (newOf x0 x1 x2 x3 x4 x5 x6 x7 x8)) ≠ 0 := by
  obtain ⟨v, hv⟩ := fn_last x0 x1 x2 x3 x4 x5 x6 x7 x8
  have hp := pos_of_last v _ (hv.symm.trans h)
  rw [preN_newOf, norm_eq'] at hp
  exact ne_of_gt hp

end Cert.Proof.PreNorm

end
-- ==== Proof.lean ====
/-
  The certificate of a two-layer graph message-passing block: three pipelined kernels (a rectified affine layer on the
  source features; the weighted mean of the aggregated messages fed, beside the destination features, to a second
  rectified affine layer, with the sum of the squares of its output accumulated over the row blocks; the output scaled
  by the reciprocal of the root of that sum) against the plain array program (the same two layers on whole arrays, the
  second on the concatenated rows, divided by the Euclidean norm of all its entries).

  At the exact extended reals the two agree entry by entry: a matrix product into a zero accumulator is the host's
  contraction; a contraction over the concatenated row is the sum of the contractions over its two halves; the
  clipping `max ws 1` is `max 1 ws`; the sum of squares taken block by block, rows then columns, is the sum over all
  entries; and multiplying by `1 / d` is dividing by `d` whenever `d` is not zero — which the precondition provides:
  the norm the reference divides by is positive (where it vanishes the reference is `0 / 0`). The gather and the two
  scatter-additions between the layers are the same operations on both sides and are never opened.
-/
import proofs.«173555_j42185168781626_2_alg».proof.Defs
import proofs.«173555_j42185168781626_2_alg».proof.Proof.Gen.Kernel
import proofs.«173555_j42185168781626_2_alg».proof.Proof.Gen.Kernel.Frame
import proofs.«173555_j42185168781626_2_alg».proof.Proof.Gen.KernelIdeal
import proofs.«173555_j42185168781626_2_alg».proof.Proof.Gen.KernelIdeal.Frame
import proofs.«173555_j42185168781626_2_alg».proof.Proof.Gen.ReferenceIdeal
import proofs.«173555_j42185168781626_2_alg».proof.Proof.Gen.ReferenceIdeal.Run
import proofs.«173555_j42185168781626_2_alg».proof.Proof.Gen.Pre_finite_inputs
import proofs.«173555_j42185168781626_2_alg».proof.Proof.KernelValue
import proofs.«173555_j42185168781626_2_alg».proof.Proof.RefValue
import proofs.«173555_j42185168781626_2_alg».proof.Proof.PreNorm
import Idealize.ShloMosaic.Adequacy
import Idealize.ShloMosaic.Init

noncomputable section

namespace Cert.Proof

open Idealize.ShloMosaic Idealize.SL.Sem

theorem frame_k : Cert.frame_Kernel (hKernel := Cert.Kernel.Gen.facts) (hPre_finite_inputs := Cert.Pre_finite_inputs.Gen.facts) :=
  fun m ρ _ => Cert.Kernel.Gen.frame m ρ

theorem frame_ki : Cert.frame_KernelIdeal (hKernelIdeal := Cert.KernelIdeal.Gen.facts) (hPre_finite_inputs := Cert.Pre_finite_inputs.Gen.facts) :=
  fun m ρ _ => Cert.KernelIdeal.Gen.frame m ρ

theorem frame_ri : Cert.frame_ReferenceIdeal (hReferenceIdeal := Cert.ReferenceIdeal.Gen.facts) (hPre_finite_inputs := Cert.Pre_finite_inputs.Gen.facts) :=
  fun m ρ _ => (θ_run Cert.ReferenceIdeal.defs _ _).mono (fun _ h c => (h c).2) (Cert.ReferenceIdeal.Value.run (F := Ideal) m ρ)

/-- The two idealized programs end with equal results: both are the second layer of the arguments, the kernel's scaled by
    the reciprocal of the root of its sum of squares, the reference's divided by that root, which is not zero. -/
theorem algebraic : Cert.algebraic_KernelIdeal_ReferenceIdeal (hKernelIdeal := Cert.KernelIdeal.Gen.facts)
    (hReferenceIdeal := Cert.ReferenceIdeal.Gen.facts) (hPre_finite_inputs := Cert.Pre_finite_inputs.Gen.facts) := by
  intro m ρ m' ρ' hpre hagree
  refine ⟨_, Cert.KernelIdeal.Value.run m ρ, ?_⟩
  refine (θ_run Cert.ReferenceIdeal.defs _ _).mono (fun _ h c => ⟨(h c).1.trans ?_, (h c).2⟩)
    (Cert.ReferenceIdeal.Value.run (F := Ideal) m' ρ')
  obtain ⟨e0, e1, e2, e3, e4, e5, e6, e7, e8⟩ := hagree c
  have hne : Ideal.sqrt (Cert.Gnn.sumsq (Cert.KernelIdeal.Value.newK m c)) ≠ 0 := Cert.Proof.PreNorm.norm_ne_zero _ _ _ _ _ _ _ _ _ (hpre c)
  have hY : Cert.ReferenceIdeal.RefValue.Y m' c = Cert.KernelIdeal.Value.newK m c := by
    dsimp only [Cert.ReferenceIdeal.RefValue.Y, Cert.KernelIdeal.Value.newK, Cert.ReferenceIdeal.RefValue.a0,
      Cert.ReferenceIdeal.RefValue.a1, Cert.ReferenceIdeal.RefValue.a2, Cert.ReferenceIdeal.RefValue.a3,
      Cert.ReferenceIdeal.RefValue.a4, Cert.ReferenceIdeal.RefValue.a5, Cert.ReferenceIdeal.RefValue.a6,
      Cert.ReferenceIdeal.RefValue.a7, Cert.ReferenceIdeal.RefValue.a8, Cert.KernelIdeal.Value.k0, Cert.KernelIdeal.Value.k1,
      Cert.KernelIdeal.Value.k2, Cert.KernelIdeal.Value.k3, Cert.KernelIdeal.Value.k4, Cert.KernelIdeal.Value.k5,
      Cert.KernelIdeal.Value.k6, Cert.KernelIdeal.Value.k7, Cert.KernelIdeal.Value.k8]
    rw [e0, e1, e2, e3, e4, e5, e6, e7, e8]
  funext i
  refine (Cert.ReferenceIdeal.RefValue.result_eq m' c i).trans ?_
  rw [hY]
  exact (Cert.Gnn.scale_eq_div _ _ hne i).symm

theorem claim : Cert.Claim :=
  ⟨Cert.Kernel.Gen.facts, Cert.KernelIdeal.Gen.facts, Cert.ReferenceIdeal.Gen.facts, Cert.Pre_finite_inputs.Gen.facts,
    frame_k, frame_ki, frame_ri, trivial, algebraic⟩

end Cert.Proof

end
